-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x65 : Shape := ⟨4, ![4, 64, 64, 65]⟩
abbrev S256x577 : Shape := ⟨2, ![256, 577]⟩
abbrev S256 : Shape := ⟨1, ![256]⟩
abbrev S_ : Shape := ⟨0, ![]⟩

class Facts : Prop where
  bcast_S_S4x64x64x65 : S_.BroadcastsInDim S4x64x64x65 (![] : Fin 0 → Fin S4x64x64x65.rank)
  reducesTo_S4x64x64x65_S_d0_1_2_3 : S4x64x64x65.ReducesTo [0, 1, 2, 3] S_
  h_S_ : 0 < S_.numel
  bcast_S_S256x577 : S_.BroadcastsInDim S256x577 (![] : Fin 0 → Fin S256x577.rank)
  reducesTo_S256x577_S_d0_1 : S256x577.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S4x64x64x65 .f32) (main_arg1 : FVec F S256x577 .f32) (main_arg2 : FVec F S256 .f32) : IVec S_ 1 :=
  let main_v0 : FVec F S4x64x64x65 .f32 := Host.absf main_arg0
  let main_cst : FVec F S_ .f32 := constant S_ .f32 0x7F800000#32
  let main_v1 : FVec F S4x64x64x65 .f32 := broadcastInDim S4x64x64x65 ![] bcast_S_S4x64x64x65 main_cst
  let main_v2 : IVec S4x64x64x65 1 := cmpf .olt main_v0 main_v1
  let main_c : IVec S_ 1 := constantI S_ 1 1#1
  let main_v3 : IVec S_ 1 := (fun x v => Host.reduce IntOp.andi x v reducesTo_S4x64x64x65_S_d0_1_2_3 h_S_) main_v2 main_c
  let main_v4 : FVec F S256x577 .f32 := Host.absf main_arg1
  let main_cst_0 : FVec F S_ .f32 := constant S_ .f32 0x7F800000#32
  let main_v5 : FVec F S256x577 .f32 := broadcastInDim S256x577 ![] bcast_S_S256x577 main_cst_0
  let main_v6 : IVec S256x577 1 := cmpf .olt main_v4 main_v5
  let main_c_1 : IVec S_ 1 := constantI S_ 1 1#1
  let main_v7 : IVec S_ 1 := (fun x v => Host.reduce IntOp.andi x v reducesTo_S256x577_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S4x64x64x65 : Shape := ⟨4, ![4, 64, 64, 65]⟩
abbrev S256x577 : Shape := ⟨2, ![256, 577]⟩
abbrev S256 : Shape := ⟨1, ![256]⟩
abbrev S4x577 : Shape := ⟨2, ![4, 577]⟩
abbrev S4x65x64x64 : Shape := ⟨4, ![4, 65, 64, 64]⟩
abbrev S_ : Shape := ⟨0, ![]⟩
abbrev S4x65x66x66 : Shape := ⟨4, ![4, 65, 66, 66]⟩
abbrev S4x65x1x64x64 : Shape := ⟨5, ![4, 65, 1, 64, 64]⟩
abbrev S4x65x9x64x64 : Shape := ⟨5, ![4, 65, 9, 64, 64]⟩
abbrev S4x585x4096 : Shape := ⟨3, ![4, 585, 4096]⟩
abbrev S4x4096x585 : Shape := ⟨3, ![4, 4096, 585]⟩
abbrev S4x4096x65x9 : Shape := ⟨4, ![4, 4096, 65, 9]⟩
abbrev S4x4096x1x9 : Shape := ⟨4, ![4, 4096, 1, 9]⟩
abbrev S4x4096x9 : Shape := ⟨3, ![4, 4096, 9]⟩
abbrev S4x4096 : Shape := ⟨2, ![4, 4096]⟩
abbrev S4x4096x1 : Shape := ⟨3, ![4, 4096, 1]⟩
abbrev S4x4096x64x9 : Shape := ⟨4, ![4, 4096, 64, 9]⟩
abbrev S4x4096x9x64 : Shape := ⟨4, ![4, 4096, 9, 64]⟩
abbrev S4x4096x576 : Shape := ⟨3, ![4, 4096, 576]⟩
abbrev S4x4096x63 : Shape := ⟨3, ![4, 4096, 63]⟩
abbrev S4x4096x640 : Shape := ⟨3, ![4, 4096, 640]⟩
abbrev S577x256 : Shape := ⟨2, ![577, 256]⟩
abbrev S4x577x1 : Shape := ⟨3, ![4, 577, 1]⟩
abbrev S1 : Shape := ⟨1, ![1]⟩
abbrev S1x1x1 : Shape := ⟨3, ![1, 1, 1]⟩
abbrev S4x577x256 : Shape := ⟨3, ![4, 577, 256]⟩
abbrev S4x640x256 : Shape := ⟨3, ![4, 640, 256]⟩
abbrev S1x256 : Shape := ⟨2, ![1, 256]⟩
abbrev S4x4x4096x256 : Shape := ⟨4, ![4, 4, 4096, 256]⟩
abbrev S4x512x640 : Shape := ⟨3, ![4, 512, 640]⟩
abbrev S1x640x256 : Shape := ⟨3, ![1, 640, 256]⟩
abbrev S4x1x512x256 : Shape := ⟨4, ![4, 1, 512, 256]⟩
abbrev S640x256 : Shape := ⟨2, ![640, 256]⟩
abbrev S512x256 : Shape := ⟨2, ![512, 256]⟩
abbrev S1x512x640 : Shape := ⟨3, ![1, 512, 640]⟩
abbrev S512x640 : Shape := ⟨2, ![512, 640]⟩
abbrev S512 : Shape := ⟨1, ![512]⟩
abbrev S512x1 : Shape := ⟨2, ![512, 1]⟩
abbrev S1x1x512x256 : Shape := ⟨4, ![1, 1, 512, 256]⟩
abbrev S4x4x64x64x256 : Shape := ⟨5, ![4, 4, 64, 64, 256]⟩

abbrev nBuf : Space → Nat
  | .hbm => 82
  | .vmem => 7
  | .smem => 0
  | _ => 0

abbrev bufTy : (tb : Table) → Fin (tcTables nBuf tb) → BufTy
  | .hbm, ⟨0, _⟩ => ⟨S4x64x64x65, .f32⟩
  | .hbm, ⟨1, _⟩ => ⟨S256x577, .f32⟩
  | .hbm, ⟨2, _⟩ => ⟨S256, .f32⟩
  | .hbm, ⟨3, _⟩ => ⟨S4x577, .i32⟩
  | .hbm, ⟨4, _⟩ => ⟨S4x65x64x64, .f32⟩
  | .hbm, ⟨5, _⟩ => ⟨S_, .i32⟩
  | .hbm, ⟨6, _⟩ => ⟨S_, .f32⟩
  | .hbm, ⟨7, _⟩ => ⟨S4x65x66x66, .f32⟩
  | .hbm, ⟨8, _⟩ => ⟨S4x65x64x64, .f32⟩
  | .hbm, ⟨9, _⟩ => ⟨S4x65x64x64, .f32⟩
  | .hbm, ⟨10, _⟩ => ⟨S4x65x64x64, .f32⟩
  | .hbm, ⟨11, _⟩ => ⟨S4x65x64x64, .f32⟩
  | .hbm, ⟨12, _⟩ => ⟨S4x65x64x64, .f32⟩
  | .hbm, ⟨13, _⟩ => ⟨S4x65x64x64, .f32⟩
  | .hbm, ⟨14, _⟩ => ⟨S4x65x64x64, .f32⟩
  | .hbm, ⟨15, _⟩ => ⟨S4x65x64x64, .f32⟩
  | .hbm, ⟨16, _⟩ => ⟨S4x65x64x64, .f32⟩
  | .hbm, ⟨17, _⟩ => ⟨S4x65x1x64x64, .f32⟩
  | .hbm, ⟨18, _⟩ => ⟨S4x65x1x64x64, .f32⟩
  | .hbm, ⟨19, _⟩ => ⟨S4x65x1x64x64, .f32⟩
  | .hbm, ⟨20, _⟩ => ⟨S4x65x1x64x64, .f32⟩
  | .hbm, ⟨21, _⟩ => ⟨S4x65x1x64x64, .f32⟩
  | .hbm, ⟨22, _⟩ => ⟨S4x65x1x64x64, .f32⟩
  | .hbm, ⟨23, _⟩ => ⟨S4x65x1x64x64, .f32⟩
  | .hbm, ⟨24, _⟩ => ⟨S4x65x1x64x64, .f32⟩
  | .hbm, ⟨25, _⟩ => ⟨S4x65x1x64x64, .f32⟩
  | .hbm, ⟨26, _⟩ => ⟨S4x65x9x64x64, .f32⟩
  | .hbm, ⟨27, _⟩ => ⟨S4x585x4096, .f32⟩
  | .hbm, ⟨28, _⟩ => ⟨S4x4096x585, .f32⟩
  | .hbm, ⟨29, _⟩ => ⟨S4x4096x65x9, .f32⟩
  | .hbm, ⟨30, _⟩ => ⟨S4x4096x1x9, .f32⟩
  | .hbm, ⟨31, _⟩ => ⟨S4x4096x9, .f32⟩
  | .hbm, ⟨32, _⟩ => ⟨S_, .f32⟩
  | .hbm, ⟨33, _⟩ => ⟨S4x4096x9, .f32⟩
  | .hbm, ⟨34, _⟩ => ⟨S4x4096x9, .f32⟩
  | .hbm, ⟨35, _⟩ => ⟨S4x4096x9, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S4x4096x1, .f32⟩
  | .hbm, ⟨43, _⟩ => ⟨S4x4096x64x9, .f32⟩
  | .hbm, ⟨44, _⟩ => ⟨S4x4096x9x64, .f32⟩
  | .hbm, ⟨45, _⟩ => ⟨S4x4096x576, .f32⟩
  | .hbm, ⟨46, _⟩ => ⟨S_, .bf16⟩
  | .hbm, ⟨47, _⟩ => ⟨S4x4096x63, .bf16⟩
  | .hbm, ⟨48, _⟩ => ⟨S4x4096x1, .bf16⟩
  | .hbm, ⟨49, _⟩ => ⟨S4x4096x576, .bf16⟩
  | .hbm, ⟨50, _⟩ => ⟨S4x4096x640, .bf16⟩
  | .hbm, ⟨51, _⟩ => ⟨S577x256, .f32⟩
  | .hbm, ⟨52, _⟩ => ⟨S_, .i32⟩
  | .hbm, ⟨53, _⟩ => ⟨S4x577, .i32⟩
  | .hbm, ⟨54, _⟩ => ⟨S4x577, .i1⟩
  | .hbm, ⟨55, _⟩ => ⟨S_, .i32⟩
  | .hbm, ⟨56, _⟩ => ⟨S4x577, .i32⟩
  | .hbm, ⟨57, _⟩ => ⟨S4x577, .i32⟩
  | .hbm, ⟨58, _⟩ => ⟨S4x577, .i32⟩
  | .hbm, ⟨59, _⟩ => ⟨S4x577x1, .i32⟩
  | .hbm, ⟨60, _⟩ => ⟨S1, .i32⟩
  | .hbm, ⟨61, _⟩ => ⟨S_, .i32⟩
  | .hbm, ⟨62, _⟩ => ⟨S4x577x1, .i32⟩
  | .hbm, ⟨63, _⟩ => ⟨S4x577x1, .i1⟩
  | .hbm, ⟨64, _⟩ => ⟨S1x1x1, .i32⟩
  | .hbm, ⟨65, _⟩ => ⟨S4x577x1, .i32⟩
  | .hbm, ⟨66, _⟩ => ⟨S4x577x1, .i1⟩
  | .hbm, ⟨67, _⟩ => ⟨S4x577x1, .i1⟩
  | .hbm, ⟨68, _⟩ => ⟨S_, .i1⟩
  | .hbm, ⟨69, _⟩ => ⟨S4x577, .i1⟩
  | .hbm, ⟨70, _⟩ => ⟨S4x577x256, .f32⟩
  | .hbm, ⟨71, _⟩ => ⟨S4x577x256, .i1⟩
  | .hbm, ⟨72, _⟩ => ⟨S_, .f32⟩
  | .hbm, ⟨73, _⟩ => ⟨S4x577x256, .f32⟩
  | .hbm, ⟨74, _⟩ => ⟨S4x577x256, .f32⟩
  | .hbm, ⟨75, _⟩ => ⟨S_, .i32⟩
  | .hbm, ⟨76, _⟩ => ⟨S_, .f32⟩
  | .hbm, ⟨77, _⟩ => ⟨S4x640x256, .f32⟩
  | .hbm, ⟨78, _⟩ => ⟨S4x640x256, .bf16⟩
  | .hbm, ⟨79, _⟩ => ⟨S1x256, .f32⟩
  | .hbm, ⟨80, _⟩ => ⟨S4x4x4096x256, .f32⟩
  | .hbm, ⟨81, _⟩ => ⟨S4x4x64x64x256, .f32⟩
  | .local _ .vmem, ⟨0, _⟩ => ⟨S4x512x640, .bf16⟩
  | .local _ .vmem, ⟨1, _⟩ => ⟨S4x512x640, .bf16⟩
  | .local _ .vmem, ⟨2, _⟩ => ⟨S1x640x256, .bf16⟩
  | .local _ .vmem, ⟨3, _⟩ => ⟨S1x640x256, .bf16⟩
  | .local _ .vmem, ⟨4, _⟩ => ⟨S1x256, .f32⟩
  | .local _ .vmem, ⟨5, _⟩ => ⟨S4x1x512x256, .f32⟩
  | .local _ .vmem, ⟨6, _⟩ => ⟨S4x1x512x256, .f32⟩
  | _, _ => ⟨S4x64x64x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v42 : Ref sig .tc := ⟨.hbm, 74, rfl⟩
abbrev main_c_4 : Ref sig .tc := ⟨.hbm, 75, rfl⟩
abbrev main_call2_v0 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S4x512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x640x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x64x64x65_S4x65x64x64 : S4x64x64x65.ShapeCasts S4x65x64x64
  pads_S4x65x64x64_S4x65x66x66_000_000_110_110 : S4x65x64x64.Pads (![0, 0, 1, 1] : Fin 4 → Nat) ![0, 0, 1, 1] ![0, 0, 0, 0] S4x65x66x66
  h_S_ : 0 < S_.numel
  slices_S4x65x66x66_S4x65x64x64_0_0_0_0 : S4x65x66x66.Slices ![0, 0, 0, 0] S4x65x64x64
  slices_S4x65x66x66_S4x65x64x64_0_0_0_1 : S4x65x66x66.Slices ![0, 0, 0, 1] S4x65x64x64
  slices_S4x65x66x66_S4x65x64x64_0_0_0_2 : S4x65x66x66.Slices ![0, 0, 0, 2] S4x65x64x64
  slices_S4x65x66x66_S4x65x64x64_0_0_1_0 : S4x65x66x66.Slices ![0, 0, 1, 0] S4x65x64x64
  slices_S4x65x66x66_S4x65x64x64_0_0_1_1 : S4x65x66x66.Slices ![0, 0, 1, 1] S4x65x64x64
  slices_S4x65x66x66_S4x65x64x64_0_0_1_2 : S4x65x66x66.Slices ![0, 0, 1, 2] S4x65x64x64
  slices_S4x65x66x66_S4x65x64x64_0_0_2_0 : S4x65x66x66.Slices ![0, 0, 2, 0] S4x65x64x64
  slices_S4x65x66x66_S4x65x64x64_0_0_2_1 : S4x65x66x66.Slices ![0, 0, 2, 1] S4x65x64x64
  slices_S4x65x66x66_S4x65x64x64_0_0_2_2 : S4x65x66x66.Slices ![0, 0, 2, 2] S4x65x64x64
  bcast_S4x65x64x64_S4x65x1x64x64_0_1_3_4 : S4x65x64x64.BroadcastsInDim S4x65x1x64x64 (![0, 1, 3, 4] : Fin 4 → Fin S4x65x1x64x64.rank)
  concatenates_S4x65x1x64x64_S4x65x1x64x64_S4x65x1x64x64_S4x65x1x64x64_S4x65x1x64x64_S4x65x1x64x64_S4x65x1x64x64_S4x65x1x64x64_S4x65x1x64x64_S4x65x9x64x64_d2 : Shape.Concatenates [S4x65x1x64x64, S4x65x1x64x64, S4x65x1x64x64, S4x65x1x64x64, S4x65x1x64x64, S4x65x1x64x64, S4x65x1x64x64, S4x65x1x64x64, S4x65x1x64x64] S4x65x9x64x64 2
  shapeCasts_S4x65x9x64x64_S4x585x4096 : S4x65x9x64x64.ShapeCasts S4x585x4096
  transposes_S4x585x4096_S4x4096x585_0_2_1 : S4x585x4096.Transposes [0, 2, 1] S4x4096x585
  shapeCasts_S4x4096x585_S4x4096x65x9 : S4x4096x585.ShapeCasts S4x4096x65x9
  slices_S4x4096x65x9_S4x4096x1x9_0_0_0_0 : S4x4096x65x9.Slices ![0, 0, 0, 0] S4x4096x1x9
  shapeCasts_S4x4096x1x9_S4x4096x9 : S4x4096x1x9.ShapeCasts S4x4096x9
  bcast_S_S4x4096x9 : S_.BroadcastsInDim S4x4096x9 (![] : Fin 0 → Fin S4x4096x9.rank)
  reducesTo_S4x4096x9_S4x4096_d2 : S4x4096x9.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  slices_S4x4096x65x9_S4x4096x64x9_0_0_1_0 : S4x4096x65x9.Slices ![0, 0, 1, 0] S4x4096x64x9
  transposes_S4x4096x64x9_S4x4096x9x64_0_1_3_2 : S4x4096x64x9.Transposes [0, 1, 3, 2] S4x4096x9x64
  shapeCasts_S4x4096x9x64_S4x4096x576 : S4x4096x9x64.ShapeCasts S4x4096x576
  bcast_S_S4x4096x63 : S_.BroadcastsInDim S4x4096x63 (![] : Fin 0 → Fin S4x4096x63.rank)
  bitsLt_bf16_f32 : FTy.bits .bf16 < FTy.bits .f32
  concatenates_S4x4096x1_S4x4096x576_S4x4096x63_S4x4096x640_d2 : Shape.Concatenates [S4x4096x1, S4x4096x576, S4x4096x63] S4x4096x640 2
  transposes_S256x577_S577x256_1_0 : S256x577.Transposes [1, 0] S577x256
  bcast_S_S4x577 : S_.BroadcastsInDim S4x577 (![] : Fin 0 → Fin S4x577.rank)
  bcast_S4x577_S4x577x1_0_1 : S4x577.BroadcastsInDim S4x577x1 (![0, 1] : Fin 2 → Fin S4x577x1.rank)
  bcast_S_S4x577x1 : S_.BroadcastsInDim S4x577x1 (![] : Fin 0 → Fin S4x577x1.rank)
  bcast_S1_S1x1x1_2 : S1.BroadcastsInDim S1x1x1 (![2] : Fin 1 → Fin S1x1x1.rank)
  bcast_S1x1x1_S4x577x1_0_1_2 : S1x1x1.BroadcastsInDim S4x577x1 (![0, 1, 2] : Fin 3 → Fin S4x577x1.rank)
  reducesTo_S4x577x1_S4x577_d2 : S4x577x1.ReducesTo [2] S4x577
  bcast_S4x577_S4x577x256_0_1 : S4x577.BroadcastsInDim S4x577x256 (![0, 1] : Fin 2 → Fin S4x577x256.rank)
  bcast_S_S4x577x256 : S_.BroadcastsInDim S4x577x256 (![] : Fin 0 → Fin S4x577x256.rank)
  pads_S4x577x256_S4x640x256_000_0630_000 : S4x577x256.Pads (![0, 0, 0] : Fin 3 → Nat) ![0, 63, 0] ![0, 0, 0] S4x640x256
  shapeCasts_S256_S1x256 : S256.ShapeCasts S1x256
  inb_S1x640x256_S1x640x256_0_0_0 : ∀ a, (![0, 0, 0] : Fin 3 → Nat) a + S1x640x256.size a ≤ S1x640x256.size a
  h_S1x640x256 : 0 < S1x640x256.numel
  shapeCasts_S1x640x256_S640x256 : S1x640x256.ShapeCasts S640x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  iota_S512x256_d1_w32 : S512x256.Iotas .tc 32 [1]
  inb_S4x512x640_S1x512x640_0_0_0 : ∀ a, (![0, 0, 0] : Fin 3 → Nat) a + S1x512x640.size a ≤ S4x512x640.size a
  h_S1x512x640 : 0 < S1x512x640.numel
  shapeCasts_S1x512x640_S512x640 : S1x512x640.ShapeCasts S512x640
  broadcasts_S1x256_S512x256 : S1x256.Broadcasts S512x256
  reduces_S512x256_S512 : S512x256.Reduces [1] S512
  shapeCasts_S512_S512x1 : S512.ShapeCasts S512x1
  shapeCasts_S512x1_S512x1 : S512x1.ShapeCasts S512x1
  broadcasts_S512x1_S512x256 : S512x1.Broadcasts S512x256
  inb_S4x1x512x256_S1x1x512x256_0_0_0_0 : ∀ a, (![0, 0, 0, 0] : Fin 4 → Nat) a + S1x1x512x256.size a ≤ S4x1x512x256.size a
  h_S1x1x512x256 : 0 < S1x1x512x256.numel
  shapeCasts_S1x1x512x256_S512x256 : S1x1x512x256.ShapeCasts S512x256
  shapeCasts_S512x256_S1x1x512x256 : S512x256.ShapeCasts S1x1x512x256
  inb_S4x512x640_S1x512x640_1_0_0 : ∀ a, (![1, 0, 0] : Fin 3 → Nat) a + S1x512x640.size a ≤ S4x512x640.size a
  inb_S4x1x512x256_S1x1x512x256_1_0_0_0 : ∀ a, (![1, 0, 0, 0] : Fin 4 → Nat) a + S1x1x512x256.size a ≤ S4x1x512x256.size a
  inb_S4x512x640_S1x512x640_2_0_0 : ∀ a, (![2, 0, 0] : Fin 3 → Nat) a + S1x512x640.size a ≤ S4x512x640.size a
  inb_S4x1x512x256_S1x1x512x256_2_0_0_0 : ∀ a, (![2, 0, 0, 0] : Fin 4 → Nat) a + S1x1x512x256.size a ≤ S4x1x512x256.size a
  inb_S4x512x640_S1x512x640_3_0_0 : ∀ a, (![3, 0, 0] : Fin 3 → Nat) a + S1x512x640.size a ≤ S4x512x640.size a
  inb_S4x1x512x256_S1x1x512x256_3_0_0_0 : ∀ a, (![3, 0, 0, 0] : Fin 4 → Nat) a + S1x1x512x256.size a ≤ S4x1x512x256.size a
  shapeCasts_S4x4x4096x256_S4x4x64x64x256 : S4x4x4096x256.ShapeCasts S4x4x64x64x256
  gather_S577x256_S4x577x1_S4x577x256_2_0_n_n_0_2_1256_wf : GatherDims.WF S577x256 S4x577x1 S4x577x256 [2] [0] [] [0] [] 2 ![1, 256]
  dot_S512x640_S640x256_S512x256_1_0_0_1_n_n_wf : DotDims.WF S512x640 S640x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x640.size a ≤ S4x4096x640.size a
  hwx0_0 : ∀ i : grid0.Coords, EltTy.bits .bf16 = 32 ∨ (Rect.block (s := S4x4096x640) S4x512x640.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x640x256.size a ≤ S4x640x256.size a
  hwx0_1 : ∀ i : grid0.Coords, EltTy.bits .bf16 = 32 ∨ (Rect.block (s := S4x640x256) S1x640x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x512x256.size a ≤ S4x4x4096x256.size a
  hwx0_3 : ∀ i : grid0.Coords, EltTy.bits .f32 = 32 ∨ (Rect.block (s := S4x4x4096x256) S4x1x512x256.size (cc0_transform_3 i) (hinb0_3 i)).WholeWords (EltTy.packing .f32)

variable [Facts₀]

def gather_S577x256_S4x577x1_S4x577x256_2_0_n_n_0_2_1256 : GatherDims S577x256 S4x577x1 S4x577x256 where
  offsetDims := [2]
  collapsedSliceDims := [0]
  operandBatchingDims := []
  startIndicesBatchingDims := []
  startIndexMap := [0]
  indexVectorDim := 2
  sliceSizes := ![1, 256]
  wf := gather_S577x256_S4x577x1_S4x577x256_2_0_n_n_0_2_1256_wf
def dot_S512x640_S640x256_S512x256_1_0_0_1_n_n : DotDims S512x640 S640x256 S512x256 where
  lhsContracting := [1]
  rhsContracting := [0]
  lhsNonContracting := [0]
  rhsNonContracting := [1]
  lhsBatch := []
  rhsBatch := []
  wf := dot_S512x640_S640x256_S512x256_1_0_0_1_n_n_wf

abbrev win0_0 : Pipeline.Window sig grid0 :=
  Pipeline.Window.ofSpec (Memref.whole main_v40) S4x512x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S1x640x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S4x1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64x64x65 : Shape := ⟨4, ![4, 64, 64, 65]⟩
abbrev S256x577 : Shape := ⟨2, ![256, 577]⟩
abbrev S256 : Shape := ⟨1, ![256]⟩
abbrev S36 : Shape := ⟨1, ![36]⟩
abbrev S4x65x64x64 : Shape := ⟨4, ![4, 65, 64, 64]⟩
abbrev S_ : Shape := ⟨0, ![]⟩
abbrev S4x65x66x66 : Shape := ⟨4, ![4, 65, 66, 66]⟩
abbrev S4x65x1x64x64 : Shape := ⟨5, ![4, 65, 1, 64, 64]⟩
abbrev S4x65x9x64x64 : Shape := ⟨5, ![4, 65, 9, 64, 64]⟩
abbrev S4x585x4096 : Shape := ⟨3, ![4, 585, 4096]⟩
abbrev S4x4096x585 : Shape := ⟨3, ![4, 4096, 585]⟩
abbrev S4x4096x65x1x3x3 : Shape := ⟨6, ![4, 4096, 65, 1, 3, 3]⟩
abbrev S4x4096x65x4x3x3 : Shape := ⟨6, ![4, 4096, 65, 4, 3, 3]⟩
abbrev S36x1 : Shape := ⟨2, ![36, 1]⟩
abbrev S36x3 : Shape := ⟨2, ![36, 3]⟩
abbrev S4x4096x65x36 : Shape := ⟨4, ![4, 4096, 65, 36]⟩
abbrev S4x4096x65x4x9 : Shape := ⟨5, ![4, 4096, 65, 4, 9]⟩
abbrev S4x4x4096x65x9 : Shape := ⟨5, ![4, 4, 4096, 65, 9]⟩
abbrev S4x4x4096x585 : Shape := ⟨4, ![4, 4, 4096, 585]⟩
abbrev S4x4x4096x9 : Shape := ⟨4, ![4, 4, 4096, 9]⟩
abbrev S4x4x4096 : Shape := ⟨3, ![4, 4, 4096]⟩
abbrev S4x4x4096x1 : Shape := ⟨4, ![4, 4, 4096, 1]⟩
abbrev S4x4x4096x576 : Shape := ⟨4, ![4, 4, 4096, 576]⟩
abbrev S4x4x4096x64x9 : Shape := ⟨5, ![4, 4, 4096, 64, 9]⟩
abbrev S4x4x4096x9x64 : Shape := ⟨5, ![4, 4, 4096, 9, 64]⟩
abbrev S4x4x4096x577 : Shape := ⟨4, ![4, 4, 4096, 577]⟩
abbrev S4x4x4096x256 : Shape := ⟨4, ![4, 4, 4096, 256]⟩
abbrev S1x1x1x256 : Shape := ⟨4, ![1, 1, 1, 256]⟩
abbrev S4x4x4096x255 : Shape := ⟨4, ![4, 4, 4096, 255]⟩
abbrev S4x4x64x64x256 : Shape := ⟨5, ![4, 4, 64, 64, 256]⟩

abbrev nBuf : Space → Nat
  | .hbm => 90
  | .vmem => 0
  | .smem => 0
  | _ => 0

abbrev bufTy : (tb : Table) → Fin (tcTables nBuf tb) → BufTy
  | .hbm, ⟨0, _⟩ => ⟨S4x64x64x65, .f32⟩
  | .hbm, ⟨1, _⟩ => ⟨S256x577, .f32⟩
  | .hbm, ⟨2, _⟩ => ⟨S256, .f32⟩
  | .hbm, ⟨3, _⟩ => ⟨S36, .i32⟩
  | .hbm, ⟨4, _⟩ => ⟨S36, .i1⟩
  | .hbm, ⟨5, _⟩ => ⟨S36, .i32⟩
  | .hbm, ⟨6, _⟩ => ⟨S36, .i1⟩
  | .hbm, ⟨7, _⟩ => ⟨S36, .i32⟩
  | .hbm, ⟨8, _⟩ => ⟨S36, .i1⟩
  | .hbm, ⟨9, _⟩ => ⟨S4x65x64x64, .f32⟩
  | .hbm, ⟨10, _⟩ => ⟨S_, .i32⟩
  | .hbm, ⟨11, _⟩ => ⟨S_, .f32⟩
  | .hbm, ⟨12, _⟩ => ⟨S4x65x66x66, .f32⟩
  | .hbm, ⟨13, _⟩ => ⟨S4x65x64x64, .f32⟩
  | .hbm, ⟨14, _⟩ => ⟨S4x65x64x64, .f32⟩
  | .hbm, ⟨15, _⟩ => ⟨S4x65x64x64, .f32⟩
  | .hbm, ⟨16, _⟩ => ⟨S4x65x64x64, .f32⟩
  | .hbm, ⟨17, _⟩ => ⟨S4x65x64x64, .f32⟩
  | .hbm, ⟨18, _⟩ => ⟨S4x65x64x64, .f32⟩
  | .hbm, ⟨19, _⟩ => ⟨S4x65x64x64, .f32⟩
  | .hbm, ⟨20, _⟩ => ⟨S4x65x64x64, .f32⟩
  | .hbm, ⟨21, _⟩ => ⟨S4x65x64x64, .f32⟩
  | .hbm, ⟨22, _⟩ => ⟨S4x65x1x64x64, .f32⟩
  | .hbm, ⟨23, _⟩ => ⟨S4x65x1x64x64, .f32⟩
  | .hbm, ⟨24, _⟩ => ⟨S4x65x1x64x64, .f32⟩
  | .hbm, ⟨25, _⟩ => ⟨S4x65x1x64x64, .f32⟩
  | .hbm, ⟨26, _⟩ => ⟨S4x65x1x64x64, .f32⟩
  | .hbm, ⟨27, _⟩ => ⟨S4x65x1x64x64, .f32⟩
  | .hbm, ⟨28, _⟩ => ⟨S4x65x1x64x64, .f32⟩
  | .hbm, ⟨29, _⟩ => ⟨S4x65x1x64x64, .f32⟩
  | .hbm, ⟨30, _⟩ => ⟨S4x65x1x64x64, .f32⟩
  | .hbm, ⟨31, _⟩ => ⟨S4x65x9x64x64, .f32⟩
  | .hbm, ⟨32, _⟩ => ⟨S4x585x4096, .f32⟩
  | .hbm, ⟨33, _⟩ => ⟨S4x4096x585, .f32⟩
  | .hbm, ⟨34, _⟩ => ⟨S4x4096x65x1x3x3, .f32⟩
  | .hbm, ⟨35, _⟩ => ⟨S4x4096x65x4x3x3, .f32⟩
  | .hbm, ⟨36, _⟩ => ⟨S_, .i32⟩
  | .hbm, ⟨37, _⟩ => ⟨S36, .i32⟩
  | .hbm, ⟨38, _⟩ => ⟨S36, .i32⟩
  | .hbm, ⟨39, _⟩ => ⟨S36, .i32⟩
  | .hbm, ⟨40, _⟩ => ⟨S_, .i32⟩
  | .hbm, ⟨41, _⟩ => ⟨S36, .i32⟩
  | .hbm, ⟨42, _⟩ => ⟨S36, .i32⟩
  | .hbm, ⟨43, _⟩ => ⟨S36, .i32⟩
  | .hbm, ⟨44, _⟩ => ⟨S_, .i32⟩
  | .hbm, ⟨45, _⟩ => ⟨S36, .i32⟩
  | .hbm, ⟨46, _⟩ => ⟨S36, .i32⟩
  | .hbm, ⟨47, _⟩ => ⟨S36, .i32⟩
  | .hbm, ⟨48, _⟩ => ⟨S36x1, .i32⟩
  | .hbm, ⟨49, _⟩ => ⟨S36x1, .i32⟩
  | .hbm, ⟨50, _⟩ => ⟨S36x1, .i32⟩
  | .hbm, ⟨51, _⟩ => ⟨S36x3, .i32⟩
  | .hbm, ⟨52, _⟩ => ⟨S4x4096x65x36, .f32⟩
  | .hbm, ⟨53, _⟩ => ⟨S4x4096x65x4x9, .f32⟩
  | .hbm, ⟨54, _⟩ => ⟨S4x4x4096x65x9, .f32⟩
  | .hbm, ⟨55, _⟩ => ⟨S4x4x4096x585, .f32⟩
  | .hbm, ⟨56, _⟩ => ⟨S_, .f32⟩
  | .hbm, ⟨57, _⟩ => ⟨S_, .f32⟩
  | .hbm, ⟨58, _⟩ => ⟨S4x4x4096x9, .f32⟩
  | .hbm, ⟨59, _⟩ => ⟨S4x4x4096x9, .f32⟩
  | .hbm, ⟨60, _⟩ => ⟨S4x4x4096x9, .f32⟩
  | .hbm, ⟨61, _⟩ => ⟨S4x4x4096x9, .f32⟩
  | .hbm, ⟨62, _⟩ => ⟨S_, .f32⟩
  | .hbm, ⟨63, _⟩ => ⟨S4x4x4096, .f32⟩
  | .hbm, ⟨64, _⟩ => ⟨S4x4x4096x1, .f32⟩
  | .hbm, ⟨65, _⟩ => ⟨S_, .f32⟩
  | .hbm, ⟨66, _⟩ => ⟨S4x4x4096x1, .f32⟩
  | .hbm, ⟨67, _⟩ => ⟨S4x4x4096x1, .f32⟩
  | .hbm, ⟨68, _⟩ => ⟨S4x4x4096x1, .f32⟩
  | .hbm, ⟨69, _⟩ => ⟨S4x4x4096x576, .f32⟩
  | .hbm, ⟨70, _⟩ => ⟨S4x4x4096x64x9, .f32⟩
  | .hbm, ⟨71, _⟩ => ⟨S4x4x4096x9x64, .f32⟩
  | .hbm, ⟨72, _⟩ => ⟨S4x4x4096x576, .f32⟩
  | .hbm, ⟨73, _⟩ => ⟨S4x4x4096x577, .f32⟩
  | .hbm, ⟨74, _⟩ => ⟨S4x4x4096x256, .f32⟩
  | .hbm, ⟨75, _⟩ => ⟨S1x1x1x256, .f32⟩
  | .hbm, ⟨76, _⟩ => ⟨S4x4x4096x256, .f32⟩
  | .hbm, ⟨77, _⟩ => ⟨S4x4x4096x256, .f32⟩
  | .hbm, ⟨78, _⟩ => ⟨S4x4x4096x255, .f32⟩
  | .hbm, ⟨79, _⟩ => ⟨S4x4x4096x255, .f32⟩
  | .hbm, ⟨80, _⟩ => ⟨S_, .f32⟩
  | .hbm, ⟨81, _⟩ => ⟨S4x4x4096, .f32⟩
  | .hbm, ⟨82, _⟩ => ⟨S4x4x4096x1, .f32⟩
  | .hbm, ⟨83, _⟩ => ⟨S_, .f32⟩
  | .hbm, ⟨84, _⟩ => ⟨S4x4x4096x1, .f32⟩
  | .hbm, ⟨85, _⟩ => ⟨S4x4x4096x1, .f32⟩
  | .hbm, ⟨86, _⟩ => ⟨S4x4x4096x1, .f32⟩
  | .hbm, ⟨87, _⟩ => ⟨S4x4x4096x256, .f32⟩
  | .hbm, ⟨88, _⟩ => ⟨S4x4x4096x256, .f32⟩
  | .hbm, ⟨89, _⟩ => ⟨S4x4x64x64x256, .f32⟩
  | _, _ => ⟨S4x64x64x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v0 : Ref sig .tc := ⟨.hbm, 9, rfl⟩
abbrev main_c_5 : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_v64 : Ref sig .tc := ⟨.hbm, 82, rfl⟩
abbrev main_cst_12 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]

class Facts₀ : Prop where
  shapeCasts_S4x64x64x65_S4x65x64x64 : S4x64x64x65.ShapeCasts S4x65x64x64
  pads_S4x65x64x64_S4x65x66x66_000_000_110_110 : S4x65x64x64.Pads (![0, 0, 1, 1] : Fin 4 → Nat) ![0, 0, 1, 1] ![0, 0, 0, 0] S4x65x66x66
  h_S_ : 0 < S_.numel
  slices_S4x65x66x66_S4x65x64x64_0_0_0_0 : S4x65x66x66.Slices ![0, 0, 0, 0] S4x65x64x64
  slices_S4x65x66x66_S4x65x64x64_0_0_0_1 : S4x65x66x66.Slices ![0, 0, 0, 1] S4x65x64x64
  slices_S4x65x66x66_S4x65x64x64_0_0_0_2 : S4x65x66x66.Slices ![0, 0, 0, 2] S4x65x64x64
  slices_S4x65x66x66_S4x65x64x64_0_0_1_0 : S4x65x66x66.Slices ![0, 0, 1, 0] S4x65x64x64
  slices_S4x65x66x66_S4x65x64x64_0_0_1_1 : S4x65x66x66.Slices ![0, 0, 1, 1] S4x65x64x64
  slices_S4x65x66x66_S4x65x64x64_0_0_1_2 : S4x65x66x66.Slices ![0, 0, 1, 2] S4x65x64x64
  slices_S4x65x66x66_S4x65x64x64_0_0_2_0 : S4x65x66x66.Slices ![0, 0, 2, 0] S4x65x64x64
  slices_S4x65x66x66_S4x65x64x64_0_0_2_1 : S4x65x66x66.Slices ![0, 0, 2, 1] S4x65x64x64
  slices_S4x65x66x66_S4x65x64x64_0_0_2_2 : S4x65x66x66.Slices ![0, 0, 2, 2] S4x65x64x64
  bcast_S4x65x64x64_S4x65x1x64x64_0_1_3_4 : S4x65x64x64.BroadcastsInDim S4x65x1x64x64 (![0, 1, 3, 4] : Fin 4 → Fin S4x65x1x64x64.rank)
  concatenates_S4x65x1x64x64_S4x65x1x64x64_S4x65x1x64x64_S4x65x1x64x64_S4x65x1x64x64_S4x65x1x64x64_S4x65x1x64x64_S4x65x1x64x64_S4x65x1x64x64_S4x65x9x64x64_d2 : Shape.Concatenates [S4x65x1x64x64, S4x65x1x64x64, S4x65x1x64x64, S4x65x1x64x64, S4x65x1x64x64, S4x65x1x64x64, S4x65x1x64x64, S4x65x1x64x64, S4x65x1x64x64] S4x65x9x64x64 2
  shapeCasts_S4x65x9x64x64_S4x585x4096 : S4x65x9x64x64.ShapeCasts S4x585x4096
  transposes_S4x585x4096_S4x4096x585_0_2_1 : S4x585x4096.Transposes [0, 2, 1] S4x4096x585
  shapeCasts_S4x4096x585_S4x4096x65x1x3x3 : S4x4096x585.ShapeCasts S4x4096x65x1x3x3
  bcast_S4x4096x65x1x3x3_S4x4096x65x4x3x3_0_1_2_3_4_5 : S4x4096x65x1x3x3.BroadcastsInDim S4x4096x65x4x3x3 (![0, 1, 2, 3, 4, 5] : Fin 6 → Fin S4x4096x65x4x3x3.rank)
  bcast_S_S36 : S_.BroadcastsInDim S36 (![] : Fin 0 → Fin S36.rank)
  bcast_S36_S36x1_0 : S36.BroadcastsInDim S36x1 (![0] : Fin 1 → Fin S36x1.rank)
  concatenates_S36x1_S36x1_S36x1_S36x3_d1 : Shape.Concatenates [S36x1, S36x1, S36x1] S36x3 1
  shapeCasts_S4x4096x65x36_S4x4096x65x4x9 : S4x4096x65x36.ShapeCasts S4x4096x65x4x9
  transposes_S4x4096x65x4x9_S4x4x4096x65x9_3_0_1_2_4 : S4x4096x65x4x9.Transposes [3, 0, 1, 2, 4] S4x4x4096x65x9
  shapeCasts_S4x4x4096x65x9_S4x4x4096x585 : S4x4x4096x65x9.ShapeCasts S4x4x4096x585
  slices_S4x4x4096x585_S4x4x4096x9_0_0_0_0 : S4x4x4096x585.Slices ![0, 0, 0, 0] S4x4x4096x9
  bcast_S_S4x4x4096x9 : S_.BroadcastsInDim S4x4x4096x9 (![] : Fin 0 → Fin S4x4x4096x9.rank)
  reducesTo_S4x4x4096x9_S4x4x4096_d3 : S4x4x4096x9.ReducesTo [3] S4x4x4096
  bcast_S4x4x4096_S4x4x4096x1_0_1_2 : S4x4x4096.BroadcastsInDim S4x4x4096x1 (![0, 1, 2] : Fin 3 → Fin S4x4x4096x1.rank)
  bcast_S_S4x4x4096x1 : S_.BroadcastsInDim S4x4x4096x1 (![] : Fin 0 → Fin S4x4x4096x1.rank)
  slices_S4x4x4096x585_S4x4x4096x576_0_0_0_9 : S4x4x4096x585.Slices ![0, 0, 0, 9] S4x4x4096x576
  shapeCasts_S4x4x4096x576_S4x4x4096x64x9 : S4x4x4096x576.ShapeCasts S4x4x4096x64x9
  transposes_S4x4x4096x64x9_S4x4x4096x9x64_0_1_2_4_3 : S4x4x4096x64x9.Transposes [0, 1, 2, 4, 3] S4x4x4096x9x64
  shapeCasts_S4x4x4096x9x64_S4x4x4096x576 : S4x4x4096x9x64.ShapeCasts S4x4x4096x576
  concatenates_S4x4x4096x1_S4x4x4096x576_S4x4x4096x577_d3 : Shape.Concatenates [S4x4x4096x1, S4x4x4096x576] S4x4x4096x577 3
  bcast_S256_S1x1x1x256_3 : S256.BroadcastsInDim S1x1x1x256 (![3] : Fin 1 → Fin S1x1x1x256.rank)
  bcast_S1x1x1x256_S4x4x4096x256_0_1_2_3 : S1x1x1x256.BroadcastsInDim S4x4x4096x256 (![0, 1, 2, 3] : Fin 4 → Fin S4x4x4096x256.rank)
  slices_S4x4x4096x256_S4x4x4096x255_0_0_0_1 : S4x4x4096x256.Slices ![0, 0, 0, 1] S4x4x4096x255
  reducesTo_S4x4x4096x255_S4x4x4096_d3 : S4x4x4096x255.ReducesTo [3] S4x4x4096
  concatenates_S4x4x4096x1_S4x4x4096x255_S4x4x4096x256_d3 : Shape.Concatenates [S4x4x4096x1, S4x4x4096x255] S4x4x4096x256 3
  transposes_S4x4x4096x256_S4x4x4096x256_1_0_2_3 : S4x4x4096x256.Transposes [1, 0, 2, 3] S4x4x4096x256
  shapeCasts_S4x4x4096x256_S4x4x64x64x256 : S4x4x4096x256.ShapeCasts S4x4x64x64x256
  gather_S4x4096x65x4x3x3_S36x3_S4x4096x65x36_012_345_n_n_345_1_4409665111_wf : GatherDims.WF S4x4096x65x4x3x3 S36x3 S4x4096x65x36 [0, 1, 2] [3, 4, 5] [] [3, 4, 5] [] 1 ![4, 4096, 65, 1, 1, 1]
  dot_S4x4x4096x577_S256x577_S4x4x4096x256_3_1_012_0_n_n_wf : DotDims.WF S4x4x4096x577 S256x577 S4x4x4096x256 [3] [1] [0, 1, 2] [0] [] []

variable [Facts₀]

def gather_S4x4096x65x4x3x3_S36x3_S4x4096x65x36_012_345_n_n_345_1_4409665111 : GatherDims S4x4096x65x4x3x3 S36x3 S4x4096x65x36 where
  offsetDims := [0, 1, 2]
  collapsedSliceDims := [3, 4, 5]
  operandBatchingDims := []
  startIndicesBatchingDims := []
  startIndexMap := [3, 4, 5]
  indexVectorDim := 1
  sliceSizes := ![4, 4096, 65, 1, 1, 1]
  wf := gather_S4x4096x65x4x3x3_S36x3_S4x4096x65x36_012_345_n_n_345_1_4409665111_wf
def dot_S4x4x4096x577_S256x577_S4x4x4096x256_3_1_012_0_n_n : DotDims S4x4x4096x577 S256x577 S4x4x4096x256 where
  lhsContracting := [3]
  rhsContracting := [1]
  lhsNonContracting := [0, 1, 2]
  rhsNonContracting := [0]
  lhsBatch := []
  rhsBatch := []
  wf := dot_S4x4x4096x577_S256x577_S4x4x4096x256_3_1_012_0_n_n_wf

class Facts : Prop extends Facts₀ where

variable [Facts]
-- ==== Proof.Spec.lean ====
/-
  The mathematics of the certificate, with no program in sight.

  Both programs start from the same array of unfolded 3×3 patches, P b p j, where b is the batch index, p = h·64 + w
  the output position and j = c·9 + k the feature (channel c of 65, kernel position k of 9).  Channel 0 is the
  Lorentz time component.  From one patch row both build 577 features: feature 0 is the rescaled time
  √(Σ_k max(t_k, 1)² − 8) over the nine time entries, feature 1 + k·64 + c' is the space entry of channel c'+1 at kernel
  position k.

  The reference rotates the kernel positions by the C4 element g (the table tau g) BEFORE building the features and
  contracts with the one weight matrix W; the kernel builds the unrotated features once and contracts with W's
  columns permuted by perm g.  Since tau g is a bijection of the nine positions (its inverse is sig g), the rotated
  feature vector is the unrotated one read through perm g, and a finite sum does not change under a bijective
  change of its index: the two linear layers are equal on the extended reals, with no finiteness needed
  (only commutativity and associativity of + are used).

  After the linear layer both recompute the time component of the output as √(Σ_{o ≥ 1} y_o² + 1); the kernel does it
  by zeroing column 0 and summing all 256 squares, which adds the term 0·0 = 0.
-/
import Idealize.ShloMosaic.PureOps.Ideal
import Idealize.ShloMosaic.PureOps.Ideal.Laws
import Idealize.ShloMosaic.Lib.IdealHost
import Mathlib.Algebra.BigOperators.Fin

noncomputable section

namespace Cert.Lorentz

open Idealize.ShloMosaic

/-- The three float literals both programs spell: 1.0, 8.0 and 0.0. -/
def one : EReal := Ideal.ofBits .f32 0x3F800000#32
def eight : EReal := Ideal.ofBits .f32 0x41000000#32
def zero : EReal := Ideal.ofBits .f32 0x00000000#32

/-- tau g k: the kernel position the C4 rotation g reads at position k (row·3 + column of the rotated 3×3 grid). -/
def tau : Fin 4 → Fin 9 → Fin 9 := fun g k =>
  match g, k with
  | 0, k => k
  | 1, 0 => 2 | 1, 1 => 5 | 1, 2 => 8 | 1, 3 => 1 | 1, 4 => 4 | 1, 5 => 7 | 1, 6 => 0 | 1, 7 => 3 | 1, 8 => 6
  | 2, 0 => 8 | 2, 1 => 7 | 2, 2 => 6 | 2, 3 => 5 | 2, 4 => 4 | 2, 5 => 3 | 2, 6 => 2 | 2, 7 => 1 | 2, 8 => 0
  | 3, 0 => 6 | 3, 1 => 3 | 3, 2 => 0 | 3, 3 => 7 | 3, 4 => 4 | 3, 5 => 1 | 3, 6 => 8 | 3, 7 => 5 | 3, 8 => 2

/-- sig g: the inverse rotation. -/
def sig : Fin 4 → Fin 9 → Fin 9 := fun g k =>
  match g, k with
  | 0, k => k
  | 1, k => tau 3 k
  | 2, k => tau 2 k
  | 3, k => tau 1 k

theorem tau_sig : ∀ (g : Fin 4) (k : Fin 9), tau g (sig g k) = k := by decide
theorem sig_tau : ∀ (g : Fin 4) (k : Fin 9), sig g (tau g k) = k := by decide

/-! ## Indices

A patch row has 585 entries, j = c·9 + k.  A feature row has 577: feature 0 is the time feature, feature
1 + k·64 + c' the space entry of channel c' + 1 at kernel position k. -/

/-- The patch entry of channel c at kernel position k. -/
def pj (c : Fin 65) (k : Fin 9) : Fin 585 := ⟨c.val * 9 + k.val, by have := c.isLt; have := k.isLt; omega⟩

/-- The kernel position of a space feature. -/
def posOf (q : Fin 577) : Fin 9 := ⟨(q.val - 1) / 64, by have := q.isLt; omega⟩

/-- The channel of a space feature. -/
def chanOf (q : Fin 577) : Fin 65 := ⟨(q.val - 1) % 64 + 1, by omega⟩

/-- The output position h·64 + w. -/
def posIdx (h w : Fin 64) : Fin 4096 := ⟨h.val * 64 + w.val, by have := h.isLt; have := w.isLt; omega⟩

/-- The weight column that the kernel pairs with feature q under the rotation g: the time column is fixed, a space
    column keeps its channel and moves to the position the inverse rotation names. -/
def perm (g : Fin 4) (q : Fin 577) : Fin 577 :=
  if q.val = 0 then q
  else ⟨1 + (sig g (posOf q)).val * 64 + (q.val - 1) % 64, by have := (sig g (posOf q)).isLt; omega⟩

/-- The candidate inverse of perm g: the same with the rotation itself. -/
def permInv (g : Fin 4) (q : Fin 577) : Fin 577 :=
  if q.val = 0 then q
  else ⟨1 + (tau g (posOf q)).val * 64 + (q.val - 1) % 64, by have := (tau g (posOf q)).isLt; omega⟩

theorem perm_val (g : Fin 4) (q : Fin 577) (h : q.val ≠ 0) :
    (perm g q).val = 1 + (sig g (posOf q)).val * 64 + (q.val - 1) % 64 := by
  unfold perm; rw [if_neg h]

theorem perm_zero (g : Fin 4) (q : Fin 577) (h : q.val = 0) : perm g q = q := by
  unfold perm; rw [if_pos h]

theorem perm_val_ne (g : Fin 4) (q : Fin 577) (h : q.val ≠ 0) : (perm g q).val ≠ 0 := by
  rw [perm_val g q h]; omega

theorem posOf_perm (g : Fin 4) (q : Fin 577) (h : q.val ≠ 0) : posOf (perm g q) = sig g (posOf q) := by
  apply Fin.ext
  have hs := (sig g (posOf q)).isLt
  show ((perm g q).val - 1) / 64 = (sig g (posOf q)).val
  rw [perm_val g q h]; omega

theorem chanOf_perm (g : Fin 4) (q : Fin 577) (h : q.val ≠ 0) : chanOf (perm g q) = chanOf q := by
  apply Fin.ext
  have hs := (sig g (posOf q)).isLt
  show ((perm g q).val - 1) % 64 + 1 = (q.val - 1) % 64 + 1
  rw [perm_val g q h]; omega

theorem permInv_perm (g : Fin 4) (q : Fin 577) : permInv g (perm g q) = q := by
  by_cases h : q.val = 0
  · rw [perm_zero g q h]; unfold permInv; rw [if_pos h]
  · have h' := perm_val_ne g q h
    unfold permInv; rw [if_neg h']
    apply Fin.ext
    show 1 + (tau g (posOf (perm g q))).val * 64 + ((perm g q).val - 1) % 64 = q.val
    rw [posOf_perm g q h, tau_sig]
    show 1 + ((q.val - 1) / 64) * 64 + ((perm g q).val - 1) % 64 = q.val
    have hs := (sig g (posOf q)).isLt
    rw [perm_val g q h]; omega

theorem perm_bijective (g : Fin 4) : Function.Bijective (perm g) :=
  (Finite.injective_iff_bijective).1 (Function.LeftInverse.injective (permInv_perm g))

theorem tau_bijective (g : Fin 4) : Function.Bijective (tau g) :=
  ⟨Function.LeftInverse.injective (sig_tau g), Function.RightInverse.surjective (tau_sig g)⟩

/-! ## Features -/

/-- The rescaled time feature of nine time entries: √(Σ max(t, 1)² − 8). -/
def timeOf (t : Fin 9 → EReal) : EReal :=
  Ideal.sqrt ((∑ k : Fin 9, max (t k) one * max (t k) one) - eight)

/-- A finite sum over the nine positions does not see the rotation. -/
theorem timeOf_tau (g : Fin 4) (t : Fin 9 → EReal) : timeOf (fun k => t (tau g k)) = timeOf t := by
  unfold timeOf
  congr 2
  exact Fintype.sum_bijective (tau g) (tau_bijective g) _ _ (fun _ => rfl)

/-- The kernel's (unrotated) feature q of patch row (b, p). -/
def featK (P : Fin 4 → Fin 4096 → Fin 585 → EReal) (b : Fin 4) (p : Fin 4096) (q : Fin 577) : EReal :=
  if q.val = 0 then timeOf (fun k => P b p (pj 0 k)) else P b p (pj (chanOf q) (posOf q))

/-- The reference's feature f of patch row (b, p) under the rotation g. -/
def featR (P : Fin 4 → Fin 4096 → Fin 585 → EReal) (g b : Fin 4) (p : Fin 4096) (f : Fin 577) : EReal :=
  if f.val = 0 then timeOf (fun k => P b p (pj 0 (tau g k))) else P b p (pj (chanOf f) (tau g (posOf f)))

/-- The rotated feature vector read through perm g is the unrotated one. -/
theorem featR_perm (P : Fin 4 → Fin 4096 → Fin 585 → EReal) (g b : Fin 4) (p : Fin 4096) (q : Fin 577) :
    featR P g b p (perm g q) = featK P b p q := by
  by_cases h : q.val = 0
  · rw [perm_zero g q h]; unfold featR featK; rw [if_pos h, if_pos h]
    exact timeOf_tau g (fun k => P b p (pj 0 k))
  · have h' := perm_val_ne g q h
    unfold featR featK; rw [if_neg h', if_neg h, posOf_perm g q h, chanOf_perm g q h, tau_sig]

/-! ## The linear layer -/

/-- The kernel's linear layer: unrotated features against the permuted weight columns. -/
def yK (P : Fin 4 → Fin 4096 → Fin 585 → EReal) (W : Fin 256 → Fin 577 → EReal) (bias : Fin 256 → EReal)
    (b g : Fin 4) (p : Fin 4096) (o : Fin 256) : EReal :=
  (∑ q : Fin 577, featK P b p q * W o (perm g q)) + bias o

/-- The reference's linear layer: rotated features against the weight matrix. -/
def yR (P : Fin 4 → Fin 4096 → Fin 585 → EReal) (W : Fin 256 → Fin 577 → EReal) (bias : Fin 256 → EReal)
    (g b : Fin 4) (p : Fin 4096) (o : Fin 256) : EReal :=
  (∑ f : Fin 577, featR P g b p f * W o f) + bias o

/-- The two linear layers are one: a bijective change of the summation index. -/
theorem yK_eq_yR (P : Fin 4 → Fin 4096 → Fin 585 → EReal) (W : Fin 256 → Fin 577 → EReal) (bias : Fin 256 → EReal)
    (b g : Fin 4) (p : Fin 4096) (o : Fin 256) : yK P W bias b g p o = yR P W bias g b p o := by
  unfold yK yR
  congr 1
  exact Fintype.sum_bijective (perm g) (perm_bijective g) _ _ (fun q => by rw [featR_perm])

/-! ## The Lorentz time recompute -/

theorem zero_eq : zero = 0 := Ideal.ofBits_zero_f32

/-- The reference's form: column 0 is √(Σ_{o ≥ 1} y_o² + 1), the other columns are kept. -/
def lorentz (y : Fin 256 → EReal) (o : Fin 256) : EReal :=
  if o.val = 0 then Ideal.sqrt ((∑ j : Fin 255, y j.succ * y j.succ) + one) else y o

/-- The kernel's form: column 0 zeroed, all 256 squares summed. -/
def lorentzMasked (y : Fin 256 → EReal) (o : Fin 256) : EReal :=
  if o.val = 0 then
    Ideal.sqrt ((∑ j : Fin 256, (if j.val = 0 then zero else y j) * (if j.val = 0 then zero else y j)) + one)
  else y o

theorem lorentzMasked_eq (y : Fin 256 → EReal) (o : Fin 256) : lorentzMasked y o = lorentz y o := by
  unfold lorentzMasked lorentz
  congr 3
  rw [Fin.sum_univ_succ]
  have h0 : ((0 : Fin 256).val = 0) := rfl
  rw [if_pos h0, zero_eq, zero_mul, zero_add]
  exact Finset.sum_congr rfl (fun j _ => by
    have hj : (j.succ : Fin 256).val ≠ 0 := by rw [Fin.val_succ]; omega
    rw [if_neg hj])

/-! ## The result -/

/-- The result in the reference's form, at batch b, rotation g, position (h, w), column o. -/
def Out (P : Fin 4 → Fin 4096 → Fin 585 → EReal) (W : Fin 256 → Fin 577 → EReal) (bias : Fin 256 → EReal)
    (b g : Fin 4) (h w : Fin 64) (o : Fin 256) : EReal :=
  lorentz (yR P W bias g b (posIdx h w)) o

/-- The result in the kernel's form. -/
def OutK (P : Fin 4 → Fin 4096 → Fin 585 → EReal) (W : Fin 256 → Fin 577 → EReal) (bias : Fin 256 → EReal)
    (b g : Fin 4) (h w : Fin 64) (o : Fin 256) : EReal :=
  lorentzMasked (yK P W bias b g (posIdx h w)) o

theorem OutK_eq_Out (P : Fin 4 → Fin 4096 → Fin 585 → EReal) (W : Fin 256 → Fin 577 → EReal) (bias : Fin 256 → EReal)
    (b g : Fin 4) (h w : Fin 64) (o : Fin 256) : OutK P W bias b g h w o = Out P W bias b g h w o := by
  unfold OutK Out
  rw [lorentzMasked_eq]
  congr 1
  funext o'
  exact yK_eq_yR P W bias b g (posIdx h w) o'

/-! ## Two small facts both sides use -/

/-- √1 = 1 on the literal word. -/
theorem sqrt_one : Ideal.sqrt one = one := by
  unfold one
  rw [Ideal.ofBits_one_f32]
  show Ideal.sqrt ((1 : ℝ) : EReal) = ((1 : ℝ) : EReal)
  rw [Ideal.sqrt_coe, if_neg (by norm_num), Real.sqrt_one]

/-- A sum over 640 terms whose terms from 577 on vanish is the sum of the first 577. -/
theorem sum_pad (f : Fin 640 → EReal) (h : ∀ q : Fin 640, 577 ≤ q.val → f q = 0) :
    ∑ q : Fin 640, f q = ∑ q : Fin 577, f ⟨q.val, by have := q.isLt; omega⟩ := by
  refine (Fin.sum_univ_add (a := 577) (b := 63) f).trans ?_
  rw [Finset.sum_eq_zero (s := Finset.univ) (f := fun i : Fin 63 => f (Fin.natAdd 577 i))
    (fun i _ => h _ (by show 577 ≤ 577 + i.val; omega)), add_zero]
  rfl

end Cert.Lorentz

end
-- ==== Proof.KerV.lean ====
/-
  The arrays as the kernel launch finds them.

  Before its one launch the program applies seventy-seven host operations, in seven stretches, to the three argument
  arrays.  Core c's buffer contents at the launch are therefore the fold of those operations over the memory the
  program was started from.  None of the operations writes an argument array (each writes only its own result),
  so the three arguments are still the started memory's there.
-/
import proofs.«153807_j19121194401875_2_alg».proof.Proof.Gen.KernelIdeal.Launch
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ)

/-- Core `c`'s buffer contents when the launch is reached, as a valuation: the host operations before the launch,
    all seven stretches in order, folded over the started memory. -/
abbrev V0 (c : Dev nD) : Valuation τ sig (Elt F) :=
  StableHlo.after (List.flatten [hostOps0, hostOps0_1, hostOps0_2, hostOps0_3, hostOps0_4, hostOps0_5, hostOps0_6]) (fun b => m (c, b))

/-- The same read at a TensorCore reference. -/
abbrev V (c : Dev nD) (b : Ref sig .tc) : Buf (Elt F) ((c : Thread nD τ).loc b) := V0 m c (Proc.devRef .tc b)

/-- No host operation before the launch writes the first argument (the input image): the launch finds it as started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor the second (the weight matrix). -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor the third (the bias). -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

end Cert.KernelIdeal.Hand

end
-- ==== Proof.KerFrame.lean ====
/-
  The frame of the kernel program: it runs to the end, faults nowhere, and leaves its three argument arrays
  as they were; and the array it returns is named.

  The program is seventy-seven host operations, one kernel launch on a grid of 8 × 4 points, and one reshape of the
  launch's output.  At a grid point (pt, g) the body receives four whole staging buffers: a block of 4 × 512 patch
  rows of 640 features (input 0), the 640 × 256 weight slab of rotation g (input 1), the bias row (input 2), and the
  4 × 1 × 512 × 256 output block.  It loads the three inputs, and for each of the four batch entries writes one
  1 × 1 × 512 × 256 slab of the output block: the four slabs tile the block, so what the block holds afterwards is
  a function of the three input blocks alone (`out0_3`), whatever it held before.  The inputs are left in place.
  Between the points the pipeline fetches input blocks and writes output blocks back; the library's launch theorem
  turns the per-point statement into a statement about the whole launch, and the host operations after it are
  folded over the memory the launch leaves.
-/
import proofs.«153807_j19121194401875_2_alg».proof.Proof.KerV
import proofs.«153807_j19121194401875_2_alg».proof.Proof.Gen.KernelIdeal.Skeleton
import proofs.«153807_j19121194401875_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its launch -/

/-- No host operation, before or after the launch, allocates a buffer. -/
theorem pre_fresh : ([hostOps0, hostOps0_1, hostOps0_2, hostOps0_3, hostOps0_4, hostOps0_5, hostOps0_6] : List (List (HloOp τ sig (Elt F)))).Forall
    fun ops => ops.Forall fun op => op.fresh = ∅ := by
  simp only [List.Forall]; repeat' constructor
theorem post_fresh : (hostOps1 : List (HloOp τ sig (Elt F))).Forall fun op => op.fresh = ∅ := by
  simp only [List.Forall]; repeat' constructor

/-- The program is its host operations before the launch, the launch, and the one reshape after it: run up to the
    launch it has made core `c`'s buffers `V m c`, and what is left to run is the launch followed by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by exact pre_fresh) main_chain

/-- The reshape after the launch touches only buffers the launch leaves to the host: the launch's arrays and the
    buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp post_fresh) op hop
/-- And it writes none of the launch's four arrays: only its own result. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-- The argument arrays after the reshape that follows the launch, for any proof data: the reshape does not write
    them and they are none of the launch's arrays, so they are what the launch found, which is the started memory. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-! ## The blocks the body is given -/

/-- Window `w`'s block at grid point `t`, cut out of its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The patch rows' staging buffer holds their block at every point, whether the pipeline fetched it there or the block index had not moved since the last fetch (points 4 pt + g share the block of pt). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight slab's staging buffer holds the slab of rotation g at every point (fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bias row's staging buffer holds the row at every point (fetched once, at the first point; the block index never moves). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from the launch theorem's conclusion -/

/-- For any proof data whose arrays are what the launch finds, a run ending in the launch theorem's post has the three
    argument arrays as started: none is an array of the launch, so each is what the reshape after the launch leaves
    of it, which is what it was. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## What the body reads and writes -/

/-- The four batch entries of the patch-row block, -/
abbrev rX0 : Rect S4x512x640 := Rect.unit (s := S4x512x640) ![0, 0, 0] S1x512x640.size inb_S4x512x640_S1x512x640_0_0_0
abbrev rX1 : Rect S4x512x640 := Rect.unit (s := S4x512x640) ![1, 0, 0] S1x512x640.size inb_S4x512x640_S1x512x640_1_0_0
abbrev rX2 : Rect S4x512x640 := Rect.unit (s := S4x512x640) ![2, 0, 0] S1x512x640.size inb_S4x512x640_S1x512x640_2_0_0
abbrev rX3 : Rect S4x512x640 := Rect.unit (s := S4x512x640) ![3, 0, 0] S1x512x640.size inb_S4x512x640_S1x512x640_3_0_0
/-- the whole weight slab, the whole bias row, -/
abbrev rW : Rect S1x640x256 := Rect.unit (s := S1x640x256) ![0, 0, 0] S1x640x256.size inb_S1x640x256_S1x640x256_0_0_0
abbrev rB : Rect S1x256 := Rect.unit (s := S1x256) ![0, 0] S1x256.size inb_S1x256_S1x256_0_0
/-- and the four batch slabs of the output block. -/
abbrev rO0 : Rect S4x1x512x256 := Rect.unit (s := S4x1x512x256) ![0, 0, 0, 0] S1x1x512x256.size inb_S4x1x512x256_S1x1x512x256_0_0_0_0
abbrev rO1 : Rect S4x1x512x256 := Rect.unit (s := S4x1x512x256) ![1, 0, 0, 0] S1x1x512x256.size inb_S4x1x512x256_S1x1x512x256_1_0_0_0
abbrev rO2 : Rect S4x1x512x256 := Rect.unit (s := S4x1x512x256) ![2, 0, 0, 0] S1x1x512x256.size inb_S4x1x512x256_S1x1x512x256_2_0_0_0
abbrev rO3 : Rect S4x1x512x256 := Rect.unit (s := S4x1x512x256) ![3, 0, 0, 0] S1x1x512x256.size inb_S4x1x512x256_S1x1x512x256_3_0_0_0

/-- The output column of each entry of a 512 × 256 tile (the body compares it with 0 to find the time column). -/
abbrev lanes : IVec S512x256 32 := iota .tc S512x256 32 [1] iota_S512x256_d1_w32

/-- The output block after the body, from the three input blocks: its four stores as pieces, the last store first.
    Slab `bi` is the Lorentz layer (matmul with the weight slab, plus bias, time column recomputed) of batch entry
    `bi` of the patch-row block; the payloads are the generated skeleton's. -/
def out0_3 (x0 : Vec F S4x512x640 .bf16) (x1 : Vec F S1x640x256 .bf16) (x2 : Vec F S1x256 .f32) : Vec F S4x1x512x256 .f32 :=
  View.canon [
    ⟨rO3, k0_pay2 (k0_pay3 (View.ld x1 rW)) (k0_pay4 (View.ld x2 rB)) lanes (View.ld x0 rX3)⟩,
    ⟨rO2, k0_pay1 (k0_pay9 (k0_pay3 (View.ld x1 rW)) (k0_pay4 (View.ld x2 rB)) lanes (View.ld x0 rX2))⟩,
    ⟨rO1, k0_pay8 lanes (k0_pay6 (View.ld x1 rW) (View.ld x2 rB) (View.ld x0 rX1)) k0_pay7⟩,
    ⟨rO0, k0_pay5 (View.ld x1 rW) (View.ld x2 rB) (View.ld x0 rX0)⟩]

/-- The four slabs tile the output block (four blocks of one slab's size along the batch axis), so every index of the
    block lies in one of them. -/
theorem cover0_3 (p3 p2 p1 p0 : Vec F S1x1x512x256 .f32) (y : S4x1x512x256.Idx) :
    ∃ pc ∈ ([⟨rO3, p3⟩, ⟨rO2, p2⟩, ⟨rO1, p1⟩, ⟨rO0, p0⟩] : List (View.Piece (Elt F) S4x1x512x256 .f32)), y ∈ pc.1.set :=
  View.cover_of_tiled [⟨rO3, p3⟩, ⟨rO2, p2⟩, ⟨rO1, p1⟩, ⟨rO0, p0⟩] S1x1x512x256.size (by rfl) y

/-! ## The body's triple -/

set_option maxHeartbeats 4000000 in
/-- The kernel body on four whole staging buffers, the three inputs' at given contents and the output's at anything,
    runs to a continuation that holds the inputs' as they were and the output's at `out0_3` of the inputs'. The body
    is run through its generated skeleton, its two printed parts included; the loads it makes of the output block
    before each store are of values it never uses. -/
theorem sound_kernel (c : Dev nD) (E : Set ℕ) (i : grid0.Coords)
    (arg2 : Memref sig .tc .vmem S4x512x640 .bf16) (harg2 : arg2.IsWhole)
    (arg3 : Memref sig .tc .vmem S1x640x256 .bf16) (harg3 : arg3.IsWhole)
    (arg4 : Memref sig .tc .vmem S1x256 .f32) (harg4 : arg4.IsWhole)
    (arg5 : Memref sig .tc .vmem S4x1x512x256 .f32) (harg5 : arg5.IsWhole)
    (x0 : Vec F S4x512x640 .bf16) (x1 : Vec F S1x640x256 .bf16) (x2 : Vec F S1x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0_matmul_lorentz_kernel i arg2 harg2 arg3 harg3 arg4 harg4 arg5 harg5) K := by
  simp only [cc0_matmul_lorentz_kernel_eq_skeleton]; unfold cc0_matmul_lorentz_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _ _)

/-! ## The launch's proof data -/

/-- The proof data of the launch on core `c`: the four arrays as the launch finds them; after the body at point `t`
    each input's staging buffer still at its block and the output's at `out0_3` of the three input blocks; the
    invariant between points the plain one (nothing carried from point to point); full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are what the launch finds (by projecting the definition: the fold behind `V` is never opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- What each input's staging buffer holds when the body is called at point `t`: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`: the invariant, the core's owed waits, and the four current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' staging buffers hold their blocks, so the body's triple applies; the invariant
    and the owed waits pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault; at the end
    each of the launch's arrays holds what the library computes from the proof data, and every other unscoped buffer
    what the reshape after the launch leaves of the launch's exit memory. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- THE FRAME, at any float instance: the program runs to the end without a fault and its three argument arrays end as
    they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-! ## The returned array -/

/-- The returned array after the whole program, for any proof data: the one operation after the launch re-reads the
    launch's output array (batch, rotation, 4096 positions, 256 channels) at the shape (batch, rotation, 64, 64, 256);
    the output array is what the launch leaves in it, which the library computes from the proof data. -/
theorem tail_main_v47 (dats : (p : Fin 1) → (c : Dev nD) → Dat τ (Elt F) Unit ℕ (UR sig nD τ) ℕ (cfgs p) c) (c : Dev nD) :
    Pipeline.afterTail₀ cfgs dats 0 (V0 m) [hostOps1] c main_v47
      = shapeCast S4x4x64x64x256 ((dats 0 c).arrAt 3 cfg0.N) shapeCasts_S4x4x4096x256_S4x4x64x64x256 := by
  unfold Pipeline.afterTail₀
  show StableHlo.after hostOps1 _ (Proc.devRef .tc main_v47) = _
  after_results
  exact congrArg (fun X => shapeCast S4x4x64x64x256 X shapeCasts_S4x4x4096x256_S4x4x64x64x256)
    (Pipeline.withArrays_arr spec0 launch0.win.arr_inj c (V0 m c) (fun w => (dats 0 c).arrAt w cfg0.N) (3 : Fin 4))

/-- The run with the result named: the returned array is the reshape of the launch's output array as the proof data
    give it, and the three arguments end as they started. -/
theorem run_out : θ_run defs (onTc (τ := τ) (main (F := F))) ⟨m, fun _ => 0, ρ⟩ (fun r => ∀ c : Dev nD,
      r.2.mem ((c.tc : Thread nD τ).loc main_v47)
        = shapeCast S4x4x64x64x256 ((dats m 0 c).arrAt 3 cfg0.N) shapeCasts_S4x4x4096x256_S4x4x64x64x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v47 (Pipeline.mem_restRefs_of main_v47 (by decide) (by decide))).trans (tail_main_v47 m (dats m) c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩) (run_main m ρ)

end Cert.KernelIdeal.Hand

end
-- ==== Proof.KerVBits.lean ====
/-
  The arrays as the kernel launch finds them.

  Before its one launch the program applies seventy-seven host operations, in seven stretches, to the three argument
  arrays.  Core c's buffer contents at the launch are therefore the fold of those operations over the memory the
  program was started from.  None of the operations writes an argument array (each writes only its own result),
  so the three arguments are still the started memory's there.
-/
import proofs.«153807_j19121194401875_2_alg».proof.Proof.Gen.Kernel.Launch
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

variable (m : (ℓ : Loc nD τ sig) → Buf (Elt F) ℓ)

/-- Core `c`'s buffer contents when the launch is reached, as a valuation: the host operations before the launch,
    all seven stretches in order, folded over the started memory. -/
abbrev V0 (c : Dev nD) : Valuation τ sig (Elt F) :=
  StableHlo.after (List.flatten [hostOps0, hostOps0_1, hostOps0_2, hostOps0_3, hostOps0_4, hostOps0_5, hostOps0_6]) (fun b => m (c, b))

/-- The same read at a TensorCore reference. -/
abbrev V (c : Dev nD) (b : Ref sig .tc) : Buf (Elt F) ((c : Thread nD τ).loc b) := V0 m c (Proc.devRef .tc b)

/-- No host operation before the launch writes the first argument (the input image): the launch finds it as started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor the second (the weight matrix). -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor the third (the bias). -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

end Cert.Kernel.Hand

end
-- ==== Proof.KerFrameBits.lean ====
/-
  The frame of the kernel program: it runs to the end, faults nowhere, and leaves its three argument arrays
  as they were; and the array it returns is named.

  The program is seventy-seven host operations, one kernel launch on a grid of 8 × 4 points, and one reshape of the
  launch's output.  At a grid point (pt, g) the body receives four whole staging buffers: a block of 4 × 512 patch
  rows of 640 features (input 0), the 640 × 256 weight slab of rotation g (input 1), the bias row (input 2), and the
  4 × 1 × 512 × 256 output block.  It loads the three inputs, and for each of the four batch entries writes one
  1 × 1 × 512 × 256 slab of the output block: the four slabs tile the block, so what the block holds afterwards is
  a function of the three input blocks alone (`out0_3`), whatever it held before.  The inputs are left in place.
  Between the points the pipeline fetches input blocks and writes output blocks back; the library's launch theorem
  turns the per-point statement into a statement about the whole launch, and the host operations after it are
  folded over the memory the launch leaves.
-/
import proofs.«153807_j19121194401875_2_alg».proof.Proof.KerVBits
import proofs.«153807_j19121194401875_2_alg».proof.Proof.Gen.Kernel.Skeleton
import proofs.«153807_j19121194401875_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its launch -/

/-- No host operation, before or after the launch, allocates a buffer. -/
theorem pre_fresh : ([hostOps0, hostOps0_1, hostOps0_2, hostOps0_3, hostOps0_4, hostOps0_5, hostOps0_6] : List (List (HloOp τ sig (Elt F)))).Forall
    fun ops => ops.Forall fun op => op.fresh = ∅ := by
  simp only [List.Forall]; repeat' constructor
theorem post_fresh : (hostOps1 : List (HloOp τ sig (Elt F))).Forall fun op => op.fresh = ∅ := by
  simp only [List.Forall]; repeat' constructor

/-- The program is its host operations before the launch, the launch, and the one reshape after it: run up to the
    launch it has made core `c`'s buffers `V m c`, and what is left to run is the launch followed by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by exact pre_fresh) main_chain

/-- The reshape after the launch touches only buffers the launch leaves to the host: the launch's arrays and the
    buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp post_fresh) op hop
/-- And it writes none of the launch's four arrays: only its own result. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-- The argument arrays after the reshape that follows the launch, for any proof data: the reshape does not write
    them and they are none of the launch's arrays, so they are what the launch found, which is the started memory. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-! ## The blocks the body is given -/

/-- Window `w`'s block at grid point `t`, cut out of its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The patch rows' staging buffer holds their block at every point, whether the pipeline fetched it there or the block index had not moved since the last fetch (points 4 pt + g share the block of pt). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight slab's staging buffer holds the slab of rotation g at every point (fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bias row's staging buffer holds the row at every point (fetched once, at the first point; the block index never moves). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from the launch theorem's conclusion -/

/-- For any proof data whose arrays are what the launch finds, a run ending in the launch theorem's post has the three
    argument arrays as started: none is an array of the launch, so each is what the reshape after the launch leaves
    of it, which is what it was. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## What the body reads and writes -/

/-- The four batch entries of the patch-row block, -/
abbrev rX0 : Rect S4x512x640 := Rect.unit (s := S4x512x640) ![0, 0, 0] S1x512x640.size inb_S4x512x640_S1x512x640_0_0_0
abbrev rX1 : Rect S4x512x640 := Rect.unit (s := S4x512x640) ![1, 0, 0] S1x512x640.size inb_S4x512x640_S1x512x640_1_0_0
abbrev rX2 : Rect S4x512x640 := Rect.unit (s := S4x512x640) ![2, 0, 0] S1x512x640.size inb_S4x512x640_S1x512x640_2_0_0
abbrev rX3 : Rect S4x512x640 := Rect.unit (s := S4x512x640) ![3, 0, 0] S1x512x640.size inb_S4x512x640_S1x512x640_3_0_0
/-- the whole weight slab, the whole bias row, -/
abbrev rW : Rect S1x640x256 := Rect.unit (s := S1x640x256) ![0, 0, 0] S1x640x256.size inb_S1x640x256_S1x640x256_0_0_0
abbrev rB : Rect S1x256 := Rect.unit (s := S1x256) ![0, 0] S1x256.size inb_S1x256_S1x256_0_0
/-- and the four batch slabs of the output block. -/
abbrev rO0 : Rect S4x1x512x256 := Rect.unit (s := S4x1x512x256) ![0, 0, 0, 0] S1x1x512x256.size inb_S4x1x512x256_S1x1x512x256_0_0_0_0
abbrev rO1 : Rect S4x1x512x256 := Rect.unit (s := S4x1x512x256) ![1, 0, 0, 0] S1x1x512x256.size inb_S4x1x512x256_S1x1x512x256_1_0_0_0
abbrev rO2 : Rect S4x1x512x256 := Rect.unit (s := S4x1x512x256) ![2, 0, 0, 0] S1x1x512x256.size inb_S4x1x512x256_S1x1x512x256_2_0_0_0
abbrev rO3 : Rect S4x1x512x256 := Rect.unit (s := S4x1x512x256) ![3, 0, 0, 0] S1x1x512x256.size inb_S4x1x512x256_S1x1x512x256_3_0_0_0

/-- The output column of each entry of a 512 × 256 tile (the body compares it with 0 to find the time column). -/
abbrev lanes : IVec S512x256 32 := iota .tc S512x256 32 [1] iota_S512x256_d1_w32

/-- The output block after the body, from the three input blocks: its four stores as pieces, the last store first.
    Slab `bi` is the Lorentz layer (matmul with the weight slab, plus bias, time column recomputed) of batch entry
    `bi` of the patch-row block; the payloads are the generated skeleton's. -/
def out0_3 (x0 : Vec F S4x512x640 .bf16) (x1 : Vec F S1x640x256 .bf16) (x2 : Vec F S1x256 .f32) : Vec F S4x1x512x256 .f32 :=
  View.canon [
    ⟨rO3, k0_pay2 (k0_pay3 (View.ld x1 rW)) (k0_pay4 (View.ld x2 rB)) lanes (View.ld x0 rX3)⟩,
    ⟨rO2, k0_pay1 (k0_pay9 (k0_pay3 (View.ld x1 rW)) (k0_pay4 (View.ld x2 rB)) lanes (View.ld x0 rX2))⟩,
    ⟨rO1, k0_pay8 lanes (k0_pay6 (View.ld x1 rW) (View.ld x2 rB) (View.ld x0 rX1)) k0_pay7⟩,
    ⟨rO0, k0_pay5 (View.ld x1 rW) (View.ld x2 rB) (View.ld x0 rX0)⟩]

/-- The four slabs tile the output block (four blocks of one slab's size along the batch axis), so every index of the
    block lies in one of them. -/
theorem cover0_3 (p3 p2 p1 p0 : Vec F S1x1x512x256 .f32) (y : S4x1x512x256.Idx) :
    ∃ pc ∈ ([⟨rO3, p3⟩, ⟨rO2, p2⟩, ⟨rO1, p1⟩, ⟨rO0, p0⟩] : List (View.Piece (Elt F) S4x1x512x256 .f32)), y ∈ pc.1.set :=
  View.cover_of_tiled [⟨rO3, p3⟩, ⟨rO2, p2⟩, ⟨rO1, p1⟩, ⟨rO0, p0⟩] S1x1x512x256.size (by rfl) y

/-! ## The body's triple -/

set_option maxHeartbeats 4000000 in
/-- The kernel body on four whole staging buffers, the three inputs' at given contents and the output's at anything,
    runs to a continuation that holds the inputs' as they were and the output's at `out0_3` of the inputs'. The body
    is run through its generated skeleton, its two printed parts included; the loads it makes of the output block
    before each store are of values it never uses. -/
theorem sound_kernel (c : Dev nD) (E : Set ℕ) (i : grid0.Coords)
    (arg2 : Memref sig .tc .vmem S4x512x640 .bf16) (harg2 : arg2.IsWhole)
    (arg3 : Memref sig .tc .vmem S1x640x256 .bf16) (harg3 : arg3.IsWhole)
    (arg4 : Memref sig .tc .vmem S1x256 .f32) (harg4 : arg4.IsWhole)
    (arg5 : Memref sig .tc .vmem S4x1x512x256 .f32) (harg5 : arg5.IsWhole)
    (x0 : Vec F S4x512x640 .bf16) (x1 : Vec F S1x640x256 .bf16) (x2 : Vec F S1x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0_matmul_lorentz_kernel i arg2 harg2 arg3 harg3 arg4 harg4 arg5 harg5) K := by
  simp only [cc0_matmul_lorentz_kernel_eq_skeleton]; unfold cc0_matmul_lorentz_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _ _)

/-! ## The launch's proof data -/

/-- The proof data of the launch on core `c`: the four arrays as the launch finds them; after the body at point `t`
    each input's staging buffer still at its block and the output's at `out0_3` of the three input blocks; the
    invariant between points the plain one (nothing carried from point to point); full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are what the launch finds (by projecting the definition: the fold behind `V` is never opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- What each input's staging buffer holds when the body is called at point `t`: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`: the invariant, the core's owed waits, and the four current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' staging buffers hold their blocks, so the body's triple applies; the invariant
    and the owed waits pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault; at the end
    each of the launch's arrays holds what the library computes from the proof data, and every other unscoped buffer
    what the reshape after the launch leaves of the launch's exit memory. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- THE FRAME, at any float instance: the program runs to the end without a fault and its three argument arrays end as
    they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KerStages.lean ====
/-
  The host side of the kernel's program, one function per group of operations, each operation applied to its
  operands in program order at the ideal instance.

  patches x   : the 3×3 patches of the padded input, one row of 585 = 65·9 entries per batch and position
                (reshape, zero padding of the two spatial axes, the nine shifted windows stacked on a new axis,
                reshape, transpose).  Both programs start with these operations; nothing downstream looks inside.
  pre0Of P    : the kernel's 640 input features per batch and position: the rescaled time feature, the 576 space
                entries laid out position-major, and 63 zero columns of padding.
  biasOf b    : the bias as a one-row matrix.
  tailOf o    : the kernel's output block array regrouped as (batch, rotation, h, w, column).
-/
import proofs.«153807_j19121194401875_2_alg».proof.KernelIdeal
import proofs.«153807_j19121194401875_2_alg».proof.Proof.Gen.KernelIdeal
import Idealize.ShloMosaic.PureOps.Ideal

noncomputable section

namespace Cert.KernelIdeal.KerValue

open Idealize.ShloMosaic Cert.KernelIdeal Cert.KernelIdeal.Gen

/-- The input with its channel axis moved forward (as the program's reshape does it) and one ring of zeros around
    the two spatial axes. -/
def padded (x : FVec Ideal S4x64x64x65 .f32) : FVec Ideal S4x65x66x66 .f32 :=
  pad S4x65x66x66 ![0, 0, 1, 1] ![0, 0, 1, 1] ![0, 0, 0, 0]
    (shapeCast S4x65x64x64 x shapeCasts_S4x64x64x65_S4x65x64x64)
    (sitofp (F := Ideal) .f32 (constantI S_ 32 0#32))
    pads_S4x65x64x64_S4x65x66x66_000_000_110_110 h_S_

/-- One shifted 64×64 window of the padded input, with a unit axis for the kernel position. -/
def window (p : FVec Ideal S4x65x66x66 .f32) (off : Fin 4 → Nat) (h : S4x65x66x66.Slices off S4x65x64x64) :
    FVec Ideal S4x65x1x64x64 .f32 :=
  broadcastInDim S4x65x1x64x64 ![0, 1, 3, 4] bcast_S4x65x64x64_S4x65x1x64x64_0_1_3_4
    (extractStridedSlice S4x65x64x64 off p h)

/-- The nine windows stacked along the kernel-position axis. -/
def stacked (p : FVec Ideal S4x65x66x66 .f32) : FVec Ideal S4x65x9x64x64 .f32 :=
  concatenate S4x65x9x64x64 2
    [⟨S4x65x1x64x64, window p ![0, 0, 0, 0] slices_S4x65x66x66_S4x65x64x64_0_0_0_0⟩,
     ⟨S4x65x1x64x64, window p ![0, 0, 0, 1] slices_S4x65x66x66_S4x65x64x64_0_0_0_1⟩,
     ⟨S4x65x1x64x64, window p ![0, 0, 0, 2] slices_S4x65x66x66_S4x65x64x64_0_0_0_2⟩,
     ⟨S4x65x1x64x64, window p ![0, 0, 1, 0] slices_S4x65x66x66_S4x65x64x64_0_0_1_0⟩,
     ⟨S4x65x1x64x64, window p ![0, 0, 1, 1] slices_S4x65x66x66_S4x65x64x64_0_0_1_1⟩,
     ⟨S4x65x1x64x64, window p ![0, 0, 1, 2] slices_S4x65x66x66_S4x65x64x64_0_0_1_2⟩,
     ⟨S4x65x1x64x64, window p ![0, 0, 2, 0] slices_S4x65x66x66_S4x65x64x64_0_0_2_0⟩,
     ⟨S4x65x1x64x64, window p ![0, 0, 2, 1] slices_S4x65x66x66_S4x65x64x64_0_0_2_1⟩,
     ⟨S4x65x1x64x64, window p ![0, 0, 2, 2] slices_S4x65x66x66_S4x65x64x64_0_0_2_2⟩]
    concatenates_S4x65x1x64x64_S4x65x1x64x64_S4x65x1x64x64_S4x65x1x64x64_S4x65x1x64x64_S4x65x1x64x64_S4x65x1x64x64_S4x65x1x64x64_S4x65x1x64x64_S4x65x9x64x64_d2

/-- The patches: row (b, p) holds, at j = c·9 + k, channel c of the padded input at the k-th neighbour of p. -/
def patches (x : FVec Ideal S4x64x64x65 .f32) : FVec Ideal S4x4096x585 .f32 :=
  transpose S4x4096x585 [0, 2, 1]
    (shapeCast S4x585x4096 (stacked (padded x)) shapeCasts_S4x65x9x64x64_S4x585x4096)
    transposes_S4x585x4096_S4x4096x585_0_2_1

/-- The patches with the entry index split into channel and kernel position. -/
def split (P : FVec Ideal S4x4096x585 .f32) : FVec Ideal S4x4096x65x9 .f32 :=
  shapeCast S4x4096x65x9 P shapeCasts_S4x4096x585_S4x4096x65x9

/-- The nine time entries (channel 0) of every patch row. -/
def timeEntries (P : FVec Ideal S4x4096x585 .f32) : FVec Ideal S4x4096x9 .f32 :=
  shapeCast S4x4096x9
    (extractStridedSlice S4x4096x1x9 ![0, 0, 0, 0] (split P) slices_S4x4096x65x9_S4x4096x1x9_0_0_0_0)
    shapeCasts_S4x4096x1x9_S4x4096x9

/-- The time entries clamped below at 1. -/
def clamped (P : FVec Ideal S4x4096x585 .f32) : FVec Ideal S4x4096x9 .f32 :=
  maximumf (timeEntries P) (broadcastInDim S4x4096x9 ![] bcast_S_S4x4096x9 (constant (F := Ideal) S_ .f32 0x3F800000#32))

/-- The rescaled time feature √(Σ max(t, 1)² − 8), one per batch and position. -/
def timeCol (P : FVec Ideal S4x4096x585 .f32) : FVec Ideal S4x4096x1 .f32 :=
  Host.sqrt (F := Ideal)
    (subf
      (broadcastInDim S4x4096x1 ![0, 1] bcast_S4x4096_S4x4096x1_0_1
        (Host.reduceAdd (F := Ideal) (mulf (clamped P) (clamped P)) (constant (F := Ideal) S_ .f32 0x00000000#32)
          reducesTo_S4x4096x9_S4x4096_d2 h_S_))
      (broadcastInDim S4x4096x1 ![] bcast_S_S4x4096x1 (constant (F := Ideal) S_ .f32 0x41000000#32)))

/-- The space entries (channels 1 to 64), laid out kernel-position-major: column k·64 + c'. -/
def spaceCols (P : FVec Ideal S4x4096x585 .f32) : FVec Ideal S4x4096x576 .f32 :=
  shapeCast S4x4096x576
    (transpose S4x4096x9x64 [0, 1, 3, 2]
      (extractStridedSlice S4x4096x64x9 ![0, 0, 1, 0] (split P) slices_S4x4096x65x9_S4x4096x64x9_0_0_1_0)
      transposes_S4x4096x64x9_S4x4096x9x64_0_1_3_2)
    shapeCasts_S4x4096x9x64_S4x4096x576

/-- The kernel's first operand: time feature, space entries, 63 columns of zeros. -/
def pre0Of (P : FVec Ideal S4x4096x585 .f32) : FVec Ideal S4x4096x640 .bf16 :=
  concatenate S4x4096x640 2
    [⟨S4x4096x1, truncf .bf16 (timeCol P) bitsLt_bf16_f32⟩,
     ⟨S4x4096x576, truncf .bf16 (spaceCols P) bitsLt_bf16_f32⟩,
     ⟨S4x4096x63, broadcastInDim S4x4096x63 ![] bcast_S_S4x4096x63 (constant (F := Ideal) S_ .bf16 0x0000#16)⟩]
    concatenates_S4x4096x1_S4x4096x576_S4x4096x63_S4x4096x640_d2

/-- The kernel's third operand: the bias as a 1×256 matrix. -/
def biasOf (b : FVec Ideal S256 .f32) : FVec Ideal S1x256 .f32 :=
  shapeCast S1x256 b shapeCasts_S256_S1x256

/-- The host operation after the kernel: positions p = h·64 + w split into (h, w). -/
def tailOf (o : FVec Ideal S4x4x4096x256 .f32) : FVec Ideal S4x4x64x64x256 .f32 :=
  shapeCast S4x4x64x64x256 o shapeCasts_S4x4x4096x256_S4x4x64x64x256

end Cert.KernelIdeal.KerValue

end
-- ==== Proof.KerPre.lean ====
/-
  The kernel's first operand read entry by entry.

  Row (b, p) of the operand has 640 entries.  Entry 0 is the rescaled time feature of the patch row: the nine
  channel-0 entries are clamped below at 1, squared and summed (from the zero the host's sum starts at), 8 is
  subtracted and the root taken.  Entry q for 1 ≤ q ≤ 576 is a space entry: the space block is laid out
  kernel-position-major, so column q − 1 = k·64 + c' holds channel c' + 1 at position k, which sits at index
  (c' + 1)·9 + k of the patch row.  Entries 577 … 639 are the zero padding.  Every layout operation is read by
  comparing row-major positions; the only arithmetic is the splitting of q − 1 by 64.
-/
import proofs.«153807_j19121194401875_2_alg».proof.Proof.KerStages
import proofs.«153807_j19121194401875_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.KerValue

open Idealize.ShloMosaic Idealize.ShloMosaic.ValueIdx Cert.KernelIdeal Cert.KernelIdeal.Gen Cert.Lorentz

/-- Entry (c, k) of a split patch row is entry c·9 + k of the row. -/
theorem split_apply (P : FVec Ideal S4x4096x585 .f32) (b : Fin 4) (p : Fin 4096) (c : Fin 65) (k : Fin 9) :
    split P (ix4 b p c k) = P (ix3 b p (pj c k)) := by
  unfold split
  refine shapeCast_apply P _ (ix4 b p c k) (ix3 b p (pj c k)) ?_
  rw [Shape.rowMajor_val_three, Shape.rowMajor_val_four]
  show (b.val * 4096 + p.val) * 585 + (c.val * 9 + k.val) = ((b.val * 4096 + p.val) * 65 + c.val) * 9 + k.val
  omega

/-- The k-th time entry of patch row (b, p). -/
theorem timeEntries_apply (P : FVec Ideal S4x4096x585 .f32) (b : Fin 4) (p : Fin 4096) (k : Fin 9) :
    timeEntries P (ix3 b p k) = P (ix3 b p (pj 0 k)) := by
  unfold timeEntries
  refine (shapeCast_apply _ _ (ix3 b p k) (ix4 b p (0 : Fin 1) k) ?_).trans ?_
  · rw [Shape.rowMajor_val_three, Shape.rowMajor_val_four]
    show ((b.val * 4096 + p.val) * 1 + 0) * 9 + k.val = (b.val * 4096 + p.val) * 9 + k.val
    omega
  refine (extractStridedSlice_apply _ _ _ (ix4 b p (0 : Fin 1) k) (ix4 b p (0 : Fin 65) k) ?_).trans ?_
  · intro a
    match a with
    | ⟨0, _⟩ => show b.val = 0 + b.val; omega
    | ⟨1, _⟩ => show p.val = 0 + p.val; omega
    | ⟨2, _⟩ => rfl
    | ⟨3, _⟩ => show k.val = 0 + k.val; omega
  exact split_apply P b p 0 k

/-- The clamped time entries. -/
theorem clamped_apply (P : FVec Ideal S4x4096x585 .f32) (b : Fin 4) (p : Fin 4096) (k : Fin 9) :
    clamped P (ix3 b p k) = max (P (ix3 b p (pj 0 k))) one := by
  unfold clamped
  rw [maximumf_apply, timeEntries_apply]
  refine congrArg (max _) ?_
  exact broadcastInDim_apply _ _ _ (ix3 b p k) ix0 (fun a => a.elim0)

/-- A reduction over the last axis of a rank-3 array: the index that reduces to (b, p) with coordinate k inserted. -/
theorem lift_last (h : S4x4096x9.Reduces [2] S4x4096) (b : Fin 4) (p : Fin 4096) (k : Fin 9) :
    h.lift (ix2 b p) k = ix3 b p k := by
  funext a
  match a with
  | ⟨0, _⟩ => exact Fin.ext rfl
  | ⟨1, _⟩ => exact Fin.ext rfl
  | ⟨2, _⟩ => exact Fin.ext rfl

/-- The time feature of patch row (b, p). -/
theorem timeCol_apply (P : FVec Ideal S4x4096x585 .f32) (b : Fin 4) (p : Fin 4096) :
    timeCol P (ix3 b p (0 : Fin 1)) = timeOf (fun k => P (ix3 b p (pj 0 k))) := by
  have hR : S4x4096x9.Reduces [2] S4x4096 := by decide
  unfold timeCol timeOf
  show Ideal.sqrt (broadcastInDim S4x4096x1 ![0, 1] bcast_S4x4096_S4x4096x1_0_1
        (Ideal.hostReduceAdd reducesTo_S4x4096x9_S4x4096_d2 (mulf (clamped P) (clamped P)) (Ideal.ofBits .f32 0x00000000#32)) (ix3 b p (0 : Fin 1))
      - broadcastInDim S4x4096x1 ![] bcast_S_S4x4096x1 (constant (F := Ideal) S_ .f32 0x41000000#32) (ix3 b p (0 : Fin 1))) = _
  rw [broadcastInDim_apply _ _ _ (ix3 b p (0 : Fin 1)) (ix2 b p) (fun a => by
        match a with
        | ⟨0, _⟩ => rfl
        | ⟨1, _⟩ => rfl),
      broadcastInDim_apply _ bcast_S_S4x4096x1 _ (ix3 b p (0 : Fin 1)) ix0 (fun a => a.elim0),
      Ideal.hostReduceAdd_single _ hR, Ideal.ofBits_zero_f32, zero_add]
  refine congrArg (fun s => Ideal.sqrt (s - eight)) ?_
  show ∑ k : Fin 9, mulf (clamped P) (clamped P) (hR.lift (ix2 b p) k) = _
  refine Finset.sum_congr rfl (fun k _ => ?_)
  rw [lift_last, mulf_apply, clamped_apply]

/-- A space entry: column r = k·64 + c' of the space block is channel c' + 1 at kernel position k. -/
theorem spaceCols_apply (P : FVec Ideal S4x4096x585 .f32) (b : Fin 4) (p : Fin 4096) (q : Fin 577) (hq : q.val ≠ 0) :
    spaceCols P (ix3 b p (⟨q.val - 1, by have := q.isLt; omega⟩ : Fin 576)) = P (ix3 b p (pj (chanOf q) (posOf q))) := by
  have hq' := q.isLt
  unfold spaceCols
  refine (shapeCast_apply _ _ (ix3 b p (⟨q.val - 1, by omega⟩ : Fin 576))
    (ix4 b p (posOf q) (⟨(q.val - 1) % 64, Nat.mod_lt _ (by decide)⟩ : Fin 64)) ?_).trans ?_
  · rw [Shape.rowMajor_val_three, Shape.rowMajor_val_four]
    show ((b.val * 4096 + p.val) * 9 + (q.val - 1) / 64) * 64 + (q.val - 1) % 64 = (b.val * 4096 + p.val) * 576 + (q.val - 1)
    omega
  refine (transpose_apply _ _ _ (ix4 b p (posOf q) (⟨(q.val - 1) % 64, Nat.mod_lt _ (by decide)⟩ : Fin 64))
    (ix4 b p (⟨(q.val - 1) % 64, Nat.mod_lt _ (by decide)⟩ : Fin 64) (posOf q)) ?_).trans ?_
  · intro a
    match a with
    | ⟨0, _⟩ => rfl
    | ⟨1, _⟩ => rfl
    | ⟨2, _⟩ => rfl
    | ⟨3, _⟩ => rfl
  refine (extractStridedSlice_apply _ _ _ (ix4 b p (⟨(q.val - 1) % 64, Nat.mod_lt _ (by decide)⟩ : Fin 64) (posOf q))
    (ix4 b p (chanOf q) (posOf q)) ?_).trans ?_
  · intro a
    match a with
    | ⟨0, _⟩ => show b.val = 0 + b.val; omega
    | ⟨1, _⟩ => show p.val = 0 + p.val; omega
    | ⟨2, _⟩ => show (q.val - 1) % 64 + 1 = 1 + (q.val - 1) % 64; omega
    | ⟨3, _⟩ => show (posOf q).val = 0 + (posOf q).val; omega
  exact split_apply P b p (chanOf q) (posOf q)

/-- The three pieces the first operand is concatenated from, along the feature axis. -/
def pieces (P : FVec Ideal S4x4096x585 .f32) : List ((s : Shape) × (s.Idx → Ideal .bf16)) :=
  [⟨S4x4096x1, truncf .bf16 (timeCol P) bitsLt_bf16_f32⟩,
   ⟨S4x4096x576, truncf .bf16 (spaceCols P) bitsLt_bf16_f32⟩,
   ⟨S4x4096x63, broadcastInDim S4x4096x63 ![] bcast_S_S4x4096x63 (constant (F := Ideal) S_ .bf16 0x0000#16)⟩]

theorem pre0Of_eq (P : FVec Ideal S4x4096x585 .f32) :
    pre0Of P = concatenate S4x4096x640 2 (pieces P) concatenates_S4x4096x1_S4x4096x576_S4x4096x63_S4x4096x640_d2 := rfl

/-- THE KERNEL'S FIRST OPERAND AT AN INDEX: feature q of patch row (b, p) for q below 577, zero in the padding. -/
theorem pre0Of_apply (P : FVec Ideal S4x4096x585 .f32) (b : Fin 4) (p : Fin 4096) (q : Fin 640) :
    pre0Of P (ix3 b p q) = if h : q.val < 577 then featK (fun b p j => P (ix3 b p j)) b p ⟨q.val, h⟩ else 0 := by
  have hq' := q.isLt
  rw [pre0Of_eq]
  by_cases h0 : q.val = 0
  · rw [dif_pos (by omega)]
    refine (concatenate_apply_piece (t := S4x4096x640) 2 (pieces P) concatenates_S4x4096x1_S4x4096x576_S4x4096x63_S4x4096x640_d2 (ix3 b p q) 0 (Nat.zero_lt_succ 2) S4x4096x1 _ rfl rfl 0 rfl
      (ix3 b p (0 : Fin 1)) ?_ ?_).trans ?_
    · intro a ha
      match a with
      | ⟨0, _⟩ => rfl
      | ⟨1, _⟩ => rfl
      | ⟨2, _⟩ => exact absurd rfl ha
    · show 0 + 0 = q.val; omega
    rw [truncf_apply, timeCol_apply]
    unfold featK
    rw [if_pos h0]
  · by_cases h1 : q.val < 577
    · rw [dif_pos h1]
      refine (concatenate_apply_piece (t := S4x4096x640) 2 (pieces P) concatenates_S4x4096x1_S4x4096x576_S4x4096x63_S4x4096x640_d2 (ix3 b p q) 1 (Nat.succ_lt_succ (Nat.zero_lt_succ 1)) S4x4096x576 _ rfl rfl 1 rfl
        (ix3 b p (⟨q.val - 1, by omega⟩ : Fin 576)) ?_ ?_).trans ?_
      · intro a ha
        match a with
        | ⟨0, _⟩ => rfl
        | ⟨1, _⟩ => rfl
        | ⟨2, _⟩ => exact absurd rfl ha
      · show 1 + (q.val - 1) = q.val; omega
      rw [truncf_apply]
      refine (spaceCols_apply P b p ⟨q.val, h1⟩ h0).trans ?_
      unfold featK
      rw [if_neg h0]
    · rw [dif_neg h1]
      refine (concatenate_apply_piece (t := S4x4096x640) 2 (pieces P) concatenates_S4x4096x1_S4x4096x576_S4x4096x63_S4x4096x640_d2 (ix3 b p q) 2 (Nat.succ_lt_succ (Nat.succ_lt_succ (Nat.zero_lt_succ 0))) S4x4096x63 _ rfl rfl 577 rfl
        (ix3 b p (⟨q.val - 577, by omega⟩ : Fin 63)) ?_ ?_).trans ?_
      · intro a ha
        match a with
        | ⟨0, _⟩ => rfl
        | ⟨1, _⟩ => rfl
        | ⟨2, _⟩ => exact absurd rfl ha
      · show 577 + (q.val - 577) = q.val; omega
      refine (broadcastInDim_apply _ _ _ _ ix0 (fun a => a.elim0)).trans ?_
      exact Ideal.ofBits_zero_bf16

/-- THE KERNEL'S THIRD OPERAND AT AN INDEX: the bias row is the bias. -/
theorem biasOf_apply (b : FVec Ideal S256 .f32) (o : Fin 256) : biasOf b (ix2 (0 : Fin 1) o) = b (ix1 o) := by
  unfold biasOf
  refine shapeCast_apply b _ (ix2 (0 : Fin 1) o) (ix1 o) ?_
  rw [Shape.rowMajor_val_one, Shape.rowMajor_val_two]
  show o.val = 0 * 256 + o.val
  omega

end Cert.KernelIdeal.KerValue

end
-- ==== Proof.KerWeights.lean ====
/-
  The kernel's weight operand.

  From the weight matrix W : 256 × 577 the host code builds, for each of the four rotations g, the matrix whose
  row q is row perm g q of Wᵀ, and pads the 577 rows to 640 with zeros:
      w[g, q, o] = W[o, perm g q]   for q < 577,        w[g, q, o] = 0   for 577 ≤ q < 640.
  The rows are taken by a gather through a literal 4 × 577 table of row numbers.  The gather is wrapped in the
  usual bounds handling of an indexed take: a negative row number would have 577 added to it, and a row number
  outside 0 … 576 would select a fill pattern instead of the gathered row.  Every entry of the table lies in
  0 … 576, so neither happens: the table's entry at (g, q) is the number perm g q.
  The last step changes the float format, which is the identity on the extended reals.
-/
import proofs.«153807_j19121194401875_2_alg».proof.KernelIdeal
import proofs.«153807_j19121194401875_2_alg».proof.Proof.Gen.KernelIdeal
import proofs.«153807_j19121194401875_2_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Reduce

noncomputable section

namespace Cert.KernelIdeal.KerValue

open Idealize.ShloMosaic Idealize.ShloMosaic.ValueIdx Cert.KernelIdeal
open Cert.KernelIdeal.Facts₀ Cert.KernelIdeal.Facts

/-! ## The operations, as the program spells them -/

/-- The literal table of row numbers. -/
def rowTable : IVec S4x577 32 := fun i => lit0 (S4x577.rowMajor i)

/-- Wᵀ. -/
def wT (W : FVec Ideal S256x577 .f32) : FVec Ideal S577x256 .f32 :=
  transpose S577x256 [1, 0] W transposes_S256x577_S577x256_1_0

/-- The row numbers after the negative-index wrap: where an entry is negative, the entry plus 577. -/
def rowWrapped : IVec S4x577 32 :=
  select (cmpi .slt rowTable (broadcastInDim S4x577 ![] bcast_S_S4x577 (constantI S_ 32 0#32)))
    (addi rowTable (broadcastInDim S4x577 ![] bcast_S_S4x577 (constantI S_ 32 577#32))) rowTable

/-- The row numbers as a column of start indices. -/
def rowStart : IVec S4x577x1 32 := broadcastInDim S4x577x1 ![0, 1] bcast_S4x577_S4x577x1_0_1 rowWrapped

/-- The in-range mask: 0 ≤ row number ≤ 576, reduced over the index vector's one component. -/
def rowMask : IVec S4x577 1 :=
  Host.reduce IntOp.andi
    (andi (cmpi .sge rowStart (broadcastInDim S4x577x1 ![] bcast_S_S4x577x1 (constantI S_ 32 0#32)))
      (cmpi .sle rowStart (broadcastInDim S4x577x1 ![0, 1, 2] bcast_S1x1x1_S4x577x1_0_1_2
        (broadcastInDim S1x1x1 ![2] bcast_S1_S1x1x1_2 (constantI S1 32 576#32)))))
    (constantI S_ 1 1#1) reducesTo_S4x577x1_S4x577_d2 h_S_

/-- The taken rows: the gathered row where the row number is in range, the fill pattern elsewhere. -/
def wTaken (W : FVec Ideal S256x577 .f32) : FVec Ideal S4x577x256 .f32 :=
  select (broadcastInDim S4x577x256 ![0, 1] bcast_S4x577_S4x577x256_0_1 rowMask)
    (Host.gather gather_S577x256_S4x577x1_S4x577x256_2_0_n_n_0_2_1256 (wT W) rowStart)
    (broadcastInDim S4x577x256 ![] bcast_S_S4x577x256 (constant (F := Ideal) S_ .f32 0x7FC00000#32))

/-- The rows padded to 640 with the converted integer zero. -/
def wPadded (W : FVec Ideal S256x577 .f32) : FVec Ideal S4x640x256 .f32 :=
  pad S4x640x256 ![0, 0, 0] ![0, 63, 0] ![0, 0, 0] (wTaken W) (sitofp (F := Ideal) .f32 (constantI S_ 32 0#32))
    pads_S4x577x256_S4x640x256_000_0630_000 h_S_

/-- The weight operand of the kernel. -/
def wAllOf (W : FVec Ideal S256x577 .f32) : FVec Ideal S4x640x256 .bf16 :=
  truncf .bf16 (wPadded W) bitsLt_bf16_f32

/-! ## The table's entries -/

set_option maxRecDepth 100000 in
/-- Every entry of the table is the row number perm names (decided entry by entry). -/
theorem table_entry : ∀ (g : Fin 4) (q : Fin 577),
    (lit0 ⟨g.val * 577 + q.val, by have := g.isLt; have := q.isLt; omega⟩).toNat = (Cert.Lorentz.perm g q).val := by
  decide +kernel

/-- What the bounds handling asks of a row number below 577 as a 32-bit word: it is not negative, it lies in
    0 … 576, and read as a signed integer it is itself. -/
theorem word_facts : ∀ n : Fin 577,
    IntOp.cmpi .slt (BitVec.ofNat 32 n.val) 0#32 = 0#1 ∧ IntOp.cmpi .sge (BitVec.ofNat 32 n.val) 0#32 = 1#1
      ∧ IntOp.cmpi .sle (BitVec.ofNat 32 n.val) 576#32 = 1#1 ∧ (BitVec.ofNat 32 n.val).toInt.toNat = n.val := by
  decide +kernel

theorem rowTable_apply (g : Fin 4) (q : Fin 577) :
    rowTable (ix2 g q) = BitVec.ofNat 32 (Cert.Lorentz.perm g q).val := by
  have hpos : S4x577.rowMajor (ix2 g q)
      = ⟨g.val * 577 + q.val, by have := g.isLt; have := q.isLt; show g.val * 577 + q.val < 2308; omega⟩ :=
    Fin.ext (Shape.rowMajor_val_two (ix2 g q))
  unfold rowTable
  rw [hpos]
  apply BitVec.eq_of_toNat_eq
  rw [table_entry g q, BitVec.toNat_ofNat]
  have := (Cert.Lorentz.perm g q).isLt
  omega

/-- No entry is negative, so the wrap leaves the table as it is. -/
theorem rowWrapped_apply (g : Fin 4) (q : Fin 577) :
    rowWrapped (ix2 g q) = BitVec.ofNat 32 (Cert.Lorentz.perm g q).val := by
  show Scalar.select (IntOp.cmpi .slt (rowTable (ix2 g q)) 0#32) (IntOp.addi (rowTable (ix2 g q)) 577#32)
    (rowTable (ix2 g q)) = _
  rw [rowTable_apply, (word_facts (Cert.Lorentz.perm g q)).1, select_zero]

/-- The start index at any index over (g, q). -/
theorem rowStart_apply (g : Fin 4) (q : Fin 577) (i : S4x577x1.Idx) (h0 : (i 0).val = g.val) (h1 : (i 1).val = q.val) :
    rowStart i = BitVec.ofNat 32 (Cert.Lorentz.perm g q).val := by
  refine (broadcastInDim_apply _ _ _ i (ix2 g q) (fun a => ?_)).trans (rowWrapped_apply g q)
  match a with
  | ⟨0, _⟩ => exact h0.symm
  | ⟨1, _⟩ => exact h1.symm

/-- An and-fold of ones from one is one. -/
theorem fold_and_ones {ι : Type} [DecidableEq ι] (s : Finset ι) :
    s.fold IntOp.andi (1#1 : BitVec 1) (fun _ => (1#1 : BitVec 1)) = 1#1 := by
  induction s using Finset.induction_on with
  | empty => rfl
  | insert a s ha ih => rw [Finset.fold_insert ha, ih]; decide

/-- Every row number is in range: the mask is all ones. -/
theorem rowMask_apply (g : Fin 4) (q : Fin 577) : rowMask (ix2 g q) = 1#1 := by
  unfold rowMask
  rw [Host.reduce_eq_fold_single IntOp.andi _ _ reducesTo_S4x577x1_S4x577_d2
    (by decide : S4x577x1.Reduces [(2 : Fin 3)] S4x577) h_S_ (ix2 g q)]
  have hf : ((andi (cmpi .sge rowStart (broadcastInDim S4x577x1 ![] bcast_S_S4x577x1 (constantI S_ 32 0#32)))
      (cmpi .sle rowStart (broadcastInDim S4x577x1 ![0, 1, 2] bcast_S1x1x1_S4x577x1_0_1_2
        (broadcastInDim S1x1x1 ![2] bcast_S1_S1x1x1_2 (constantI S1 32 576#32))))) ∘
      (by decide : S4x577x1.Reduces [(2 : Fin 3)] S4x577).lift (ix2 g q)) = fun _ => (1#1 : BitVec 1) := by
    funext k
    show IntOp.andi (IntOp.cmpi .sge (rowStart _) 0#32) (IntOp.cmpi .sle (rowStart _) 576#32) = 1#1
    rw [rowStart_apply g q _ rfl rfl, (word_facts (Cert.Lorentz.perm g q)).2.1,
      (word_facts (Cert.Lorentz.perm g q)).2.2.1]
    decide
  rw [hf]
  exact fold_and_ones _

/-! ## The gather, the fill, the padding -/

/-- The gathered row: at (g, q, o) the gather reads Wᵀ at row perm g q, column o. -/
theorem gathered_apply (W : FVec Ideal S256x577 .f32) (g : Fin 4) (q : Fin 577) (o : Fin 256) :
    Host.gather gather_S577x256_S4x577x1_S4x577x256_2_0_n_n_0_2_1256 (wT W) rowStart (ix3 g q o)
      = W (ix2 o (Cert.Lorentz.perm g q)) := by
  unfold Host.gather
  have hidx : gather_S577x256_S4x577x1_S4x577x256_2_0_n_n_0_2_1256.operandIdx (ix3 g q o) rowStart
      = ix2 (Cert.Lorentz.perm g q) o := by
    funext a
    refine Fin.ext ?_
    match a with
    | ⟨0, _⟩ =>
      show gather_S577x256_S4x577x1_S4x577x256_2_0_n_n_0_2_1256.start (ix3 g q o) rowStart 0
        + gather_S577x256_S4x577x1_S4x577x256_2_0_n_n_0_2_1256.batchCoord (ix3 g q o) 0
        + gather_S577x256_S4x577x1_S4x577x256_2_0_n_n_0_2_1256.offCoord (ix3 g q o) 0 = (Cert.Lorentz.perm g q).val
      rw [GatherDims.batchCoord_eq_zero _ _ _ List.not_mem_nil,
        GatherDims.offCoord_eq_zero _ _ _ (fun h => ((GatherDims.mem_sKept _ _).mp h).1 (List.mem_singleton.mpr rfl))]
      simp only [Nat.add_zero]
      unfold GatherDims.start
      rw [dif_pos (show (0 : Fin 2) ∈ gather_S577x256_S4x577x1_S4x577x256_2_0_n_n_0_2_1256.startIndexMap from
        List.mem_singleton.mpr rfl)]
      rw [rowStart_apply g q _ rfl rfl, (word_facts (Cert.Lorentz.perm g q)).2.2.2]
      have := (Cert.Lorentz.perm g q).isLt
      show min (Cert.Lorentz.perm g q).val (577 - 1) = _
      omega
    | ⟨1, _⟩ =>
      show gather_S577x256_S4x577x1_S4x577x256_2_0_n_n_0_2_1256.start (ix3 g q o) rowStart 1
        + gather_S577x256_S4x577x1_S4x577x256_2_0_n_n_0_2_1256.batchCoord (ix3 g q o) 1
        + gather_S577x256_S4x577x1_S4x577x256_2_0_n_n_0_2_1256.offCoord (ix3 g q o) 1 = o.val
      rw [GatherDims.batchCoord_eq_zero _ _ _ List.not_mem_nil]
      unfold GatherDims.start
      rw [dif_neg (show (1 : Fin 2) ∉ gather_S577x256_S4x577x1_S4x577x256_2_0_n_n_0_2_1256.startIndexMap by decide)]
      unfold GatherDims.offCoord
      rw [dif_pos (show (1 : Fin 2) ∈ gather_S577x256_S4x577x1_S4x577x256_2_0_n_n_0_2_1256.sKept by decide)]
      show 0 + 0 + o.val = o.val
      omega
  rw [hidx]
  exact transpose_ix2_apply W _ (Cert.Lorentz.perm g q) o

/-- The taken rows: the mask is all ones, so the fill pattern is never read. -/
theorem wTaken_apply (W : FVec Ideal S256x577 .f32) (g : Fin 4) (q : Fin 577) (o : Fin 256) :
    wTaken W (ix3 g q o) = W (ix2 o (Cert.Lorentz.perm g q)) := by
  unfold wTaken
  rw [select_apply]
  have hm : broadcastInDim S4x577x256 ![0, 1] bcast_S4x577_S4x577x256_0_1 rowMask (ix3 g q o) = 1#1 :=
    (broadcastInDim_apply _ _ _ (ix3 g q o) (ix2 g q)
      (fun a => match a with | ⟨0, _⟩ => rfl | ⟨1, _⟩ => rfl)).trans (rowMask_apply g q)
  rw [hm, select_one]
  exact gathered_apply W g q o

/-- The padding value: the integer zero converted to a float is zero. -/
theorem padValue : (sitofp (F := Ideal) .f32 (constantI S_ 32 0#32)) (Shape.Idx.first h_S_) = (0 : EReal) := by
  show FloatOps.sitofp (F := Ideal) .f32 (0#32 : BitVec 32) = (0 : EReal)
  simp [FloatOps.sitofp]

/-- The weight operand at (g, q, o): row perm g q of Wᵀ for q below 577, zero in the padding. -/
theorem wAllOf_apply (W : FVec Ideal S256x577 .f32) (g : Fin 4) (q : Fin 640) (o : Fin 256) :
    wAllOf W (ix3 g q o)
      = if h : q.val < 577 then W (ix2 o (Cert.Lorentz.perm g ⟨q.val, h⟩)) else (0 : EReal) := by
  show wPadded W (ix3 g q o) = _
  unfold wPadded
  by_cases h : q.val < 577
  · rw [dif_pos h]
    refine (pad_apply_of_inside _ _ _ _ _ _ _ (ix3 g q o) (ix3 g ⟨q.val, h⟩ o) (fun a => ?_)).trans
      (wTaken_apply W g ⟨q.val, h⟩ o)
    match a with
    | ⟨0, _⟩ => show g.val = 0 + g.val * (0 + 1); omega
    | ⟨1, _⟩ => show q.val = 0 + q.val * (0 + 1); omega
    | ⟨2, _⟩ => show o.val = 0 + o.val * (0 + 1); omega
  · rw [dif_neg h]
    refine (pad_apply_of_not_inside _ _ _ _ _ _ _ (ix3 g q o) (1 : Fin 3) (fun hin => h ?_)).trans padValue
    have := hin.2.2
    show q.val < 577
    simpa using this

end Cert.KernelIdeal.KerValue

end
-- ==== Proof.KerBody.lean ====
/-
  The kernel body's arithmetic, on one batch row's block of 512 patch rows.

  The body applies the same two steps to each of the four batch rows.  The linear layer: the 512 × 640 block of
  features times the 640 × 256 slab of weights, accumulated from zero, plus the bias row.  The time recompute: column
  0 of the result is masked to zero, the 256 squares of each row are summed, 1 is added and the root taken, and
  that root replaces column 0.  The four stores' values are these two steps applied to the four blocks; read at an
  entry (r, o) they are the specification's masked Lorentz form of the row's 256 linear outputs.
-/
import proofs.«153807_j19121194401875_2_alg».proof.Proof.Gen.KernelIdeal.Skeleton
import proofs.«153807_j19121194401875_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.KerValue

open Idealize.ShloMosaic Idealize.ShloMosaic.ValueIdx Cert.KernelIdeal Cert.KernelIdeal.Gen Cert.Lorentz

/-! ## The two halves of the body, named -/

/-- The lane numbers 0 … 255 along each row, and the all-zero words they are compared with. -/
abbrev laneIdx : IVec S512x256 32 := iota .tc S512x256 32 [1] iota_S512x256_d1_w32
abbrev zeroWords : IVec S512x256 32 := broadcast S512x256 0#32

/-- The linear layer on one batch row's block: rows times weight columns, plus the bias row. -/
def linOf (x : FVec Ideal S1x512x640 .bf16) (w : FVec Ideal S640x256 .bf16) (bias : FVec Ideal S1x256 .f32) :
    FVec Ideal S512x256 .f32 :=
  addf (matmul dot_S512x640_S640x256_S512x256_1_0_0_1_n_n none (shapeCast S512x640 x shapeCasts_S1x512x640_S512x640) w
      (constant (F := Ideal) S512x256 .f32 0x00000000#32))
    (broadcastTo S512x256 bias broadcasts_S1x256_S512x256)

/-- The time recompute on a block of linear-layer outputs: lane 0 is replaced by √(Σ of the squares of the other
    lanes + 1). -/
def lorOf (v4 : IVec S512x256 32) (y : FVec Ideal S512x256 .f32) : FVec Ideal S1x1x512x256 .f32 :=
  shapeCast S1x1x512x256
    (select (cmpi .eq v4 zeroWords)
      (broadcastTo S512x256
        (shapeCast S512x1
          (sqrt (addf
            (shapeCast S512x1
              (multiReduction .add [1] S512
                (mulf (select (cmpi .eq v4 zeroWords) (broadcast S512x256 (Scalar.ofBits (F := Ideal) .f32 0x00000000#32)) y)
                      (select (cmpi .eq v4 zeroWords) (broadcast S512x256 (Scalar.ofBits (F := Ideal) .f32 0x00000000#32)) y))
                0x00000000#32 reduces_S512x256_S512 (.inl rfl) rfl)
              shapeCasts_S512_S512x1)
            (broadcast S512x1 (Scalar.ofBits (F := Ideal) .f32 0x3F800000#32))))
          shapeCasts_S512x1_S512x1)
        broadcasts_S512x1_S512x256)
      y)
    shapeCasts_S512x256_S1x1x512x256

/-- The four stores' payloads are the same two halves. -/
theorem pay5_eq (v0 : FVec Ideal S1x640x256 .bf16) (v2 : FVec Ideal S1x256 .f32) (v5 : FVec Ideal S1x512x640 .bf16) :
    k0_pay5 v0 v2 v5 = lorOf laneIdx (linOf v5 (k0_pay3 v0) (k0_pay4 v2)) := rfl
theorem pay8_eq (v0 : FVec Ideal S1x640x256 .bf16) (v2 : FVec Ideal S1x256 .f32) (v4 : IVec S512x256 32) (v28 : FVec Ideal S1x512x640 .bf16) :
    k0_pay8 v4 (k0_pay6 v0 v2 v28) k0_pay7 = lorOf v4 (linOf v28 (k0_pay3 v0) (k0_pay4 v2)) := rfl
theorem pay1_eq (v1 : FVec Ideal S640x256 .bf16) (v3 : FVec Ideal S1x256 .f32) (v4 : IVec S512x256 32) (v51 : FVec Ideal S1x512x640 .bf16) :
    k0_pay1 (k0_pay9 v1 v3 v4 v51) = lorOf v4 (linOf v51 v1 v3) := rfl
theorem pay2_eq (v1 : FVec Ideal S640x256 .bf16) (v3 : FVec Ideal S1x256 .f32) (v4 : IVec S512x256 32) (v74 : FVec Ideal S1x512x640 .bf16) :
    k0_pay2 v1 v3 v4 v74 = lorOf v4 (linOf v74 v1 v3) := rfl

/-! ## The halves read at an index -/

/-- A select on "the lane number is 0". -/
theorem select_lane {α : Type} (o : Fin 256) (A B : α) :
    Scalar.select (IntOp.cmpi .eq (BitVec.ofNat 32 o.val) 0#32) A B = if o.val = 0 then A else B := by
  by_cases h : o.val = 0
  · rw [if_pos h, h]; rfl
  · rw [if_neg h]
    have hne : BitVec.ofNat 32 o.val ≠ 0#32 := fun e => h (by
      have h1 := congrArg BitVec.toNat e
      rw [BitVec.toNat_ofNat, Nat.mod_eq_of_lt (Nat.lt_trans o.isLt (by decide))] at h1
      exact h1)
    show Scalar.select (BitVec.ofBool (BitVec.ofNat 32 o.val == 0#32)) A B = B
    rw [beq_eq_false_iff_ne.mpr hne]
    exact select_zero A B

/-- The lane number of entry (r, o) of a tile is o. -/
theorem laneIdx_apply (r : Fin 512) (o : Fin 256) : laneIdx (ix2 r o) = BitVec.ofNat 32 o.val :=
  iota_single_apply .tc S512x256 32 1 iota_S512x256_d1_w32 (ix2 r o)

/-- The masked value: zero in lane 0, the linear layer's output elsewhere. -/
theorem masked_apply (y : FVec Ideal S512x256 .f32) (r : Fin 512) (k : Fin 256) :
    select (cmpi .eq laneIdx zeroWords) (broadcast S512x256 (Scalar.ofBits (F := Ideal) .f32 0x00000000#32)) y (ix2 r k)
      = if k.val = 0 then zero else y (ix2 r k) := by
  rw [select_apply]
  show Scalar.select (IntOp.cmpi .eq (laneIdx (ix2 r k)) 0#32) zero (y (ix2 r k)) = _
  rw [laneIdx_apply, select_lane]

/-- A reduction over the lanes: the index that reduces to row r with lane k inserted. -/
theorem lift_lane (h : S512x256.Reduces [1] S512) (r : Fin 512) (k : Fin 256) : h.lift (ix1 r) k = ix2 r k := by
  funext a
  match a with
  | ⟨0, _⟩ => exact Fin.ext rfl
  | ⟨1, _⟩ => exact Fin.ext rfl

/-- THE TIME RECOMPUTE AT AN INDEX. -/
theorem lorOf_apply (y : FVec Ideal S512x256 .f32) (r : Fin 512) (o : Fin 256) :
    lorOf laneIdx y (ix4 (0 : Fin 1) (0 : Fin 1) r o) = lorentzMasked (fun o' => y (ix2 r o')) o := by
  unfold lorOf
  refine (shapeCast_apply _ _ (ix4 (0 : Fin 1) (0 : Fin 1) r o) (ix2 r o) ?_).trans ?_
  · rw [Shape.rowMajor_val_two, Shape.rowMajor_val_four]
    show r.val * 256 + o.val = ((0 * 1 + 0) * 512 + r.val) * 256 + o.val
    omega
  rw [select_apply]
  show Scalar.select (IntOp.cmpi .eq (laneIdx (ix2 r o)) 0#32) _ _ = _
  rw [laneIdx_apply, select_lane]
  unfold lorentzMasked
  by_cases ho : o.val = 0
  · rw [if_pos ho, if_pos ho]
    refine (broadcastTo_apply _ _ (ix2 r o) (ix2 r (0 : Fin 1)) ?_).trans ?_
    · intro a
      match a with
      | ⟨0, _⟩ => rfl
      | ⟨1, _⟩ => rfl
    rw [shapeCast_self]
    show Ideal.sqrt (shapeCast S512x1 _ shapeCasts_S512_S512x1 (ix2 r (0 : Fin 1)) + one) = _
    refine congrArg (fun s => Ideal.sqrt (s + one)) ?_
    refine (shapeCast_apply _ _ (ix2 r (0 : Fin 1)) (ix1 r) ?_).trans ?_
    · rw [Shape.rowMajor_val_one, Shape.rowMajor_val_two]
      show r.val = r.val * 1 + 0
      omega
    refine (Ideal.multiReduction_add_single _ 0x00000000#32 reduces_S512x256_S512 (.inl rfl) rfl (ix1 r)).trans ?_
    show ∑ k : Fin 256, mulf _ _ (reduces_S512x256_S512.lift (ix1 r) k) = _
    refine Finset.sum_congr rfl (fun k _ => ?_)
    rw [lift_lane, mulf_apply, masked_apply]
  · rw [if_neg ho, if_neg ho]

/-- Where a matrix product reads its left operand: row r, contracted coordinate q. -/
theorem lhsIdx_eq (r : Fin 512) (o : Fin 256) (k : dot_S512x640_S640x256_S512x256_1_0_0_1_n_n.contr.Idx) :
    dot_S512x640_S640x256_S512x256_1_0_0_1_n_n.lhsIdx (ix2 r o) k
      = ix2 r (⟨(k ⟨0, Nat.one_pos⟩).val, (k ⟨0, Nat.one_pos⟩).isLt⟩ : Fin 640) := by
  funext a
  match a with
  | ⟨0, _⟩ => exact Fin.ext rfl
  | ⟨1, _⟩ => exact Fin.ext (DotDims.lhsIdx_val_of_single dot_S512x640_S640x256_S512x256_1_0_0_1_n_n (cl := 1) rfl (ix2 r o) k)

/-- Where it reads its right operand: contracted coordinate q, column o. -/
theorem rhsIdx_eq (r : Fin 512) (o : Fin 256) (k : dot_S512x640_S640x256_S512x256_1_0_0_1_n_n.contr.Idx) :
    dot_S512x640_S640x256_S512x256_1_0_0_1_n_n.rhsIdx (ix2 r o) k
      = ix2 (⟨(k ⟨0, Nat.one_pos⟩).val, (k ⟨0, Nat.one_pos⟩).isLt⟩ : Fin 640) o := by
  funext a
  match a with
  | ⟨0, _⟩ => exact Fin.ext (DotDims.rhsIdx_val_of_single dot_S512x640_S640x256_S512x256_1_0_0_1_n_n (cr := 0) rfl (ix2 r o) k)
  | ⟨1, _⟩ => exact Fin.ext rfl

/-- THE LINEAR LAYER AT AN INDEX: the row against the weight column, plus the bias entry. -/
theorem linOf_apply (x : FVec Ideal S1x512x640 .bf16) (w : FVec Ideal S640x256 .bf16) (bias : FVec Ideal S1x256 .f32)
    (r : Fin 512) (o : Fin 256) :
    linOf x w bias (ix2 r o) = (∑ q : Fin 640, x (ix3 (0 : Fin 1) r q) * w (ix2 q o)) + bias (ix2 (0 : Fin 1) o) := by
  unfold linOf
  rw [addf_apply]
  refine congrArg₂ (· + ·) ?_ ?_
  · refine (Ideal.matmul_constant_zero_apply dot_S512x640_S640x256_S512x256_1_0_0_1_n_n none _ w (ix2 r o)).trans ?_
    rw [← Equiv.sum_comp (contrEquiv1 dot_S512x640_S640x256_S512x256_1_0_0_1_n_n 640 rfl rfl).symm]
    refine Finset.sum_congr rfl (fun q _ => ?_)
    rw [lhsIdx_eq, rhsIdx_eq]
    have hq : (⟨(((contrEquiv1 dot_S512x640_S640x256_S512x256_1_0_0_1_n_n 640 rfl rfl).symm q) ⟨0, Nat.one_pos⟩).val,
        (((contrEquiv1 dot_S512x640_S640x256_S512x256_1_0_0_1_n_n 640 rfl rfl).symm q) ⟨0, Nat.one_pos⟩).isLt⟩ : Fin 640) = q :=
      Fin.ext (contrEquiv1_symm_val dot_S512x640_S640x256_S512x256_1_0_0_1_n_n 640 rfl rfl q)
    rw [hq]
    refine congrArg (· * w (ix2 q o)) ?_
    refine shapeCast_apply x _ (ix2 r q) (ix3 (0 : Fin 1) r q) ?_
    rw [Shape.rowMajor_val_two, Shape.rowMajor_val_three]
    show (0 * 512 + r.val) * 640 + q.val = r.val * 640 + q.val
    omega
  · refine broadcastTo_apply bias _ (ix2 r o) (ix2 (0 : Fin 1) o) ?_
    intro a
    match a with
    | ⟨0, _⟩ => rfl
    | ⟨1, _⟩ => rfl

end Cert.KernelIdeal.KerValue

end
-- ==== Proof.KerPayload.lean ====
/-
  The kernel body's output block read at an index.

  The body's four stores write the four batch slabs of the 4 × 1 × 512 × 256 output block; the slabs tile the block, so
  the block afterwards is one function of its index: at (bi, 0, r, o) the time-recomputed linear layer of row r of
  batch entry bi of the patch-row block, against the whole weight slab and bias row.  Each slab's payload is that
  function on its slab: the loads through the batch rectangles read batch entry bi, the loads through the whole
  rectangles read the slab and the row as they are, and the two shape casts only drop a unit axis.
-/
import proofs.«153807_j19121194401875_2_alg».proof.Proof.KerFrame
import proofs.«153807_j19121194401875_2_alg».proof.Proof.KerBody
import Idealize.ShloMosaic.Lib.ValueLayout

noncomputable section

namespace Cert.KernelIdeal.KerValue

open Idealize.ShloMosaic Idealize.ShloMosaic.ValueIdx Cert.KernelIdeal Cert.KernelIdeal.Gen

namespace Payload

/-! ## The loads -/

theorem zeros3 : (![0, 0, 0] : Fin 3 → Nat) = fun _ => 0 := by
  funext a
  match a with
  | ⟨0, _⟩ => rfl
  | ⟨1, _⟩ => rfl
  | ⟨2, _⟩ => rfl

theorem zeros2 : (![0, 0] : Fin 2 → Nat) = fun _ => 0 := by
  funext a
  match a with
  | ⟨0, _⟩ => rfl
  | ⟨1, _⟩ => rfl

/-- The weight slab as the body uses it: entry (q, o) of the 640 × 256 matrix is entry (0, q, o) of the block. -/
theorem wslab_apply (x1 : Vec Ideal S1x640x256 .bf16) (q : Fin 640) (o : Fin 256) :
    k0_pay3 (View.ld x1 Hand.rW) (ix2 q o) = x1 (ix3 (0 : Fin 1) q o) := by
  show shapeCast S640x256 (View.ld x1 Hand.rW) shapeCasts_S1x640x256_S640x256 (ix2 q o) = _
  rw [View.ld_unit_zero zeros3]
  exact shapeCast_1ab_ab_apply x1 _ q o

/-- The bias row as the body uses it is the block. -/
theorem brow_eq (x2 : Vec Ideal S1x256 .f32) : k0_pay4 (View.ld x2 Hand.rB) = x2 := by
  show shapeCast S1x256 (View.ld x2 Hand.rB) shapeCasts_S1x256_S1x256 = _
  rw [View.ld_unit_zero zeros2]
  exact shapeCast_self x2 _

/-- A load through the rectangle of batch entry bi reads that entry. -/
theorem ldX_apply (n : Nat) (bi : Fin 4) (hn : n = bi.val)
    (inb : ∀ a, (![n, 0, 0] : Fin 3 → Nat) a + S1x512x640.size a ≤ S4x512x640.size a)
    (x0 : Vec Ideal S4x512x640 .bf16) (r : Fin 512) (q : Fin 640) :
    View.ld x0 (Rect.unit (s := S4x512x640) ![n, 0, 0] S1x512x640.size inb) (ix3 (0 : Fin 1) r q) = x0 (ix3 bi r q) := by
  subst hn
  show x0 _ = x0 _
  refine congrArg x0 (funext fun a => Fin.ext ?_)
  match a with
  | ⟨0, _⟩ =>
    show bi.val + 1 * 0 = bi.val
    omega
  | ⟨1, _⟩ =>
    show 0 + 1 * r.val = r.val
    omega
  | ⟨2, _⟩ =>
    show 0 + 1 * q.val = q.val
    omega

/-- The slab of batch entry bi sits at (bi, 0, r, o) of the output block. -/
theorem embO_apply (n : Nat) (bi : Fin 4) (hn : n = bi.val)
    (inb : ∀ a, (![n, 0, 0, 0] : Fin 4 → Nat) a + S1x1x512x256.size a ≤ S4x1x512x256.size a) (r : Fin 512) (o : Fin 256) :
    (Rect.unit (s := S4x1x512x256) ![n, 0, 0, 0] S1x1x512x256.size inb).emb (ix4 (0 : Fin 1) (0 : Fin 1) r o)
      = ix4 bi (0 : Fin 1) r o := by
  subst hn
  refine funext fun a => Fin.ext ?_
  match a with
  | ⟨0, _⟩ =>
    show bi.val + 1 * 0 = bi.val
    omega
  | ⟨1, _⟩ => rfl
  | ⟨2, _⟩ =>
    show 0 + 1 * r.val = r.val
    omega
  | ⟨3, _⟩ =>
    show 0 + 1 * o.val = o.val
    omega

/-! ## The block as one function of its index -/

/-- What the output block holds at an index: the time-recomputed linear layer of the patch row the index names. -/
def blockFn (x0 : Vec Ideal S4x512x640 .bf16) (x1 : Vec Ideal S1x640x256 .bf16) (x2 : Vec Ideal S1x256 .f32) :
    S4x1x512x256.Idx → EReal :=
  fun y => Lorentz.lorentzMasked
    (fun o' => (∑ q : Fin 640, x0 (ix3 (y 0) (y 2) q) * x1 (ix3 (0 : Fin 1) q o')) + x2 (ix2 (0 : Fin 1) o')) (y 3)

/-- One slab's payload, the two halves of the body on batch entry bi, is the block's function on that slab. -/
theorem piece_apply (n : Nat) (bi : Fin 4) (hn : n = bi.val)
    (inbX : ∀ a, (![n, 0, 0] : Fin 3 → Nat) a + S1x512x640.size a ≤ S4x512x640.size a)
    (inbO : ∀ a, (![n, 0, 0, 0] : Fin 4 → Nat) a + S1x1x512x256.size a ≤ S4x1x512x256.size a)
    (x0 : Vec Ideal S4x512x640 .bf16) (x1 : Vec Ideal S1x640x256 .bf16) (x2 : Vec Ideal S1x256 .f32)
    (x : S1x1x512x256.Idx) :
    lorOf laneIdx (linOf (View.ld x0 (Rect.unit (s := S4x512x640) ![n, 0, 0] S1x512x640.size inbX))
        (k0_pay3 (View.ld x1 Hand.rW)) (k0_pay4 (View.ld x2 Hand.rB))) x
      = blockFn x0 x1 x2 ((Rect.unit (s := S4x1x512x256) ![n, 0, 0, 0] S1x1x512x256.size inbO).emb x) := by
  obtain ⟨u, v, r, o, rfl⟩ : ∃ (u v : Fin 1) (r : Fin 512) (o : Fin 256), x = ix4 u v r o :=
    ⟨x 0, x 1, x 2, x 3, eq_ix4 x⟩
  obtain rfl : u = 0 := Subsingleton.elim _ _
  obtain rfl : v = 0 := Subsingleton.elim _ _
  rw [embO_apply n bi hn inbO r o, lorOf_apply]
  unfold blockFn
  refine congrArg (fun y => Lorentz.lorentzMasked y o) (funext fun o' => ?_)
  rw [linOf_apply, brow_eq]
  refine congrArg (· + x2 (ix2 (0 : Fin 1) o')) (Finset.sum_congr rfl fun q _ => ?_)
  rw [ldX_apply n bi hn inbX x0 r q, wslab_apply]

end Payload

open Payload

/-! ## The output block at an index -/

/-- THE BODY AT AN INDEX: entry (bi, 0, r, o) of the output block after the body. -/
theorem out0_3_apply (x0 : Vec Ideal S4x512x640 .bf16) (x1 : Vec Ideal S1x640x256 .bf16) (x2 : Vec Ideal S1x256 .f32)
    (bi : Fin 4) (r : Fin 512) (o : Fin 256) :
    Cert.KernelIdeal.Hand.out0_3 x0 x1 x2 (ix4 bi (0 : Fin 1) r o)
      = Cert.Lorentz.lorentzMasked
          (fun o' => (∑ q : Fin 640, x0 (ix3 bi r q) * x1 (ix3 (0 : Fin 1) q o')) + x2 (ix2 (0 : Fin 1) o')) o := by
  unfold Hand.out0_3
  refine (View.canon_apply_of_pieces (blockFn x0 x1 x2) _ ?_ _ (Hand.cover0_3 _ _ _ _ _)).trans rfl
  intro p hp
  simp only [List.mem_cons, List.mem_nil_iff, or_false] at hp
  rcases hp with rfl | rfl | rfl | rfl
  · intro x
    show k0_pay2 (k0_pay3 (View.ld x1 Hand.rW)) (k0_pay4 (View.ld x2 Hand.rB)) Hand.lanes (View.ld x0 Hand.rX3) x = _
    rw [pay2_eq]
    exact piece_apply 3 3 rfl inb_S4x512x640_S1x512x640_3_0_0 inb_S4x1x512x256_S1x1x512x256_3_0_0_0 x0 x1 x2 x
  · intro x
    show k0_pay1 (k0_pay9 (k0_pay3 (View.ld x1 Hand.rW)) (k0_pay4 (View.ld x2 Hand.rB)) Hand.lanes (View.ld x0 Hand.rX2)) x = _
    rw [pay1_eq]
    exact piece_apply 2 2 rfl inb_S4x512x640_S1x512x640_2_0_0 inb_S4x1x512x256_S1x1x512x256_2_0_0_0 x0 x1 x2 x
  · intro x
    show k0_pay8 Hand.lanes (k0_pay6 (View.ld x1 Hand.rW) (View.ld x2 Hand.rB) (View.ld x0 Hand.rX1)) k0_pay7 x = _
    rw [pay8_eq]
    exact piece_apply 1 1 rfl inb_S4x512x640_S1x512x640_1_0_0 inb_S4x1x512x256_S1x1x512x256_1_0_0_0 x0 x1 x2 x
  · intro x
    show k0_pay5 (View.ld x1 Hand.rW) (View.ld x2 Hand.rB) (View.ld x0 Hand.rX0) x = _
    rw [pay5_eq]
    exact piece_apply 0 0 rfl inb_S4x512x640_S1x512x640_0_0_0 inb_S4x1x512x256_S1x1x512x256_0_0_0_0 x0 x1 x2 x

end Cert.KernelIdeal.KerValue

end
-- ==== Proof.KerHost.lean ====
/-
  The kernel's first and third operands as the launch finds them.

  The host operations before the launch run in seven stretches.  The contents of a buffer after all of them are
  computed stretch by stretch from ANY starting contents: a stretch changes only the buffers its operations write,
  and what it writes is its operations' functions applied to what it found.  The first operand is written in the
  third stretch (the zero padding is the second stretch, the channel-major reshape the first) and kept by the
  later ones; the bias row is written in the last stretch from the bias argument, which no stretch writes.
  The long third stretch is cut at its two concatenations, whose operands are a family of buffers: each cut
  names the contents found so far, so that every operand is read at its own buffer.
-/
import proofs.«153807_j19121194401875_2_alg».proof.Proof.KerV
import proofs.«153807_j19121194401875_2_alg».proof.Proof.KerStages
import Idealize.ShloMosaic.Lib.StableHlo.Run

set_option maxRecDepth 16384

noncomputable section

namespace Cert.KernelIdeal.KerValue

open Idealize.ShloMosaic Idealize.ShloMosaic.TcCoe Idealize.ShloMosaic.StableHlo Idealize.SL.Sem Cert.KernelIdeal Cert.KernelIdeal.Gen Cert.KernelIdeal.Hand

/-! ## The third stretch, cut at its two concatenations -/

section Cut
variable {F : FTy → Type} [FloatOps F]

/-- The nine shifted windows of the padded input, each given its unit axis. -/
abbrev opsA : List (HloOp τ sig (Elt F)) :=
  [ StableHlo.unary main_v1 main_v2 ((extractStridedSlice S4x65x64x64 ![0, 0, 0, 0] · slices_S4x65x66x66_S4x65x64x64_0_0_0_0) : (⟨S4x65x66x66, .f32⟩ : BufTy).Contents (Elt F) → (⟨S4x65x64x64, .f32⟩ : BufTy).Contents (Elt F)),
    StableHlo.unary main_v1 main_v3 ((extractStridedSlice S4x65x64x64 ![0, 0, 0, 1] · slices_S4x65x66x66_S4x65x64x64_0_0_0_1) : (⟨S4x65x66x66, .f32⟩ : BufTy).Contents (Elt F) → (⟨S4x65x64x64, .f32⟩ : BufTy).Contents (Elt F)),
    StableHlo.unary main_v1 main_v4 ((extractStridedSlice S4x65x64x64 ![0, 0, 0, 2] · slices_S4x65x66x66_S4x65x64x64_0_0_0_2) : (⟨S4x65x66x66, .f32⟩ : BufTy).Contents (Elt F) → (⟨S4x65x64x64, .f32⟩ : BufTy).Contents (Elt F)),
    StableHlo.unary main_v1 main_v5 ((extractStridedSlice S4x65x64x64 ![0, 0, 1, 0] · slices_S4x65x66x66_S4x65x64x64_0_0_1_0) : (⟨S4x65x66x66, .f32⟩ : BufTy).Contents (Elt F) → (⟨S4x65x64x64, .f32⟩ : BufTy).Contents (Elt F)),
    StableHlo.unary main_v1 main_v6 ((extractStridedSlice S4x65x64x64 ![0, 0, 1, 1] · slices_S4x65x66x66_S4x65x64x64_0_0_1_1) : (⟨S4x65x66x66, .f32⟩ : BufTy).Contents (Elt F) → (⟨S4x65x64x64, .f32⟩ : BufTy).Contents (Elt F)),
    StableHlo.unary main_v1 main_v7 ((extractStridedSlice S4x65x64x64 ![0, 0, 1, 2] · slices_S4x65x66x66_S4x65x64x64_0_0_1_2) : (⟨S4x65x66x66, .f32⟩ : BufTy).Contents (Elt F) → (⟨S4x65x64x64, .f32⟩ : BufTy).Contents (Elt F)),
    StableHlo.unary main_v1 main_v8 ((extractStridedSlice S4x65x64x64 ![0, 0, 2, 0] · slices_S4x65x66x66_S4x65x64x64_0_0_2_0) : (⟨S4x65x66x66, .f32⟩ : BufTy).Contents (Elt F) → (⟨S4x65x64x64, .f32⟩ : BufTy).Contents (Elt F)),
    StableHlo.unary main_v1 main_v9 ((extractStridedSlice S4x65x64x64 ![0, 0, 2, 1] · slices_S4x65x66x66_S4x65x64x64_0_0_2_1) : (⟨S4x65x66x66, .f32⟩ : BufTy).Contents (Elt F) → (⟨S4x65x64x64, .f32⟩ : BufTy).Contents (Elt F)),
    StableHlo.unary main_v1 main_v10 ((extractStridedSlice S4x65x64x64 ![0, 0, 2, 2] · slices_S4x65x66x66_S4x65x64x64_0_0_2_2) : (⟨S4x65x66x66, .f32⟩ : BufTy).Contents (Elt F) → (⟨S4x65x64x64, .f32⟩ : BufTy).Contents (Elt F)),
    StableHlo.unary main_v2 main_v11 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    StableHlo.unary main_v3 main_v12 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    StableHlo.unary main_v4 main_v13 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    StableHlo.unary main_v5 main_v14 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    StableHlo.unary main_v6 main_v15 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    StableHlo.unary main_v7 main_v16 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    StableHlo.unary main_v8 main_v17 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    StableHlo.unary main_v9 main_v18 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    StableHlo.unary main_v10 main_v19 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)) ]

/-- The windows stacked. -/
abbrev opStack : HloOp τ sig (Elt F) :=
  StableHlo.nary ![main_v11, main_v12, main_v13, main_v14, main_v15, main_v16, main_v17, main_v18, main_v19] main_v20 (fun u => concatenate S4x65x9x64x64 2 [⟨S4x65x1x64x64, u 0⟩, ⟨S4x65x1x64x64, u 1⟩, ⟨S4x65x1x64x64, u 2⟩, ⟨S4x65x1x64x64, u 3⟩, ⟨S4x65x1x64x64, u 4⟩, ⟨S4x65x1x64x64, u 5⟩, ⟨S4x65x1x64x64, u 6⟩, ⟨S4x65x1x64x64, u 7⟩, ⟨S4x65x1x64x64, u 8⟩] concatenates_S4x65x1x64x64_S4x65x1x64x64_S4x65x1x64x64_S4x65x1x64x64_S4x65x1x64x64_S4x65x1x64x64_S4x65x1x64x64_S4x65x1x64x64_S4x65x1x64x64_S4x65x9x64x64_d2)

/-- From the stack to the three pieces of the first operand. -/
abbrev opsB : List (HloOp τ sig (Elt F)) :=
  [ StableHlo.reshape main_v20 main_v21 rfl shapeCasts_S4x65x9x64x64_S4x585x4096,
    StableHlo.unary main_v21 main_v22 ((transpose S4x4096x585 [0, 2, 1] · transposes_S4x585x4096_S4x4096x585_0_2_1) : (⟨S4x585x4096, .f32⟩ : BufTy).Contents (Elt F) → (⟨S4x4096x585, .f32⟩ : BufTy).Contents (Elt F)),
    StableHlo.reshape main_v22 main_v23 rfl shapeCasts_S4x4096x585_S4x4096x65x9,
    StableHlo.unary main_v23 main_v24 ((extractStridedSlice S4x4096x1x9 ![0, 0, 0, 0] · slices_S4x4096x65x9_S4x4096x1x9_0_0_0_0) : (⟨S4x4096x65x9, .f32⟩ : BufTy).Contents (Elt F) → (⟨S4x4096x1x9, .f32⟩ : BufTy).Contents (Elt F)),
    StableHlo.reshape main_v24 main_v25 rfl shapeCasts_S4x4096x1x9_S4x4096x9,
    StableHlo.nullary main_cst (constant S_ .f32 0x3F800000#32),
    StableHlo.unary main_cst main_v26 (broadcastInDim S4x4096x9 ![] bcast_S_S4x4096x9 : (⟨S_, .f32⟩ : BufTy).Contents (Elt F) → (⟨S4x4096x9, .f32⟩ : BufTy).Contents (Elt F)),
    StableHlo.binary main_v25 main_v26 main_v27 (maximumf : (⟨S4x4096x9, .f32⟩ : BufTy).Contents (Elt F) → (⟨S4x4096x9, .f32⟩ : BufTy).Contents (Elt F) → (⟨S4x4096x9, .f32⟩ : BufTy).Contents (Elt F)),
    StableHlo.binary main_v27 main_v27 main_v28 (mulf : (⟨S4x4096x9, .f32⟩ : BufTy).Contents (Elt F) → (⟨S4x4096x9, .f32⟩ : BufTy).Contents (Elt F) → (⟨S4x4096x9, .f32⟩ : BufTy).Contents (Elt F)),
    StableHlo.nullary main_cst_1 (constant S_ .f32 0x00000000#32),
    StableHlo.binary main_v28 main_cst_1 main_v29 ((fun x v => Host.reduceAdd x v reducesTo_S4x4096x9_S4x4096_d2 h_S_) : (⟨S4x4096x9, .f32⟩ : BufTy).Contents (Elt F) → (⟨S_, .f32⟩ : BufTy).Contents (Elt F) → (⟨S4x4096, .f32⟩ : BufTy).Contents (Elt F)),
    StableHlo.unary main_v29 main_v30 (broadcastInDim S4x4096x1 ![0, 1] bcast_S4x4096_S4x4096x1_0_1 : (⟨S4x4096, .f32⟩ : BufTy).Contents (Elt F) → (⟨S4x4096x1, .f32⟩ : BufTy).Contents (Elt F)),
    StableHlo.nullary main_cst_2 (constant S_ .f32 0x41000000#32),
    StableHlo.unary main_cst_2 main_v31 (broadcastInDim S4x4096x1 ![] bcast_S_S4x4096x1 : (⟨S_, .f32⟩ : BufTy).Contents (Elt F) → (⟨S4x4096x1, .f32⟩ : BufTy).Contents (Elt F)),
    StableHlo.binary main_v30 main_v31 main_v32 (subf : (⟨S4x4096x1, .f32⟩ : BufTy).Contents (Elt F) → (⟨S4x4096x1, .f32⟩ : BufTy).Contents (Elt F) → (⟨S4x4096x1, .f32⟩ : BufTy).Contents (Elt F)),
    StableHlo.unary main_v32 main_v33 (Host.sqrt : (⟨S4x4096x1, .f32⟩ : BufTy).Contents (Elt F) → (⟨S4x4096x1, .f32⟩ : BufTy).Contents (Elt F)),
    StableHlo.unary main_v23 main_v34 ((extractStridedSlice S4x4096x64x9 ![0, 0, 1, 0] · slices_S4x4096x65x9_S4x4096x64x9_0_0_1_0) : (⟨S4x4096x65x9, .f32⟩ : BufTy).Contents (Elt F) → (⟨S4x4096x64x9, .f32⟩ : BufTy).Contents (Elt F)),
    StableHlo.unary main_v34 main_v35 ((transpose S4x4096x9x64 [0, 1, 3, 2] · transposes_S4x4096x64x9_S4x4096x9x64_0_1_3_2) : (⟨S4x4096x64x9, .f32⟩ : BufTy).Contents (Elt F) → (⟨S4x4096x9x64, .f32⟩ : BufTy).Contents (Elt F)),
    StableHlo.reshape main_v35 main_v36 rfl shapeCasts_S4x4096x9x64_S4x4096x576,
    StableHlo.nullary main_cst_3 (constant S_ .bf16 0x0000#16),
    StableHlo.unary main_cst_3 main_v37 (broadcastInDim S4x4096x63 ![] bcast_S_S4x4096x63 : (⟨S_, .bf16⟩ : BufTy).Contents (Elt F) → (⟨S4x4096x63, .bf16⟩ : BufTy).Contents (Elt F)),
    StableHlo.unary main_v33 main_v38 ((truncf .bf16 · bitsLt_bf16_f32) : (⟨S4x4096x1, .f32⟩ : BufTy).Contents (Elt F) → (⟨S4x4096x1, .bf16⟩ : BufTy).Contents (Elt F)),
    StableHlo.unary main_v36 main_v39 ((truncf .bf16 · bitsLt_bf16_f32) : (⟨S4x4096x576, .f32⟩ : BufTy).Contents (Elt F) → (⟨S4x4096x576, .bf16⟩ : BufTy).Contents (Elt F)) ]

/-- The three pieces joined. -/
abbrev opFeat : HloOp τ sig (Elt F) :=
  StableHlo.nary ![main_v38, main_v39, main_v37] main_v40 (fun u => concatenate S4x4096x640 2 [⟨S4x4096x1, u 0⟩, ⟨S4x4096x576, u 1⟩, ⟨S4x4096x63, u 2⟩] concatenates_S4x4096x1_S4x4096x576_S4x4096x63_S4x4096x640_d2)

/-- The weight matrix transposed (the stretch's last operation). -/
abbrev opsC : List (HloOp τ sig (Elt F)) :=
  [ StableHlo.unary main_arg1 main_v41 ((transpose S577x256 [1, 0] · transposes_S256x577_S577x256_1_0) : (⟨S256x577, .f32⟩ : BufTy).Contents (Elt F) → (⟨S577x256, .f32⟩ : BufTy).Contents (Elt F)) ]

theorem hostOps0_2_cut : (hostOps0_2 : List (HloOp τ sig (Elt F))) = opsA ++ (opStack :: (opsB ++ (opFeat :: opsC))) := rfl

end Cut

/-- The patches from the stacked windows. -/
def patchesOfStack (s : FVec Ideal S4x65x9x64x64 .f32) : FVec Ideal S4x4096x585 .f32 :=
  transpose S4x4096x585 [0, 2, 1] (shapeCast S4x585x4096 s shapeCasts_S4x65x9x64x64_S4x585x4096)
    transposes_S4x585x4096_S4x4096x585_0_2_1

theorem patches_eq (x : FVec Ideal S4x64x64x65 .f32) : patches x = patchesOfStack (stacked (padded x)) := rfl

section Stretches
variable (W : Valuation τ sig (Elt Ideal))

/-- A reference no operation of a line writes keeps its contents. -/
theorem keep_of (ops : List (HloOp τ sig (Elt Ideal))) (r : Ref sig .tc)
    (h : ops.Forall fun op => Proc.devRef (τ := τ) .tc r ∉ op.writes) :
    after ops W (Proc.devRef .tc r) = W (Proc.devRef .tc r) :=
  after_of_forall_not_mem ops W (List.forall_iff_forall_mem.mp h)

theorem s0_v0 : after hostOps0 W (Proc.devRef .tc main_v0)
    = shapeCast S4x65x64x64 (W (Proc.devRef .tc main_arg0)) shapeCasts_S4x64x64x65_S4x65x64x64 := by
  simp only [hostOps0]; after_results_simp; rfl

theorem s0_c0 : after hostOps0 W (Proc.devRef .tc main_c_0) = constantI S_ 32 0#32 := by
  simp only [hostOps0]; after_results_simp

theorem s1_v1 : after hostOps0_1 W (Proc.devRef .tc main_v1)
    = pad S4x65x66x66 ![0, 0, 1, 1] ![0, 0, 1, 1] ![0, 0, 0, 0] (W (Proc.devRef .tc main_v0))
        (sitofp (F := Ideal) .f32 (W (Proc.devRef .tc main_c_0))) pads_S4x65x64x64_S4x65x66x66_000_000_110_110 h_S_ := by
  simp only [hostOps0_1]; after_results_simp; rfl

theorem opsA_v11 : after (opsA (F := Ideal)) W (Proc.devRef .tc main_v11)
    = window (W (Proc.devRef .tc main_v1)) ![0, 0, 0, 0] slices_S4x65x66x66_S4x65x64x64_0_0_0_0 := by
  simp only [opsA]; after_results_simp; rfl
theorem opsA_v12 : after (opsA (F := Ideal)) W (Proc.devRef .tc main_v12)
    = window (W (Proc.devRef .tc main_v1)) ![0, 0, 0, 1] slices_S4x65x66x66_S4x65x64x64_0_0_0_1 := by
  simp only [opsA]; after_results_simp; rfl
theorem opsA_v13 : after (opsA (F := Ideal)) W (Proc.devRef .tc main_v13)
    = window (W (Proc.devRef .tc main_v1)) ![0, 0, 0, 2] slices_S4x65x66x66_S4x65x64x64_0_0_0_2 := by
  simp only [opsA]; after_results_simp; rfl
theorem opsA_v14 : after (opsA (F := Ideal)) W (Proc.devRef .tc main_v14)
    = window (W (Proc.devRef .tc main_v1)) ![0, 0, 1, 0] slices_S4x65x66x66_S4x65x64x64_0_0_1_0 := by
  simp only [opsA]; after_results_simp; rfl
theorem opsA_v15 : after (opsA (F := Ideal)) W (Proc.devRef .tc main_v15)
    = window (W (Proc.devRef .tc main_v1)) ![0, 0, 1, 1] slices_S4x65x66x66_S4x65x64x64_0_0_1_1 := by
  simp only [opsA]; after_results_simp; rfl
theorem opsA_v16 : after (opsA (F := Ideal)) W (Proc.devRef .tc main_v16)
    = window (W (Proc.devRef .tc main_v1)) ![0, 0, 1, 2] slices_S4x65x66x66_S4x65x64x64_0_0_1_2 := by
  simp only [opsA]; after_results_simp; rfl
theorem opsA_v17 : after (opsA (F := Ideal)) W (Proc.devRef .tc main_v17)
    = window (W (Proc.devRef .tc main_v1)) ![0, 0, 2, 0] slices_S4x65x66x66_S4x65x64x64_0_0_2_0 := by
  simp only [opsA]; after_results_simp; rfl
theorem opsA_v18 : after (opsA (F := Ideal)) W (Proc.devRef .tc main_v18)
    = window (W (Proc.devRef .tc main_v1)) ![0, 0, 2, 1] slices_S4x65x66x66_S4x65x64x64_0_0_2_1 := by
  simp only [opsA]; after_results_simp; rfl
theorem opsA_v19 : after (opsA (F := Ideal)) W (Proc.devRef .tc main_v19)
    = window (W (Proc.devRef .tc main_v1)) ![0, 0, 2, 2] slices_S4x65x66x66_S4x65x64x64_0_0_2_2 := by
  simp only [opsA]; after_results_simp; rfl

theorem opStack_result : (opStack (F := Ideal)).result W (Proc.devRef .tc main_v20)
    = concatenate S4x65x9x64x64 2
        [⟨S4x65x1x64x64, W (Proc.devRef .tc main_v11)⟩, ⟨S4x65x1x64x64, W (Proc.devRef .tc main_v12)⟩,
         ⟨S4x65x1x64x64, W (Proc.devRef .tc main_v13)⟩, ⟨S4x65x1x64x64, W (Proc.devRef .tc main_v14)⟩,
         ⟨S4x65x1x64x64, W (Proc.devRef .tc main_v15)⟩, ⟨S4x65x1x64x64, W (Proc.devRef .tc main_v16)⟩,
         ⟨S4x65x1x64x64, W (Proc.devRef .tc main_v17)⟩, ⟨S4x65x1x64x64, W (Proc.devRef .tc main_v18)⟩,
         ⟨S4x65x1x64x64, W (Proc.devRef .tc main_v19)⟩]
        concatenates_S4x65x1x64x64_S4x65x1x64x64_S4x65x1x64x64_S4x65x1x64x64_S4x65x1x64x64_S4x65x1x64x64_S4x65x1x64x64_S4x65x1x64x64_S4x65x1x64x64_S4x65x9x64x64_d2 :=
  nary_result _ _ _ _ _ W

theorem opsB_v38 : after (opsB (F := Ideal)) W (Proc.devRef .tc main_v38)
    = truncf .bf16 (timeCol (patchesOfStack (W (Proc.devRef .tc main_v20)))) bitsLt_bf16_f32 := by
  simp only [opsB]; after_results_simp; rfl

theorem opsB_v39 : after (opsB (F := Ideal)) W (Proc.devRef .tc main_v39)
    = truncf .bf16 (spaceCols (patchesOfStack (W (Proc.devRef .tc main_v20)))) bitsLt_bf16_f32 := by
  simp only [opsB]; after_results_simp; rfl

theorem opsB_v37 : after (opsB (F := Ideal)) W (Proc.devRef .tc main_v37)
    = broadcastInDim S4x4096x63 ![] bcast_S_S4x4096x63 (constant (F := Ideal) S_ .bf16 0x0000#16) := by
  simp only [opsB]; after_results_simp

theorem opFeat_result : (opFeat (F := Ideal)).result W (Proc.devRef .tc main_v40)
    = concatenate S4x4096x640 2
        [⟨S4x4096x1, W (Proc.devRef .tc main_v38)⟩, ⟨S4x4096x576, W (Proc.devRef .tc main_v39)⟩,
         ⟨S4x4096x63, W (Proc.devRef .tc main_v37)⟩]
        concatenates_S4x4096x1_S4x4096x576_S4x4096x63_S4x4096x640_d2 :=
  nary_result _ _ _ _ _ W

theorem opsC_v40 : after (opsC (F := Ideal)) W (Proc.devRef .tc main_v40) = W (Proc.devRef .tc main_v40) := by
  simp only [opsC]; after_results_simp

/-- The third stretch writes the first operand from the padded input it finds. -/
theorem s2_v40 : after hostOps0_2 W (Proc.devRef .tc main_v40)
    = pre0Of (patchesOfStack (stacked (W (Proc.devRef .tc main_v1)))) := by
  rw [hostOps0_2_cut, StableHlo.after_append, after_cons, StableHlo.after_append, after_cons, opsC_v40, opFeat_result,
    opsB_v38, opsB_v39, opsB_v37, opStack_result, opsA_v11, opsA_v12, opsA_v13, opsA_v14, opsA_v15, opsA_v16, opsA_v17,
    opsA_v18, opsA_v19]
  rfl

theorem s6_v45 : after hostOps0_6 W (Proc.devRef .tc main_v45)
    = shapeCast S1x256 (W (Proc.devRef .tc main_arg2)) shapeCasts_S256_S1x256 := by
  simp only [hostOps0_6]; after_results_simp; rfl

end Stretches

/-- Closes "no operation of this stretch writes this reference": each operation writes only its own result. -/
macro "not_written" : tactic =>
  `(tactic| (simp only [hostOps0, hostOps0_1, hostOps0_2, hostOps0_3, hostOps0_4, hostOps0_5, hostOps0_6, List.Forall,
               nullary_writes, unary_writes, binary_writes, ternary_writes, reshape_writes, nary_writes, Finset.mem_singleton]
             repeat' apply And.intro
             all_goals exact devRef_ne_of_ne (by decide)))

/-! ## The two operands as the launch finds them -/

variable (m : (ℓ : Loc nD τ sig) → Buf (Elt Ideal) ℓ)

/-- The first operand: the feature rows of the patches of the input image. -/
theorem V_main_v40 (c : Dev nD) : V m c main_v40 = pre0Of (patches (m ((c : Thread nD τ).loc main_arg0))) := by
  dsimp only [V, V0]
  simp only [List.flatten_cons, List.flatten_nil, List.append_nil, StableHlo.after_append]
  rw [keep_of _ hostOps0_6 main_v40 (by not_written), keep_of _ hostOps0_5 main_v40 (by not_written),
    keep_of _ hostOps0_4 main_v40 (by not_written), keep_of _ hostOps0_3 main_v40 (by not_written),
    s2_v40, s1_v1, s0_v0, s0_c0]
  rfl

/-- The third operand: the bias row. -/
theorem V_main_v45 (c : Dev nD) : V m c main_v45 = biasOf (m ((c : Thread nD τ).loc main_arg2)) := by
  dsimp only [V, V0]
  simp only [List.flatten_cons, List.flatten_nil, List.append_nil, StableHlo.after_append]
  rw [s6_v45, keep_of _ hostOps0_5 main_arg2 (by not_written), keep_of _ hostOps0_4 main_arg2 (by not_written),
    keep_of _ hostOps0_3 main_arg2 (by not_written), keep_of _ hostOps0_2 main_arg2 (by not_written),
    keep_of _ hostOps0_1 main_arg2 (by not_written), keep_of _ hostOps0 main_arg2 (by not_written)]
  rfl

end Cert.KernelIdeal.KerValue

end
-- ==== Proof.KerHostW.lean ====
/-
  The kernel's weight operand as the launch finds it.

  Of the host operations before the launch, the ones that write the weight operand's buffer and the buffers it is
  computed from are the transpose of the weight matrix, the indexed take of its rows with its bounds handling, the
  padding of the rows to 640, and the change of float format; every other operation writes some other buffer.
  Folding the operations over the started memory therefore leaves, in the weight operand's buffer, that chain applied
  to the weight matrix the program was started with.
-/
import proofs.«153807_j19121194401875_2_alg».proof.Proof.KerV
import proofs.«153807_j19121194401875_2_alg».proof.Proof.KerWeights
import Idealize.ShloMosaic.Lib.StableHlo.Run

set_option maxRecDepth 16384

noncomputable section

namespace Cert.KernelIdeal.KerValue

open Idealize.ShloMosaic Idealize.ShloMosaic.TcCoe Cert.KernelIdeal Cert.KernelIdeal.Gen

set_option maxHeartbeats 4000000 in
/-- The weight operand at the launch is the weight chain of the started weight matrix. -/
theorem V_main_v44 (m : (ℓ : Loc nD τ sig) → Buf (Elt Ideal) ℓ) (c : Dev nD) :
    Cert.KernelIdeal.Hand.V m c main_v44 = wAllOf (m ((c : Thread nD τ).loc main_arg1)) := by
  dsimp only [Hand.V, Hand.V0]
  simp only [hostOps0, hostOps0_1, hostOps0_2, hostOps0_3, hostOps0_4, hostOps0_5, hostOps0_6, List.flatten_cons,
    List.flatten_nil, List.append_nil, List.cons_append, List.nil_append]
  after_results_simp
  rfl

end Cert.KernelIdeal.KerValue

end
-- ==== Proof.KerResult.lean ====
/-
  From the blocks the grid points write back to the array the program returns.

  At grid point t = (pt, g) the body is given rows pt·512 … pt·512 + 511 of every batch entry of the feature array
  (640 features per row, the last 63 of them zero), the weight slab of rotation g (640 rows, the last 63 zero) and the
  bias row, and leaves in the output block, at (batch b, row r, column o), the Lorentz layer of feature row
  (b, pt·512 + r) against that slab.  Since both factors vanish past feature 577, the contraction over 640 is the
  contraction over the 577 features, which is the specification's linear layer with the weight columns permuted by g.
  So what point t writes back is block t of ONE function of the output array's index,
      Garr (b, g, p, o) = lorentzMasked (yK P W bias b g p) o,
  the 32 blocks tile the array (row p of rotation g belongs to the point with position block p / 512 and rotation g),
  hence the output array ends holding Garr; and the returned array is the output array with the position p = h·64 + w
  re-read as (h, w), which is the specification's OutK.
-/
import proofs.«153807_j19121194401875_2_alg».proof.Proof.KerFrame
import proofs.«153807_j19121194401875_2_alg».proof.Proof.KerPre
import proofs.«153807_j19121194401875_2_alg».proof.Proof.KerWeights
import proofs.«153807_j19121194401875_2_alg».proof.Proof.KerPayload
import proofs.«153807_j19121194401875_2_alg».proof.Proof.KerHost
import proofs.«153807_j19121194401875_2_alg».proof.Proof.KerHostW
import proofs.«153807_j19121194401875_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.KerValue.Result

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand Cert.KernelIdeal.KerValue Cert.Lorentz

variable (m : (ℓ : Loc nD τ sig) → Buf (Elt Ideal) ℓ)

/-- The patches, the weight matrix and the bias as plain functions of their indices. -/
abbrev Pof (c : Dev nD) : Fin 4 → Fin 4096 → Fin 585 → EReal := fun b p j => patches (m ((c : Thread nD τ).loc main_arg0)) (ix3 b p j)
abbrev Wof (c : Dev nD) : Fin 256 → Fin 577 → EReal := fun o f => m ((c : Thread nD τ).loc main_arg1) (ix2 o f)
abbrev Bof (c : Dev nD) : Fin 256 → EReal := fun o => m ((c : Thread nD τ).loc main_arg2) (ix1 o)

/-- What the launch's output array ends holding: at (batch b, rotation g, position p, column o) the Lorentz layer of
    patch row (b, p) against the weight columns permuted by g. -/
def Garr (c : Dev nD) : S4x4x4096x256.Idx → EReal := fun i =>
  lorentzMasked (yK (Pof m c) (Wof m c) (Bof m c) (i 0) (i 1) (i 2)) (i 3)

/-- The windows' block indices, decided once over the 32 grid points: the patch rows move with the output's position
    blocks, the weight slab with the output's rotation, the bias never moves; the output's batch and column blocks are
    the whole axes. -/
theorem idx_facts : ∀ t : Fin cfg0.N,
    win0_0.index t (0 : Fin 3) = 0 ∧ win0_0.index t (1 : Fin 3) = win0_3.index t (2 : Fin 4) ∧ win0_0.index t (2 : Fin 3) = 0
    ∧ win0_1.index t (0 : Fin 3) = win0_3.index t (1 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 4) = 0 ∧ win0_3.index t (3 : Fin 4) = 0
    ∧ win0_3.index t (1 : Fin 4) < 4 ∧ win0_3.index t (2 : Fin 4) < 8 :=
  (by decide +kernel : ∀ t : Fin grid0.N, _)

/-- Every (rotation, position block) pair is some grid point's. -/
theorem idx_onto : ∀ (g : Fin 4) (pt : Fin 8), ∃ t : Fin cfg0.N, win0_3.index t (1 : Fin 4) = g.val ∧ win0_3.index t (2 : Fin 4) = pt.val :=
  (by decide +kernel : ∀ (g : Fin 4) (pt : Fin 8), ∃ t : Fin grid0.N, win0_3.index t (1 : Fin 4) = g.val ∧ win0_3.index t (2 : Fin 4) = pt.val)

/-- The patch-row block at point `t`: entry (bi, r, q) is the feature array at (bi, pt·512 + r, q). -/
theorem blk0_apply (c : Dev nD) (t : Fin cfg0.N) (bi : Fin 4) (r : Fin 512) (q : Fin 640) (p : Fin 4096)
    (hp : p.val = win0_3.index t (2 : Fin 4) * 512 + r.val) :
    (iblk m c 0 t : Vec Ideal S4x512x640 .bf16) (ix3 bi r q) = pre0Of (patches (m ((c : Thread nD τ).loc main_arg0))) (ix3 bi p q) := by
  obtain ⟨e0, e1, e2, -⟩ := idx_facts t
  unfold iblk
  rw [View.read_apply]
  show V m c main_v40 _ = _
  rw [V_main_v40]
  congr 1
  funext a
  apply Fin.ext
  match a with
  | ⟨0, _⟩ => show win0_0.index t (0 : Fin 3) * 4 + 1 * bi.val = bi.val; rw [e0]; omega
  | ⟨1, _⟩ => show win0_0.index t (1 : Fin 3) * 512 + 1 * r.val = p.val; rw [e1, hp]; omega
  | ⟨2, _⟩ => show win0_0.index t (2 : Fin 3) * 640 + 1 * q.val = q.val; rw [e2]; omega

/-- The weight slab at point `t`: entry (0, q, o) is the weight operand at (g, q, o). -/
theorem blk1_apply (c : Dev nD) (t : Fin cfg0.N) (q : Fin 640) (o : Fin 256) (g : Fin 4)
    (hg : g.val = win0_3.index t (1 : Fin 4)) :
    (iblk m c 1 t : Vec Ideal S1x640x256 .bf16) (ix3 (0 : Fin 1) q o) = wAllOf (m ((c : Thread nD τ).loc main_arg1)) (ix3 g q o) := by
  obtain ⟨-, -, -, e3, e4, e5, -⟩ := idx_facts t
  unfold iblk
  rw [View.read_apply]
  show V m c main_v44 _ = _
  rw [V_main_v44]
  congr 1
  funext a
  apply Fin.ext
  match a with
  | ⟨0, _⟩ => show win0_1.index t (0 : Fin 3) * 1 + 1 * (0 : Fin 1).val = g.val; rw [e3, hg]; simp
  | ⟨1, _⟩ => show win0_1.index t (1 : Fin 3) * 640 + 1 * q.val = q.val; rw [e4]; omega
  | ⟨2, _⟩ => show win0_1.index t (2 : Fin 3) * 256 + 1 * o.val = o.val; rw [e5]; omega

/-- The bias row at any point is the bias row. -/
theorem blk2_apply (c : Dev nD) (t : Fin cfg0.N) (o : Fin 256) :
    (iblk m c 2 t : Vec Ideal S1x256 .f32) (ix2 (0 : Fin 1) o) = biasOf (m ((c : Thread nD τ).loc main_arg2)) (ix2 (0 : Fin 1) o) := by
  obtain ⟨-, -, -, -, -, -, e6, e7, -⟩ := idx_facts t
  unfold iblk
  rw [View.read_apply]
  show V m c main_v45 _ = _
  rw [V_main_v45]
  congr 1
  funext a
  apply Fin.ext
  match a with
  | ⟨0, _⟩ => show win0_2.index t (0 : Fin 2) * 1 + 1 * (0 : Fin 1).val = (0 : Fin 1).val; rw [e6]; simp
  | ⟨1, _⟩ => show win0_2.index t (1 : Fin 2) * 256 + 1 * o.val = o.val; rw [e7]; omega

/-- Where an entry of the output block at point `t` sits in the output array. -/
theorem blk3_emb (t : Fin cfg0.N) (bi : Fin 4) (r : Fin 512) (o : Fin 256) (g : Fin 4) (p : Fin 4096)
    (hg : g.val = win0_3.index t (1 : Fin 4)) (hp : p.val = win0_3.index t (2 : Fin 4) * 512 + r.val) :
    ((cfg0.win 3).blk t).view.emb (ix4 bi (0 : Fin 1) r o : S4x1x512x256.Idx) = (ix4 bi g p o : S4x4x4096x256.Idx) := by
  obtain ⟨-, -, -, -, -, -, -, -, e8, e9, -⟩ := idx_facts t
  funext a
  apply Fin.ext
  match a with
  | ⟨0, _⟩ => show win0_3.index t (0 : Fin 4) * 4 + 1 * bi.val = bi.val; rw [e8]; omega
  | ⟨1, _⟩ => show win0_3.index t (1 : Fin 4) * 1 + 1 * (0 : Fin 1).val = g.val; rw [hg]; simp
  | ⟨2, _⟩ => show win0_3.index t (2 : Fin 4) * 512 + 1 * r.val = p.val; rw [hp]; omega
  | ⟨3, _⟩ => show win0_3.index t (3 : Fin 4) * 256 + 1 * o.val = o.val; rw [e9]; omega

/-- The padded contraction is the contraction over the 577 features: past 577 both factors vanish. -/
theorem linear_eq (P : Fin 4 → Fin 4096 → Fin 585 → EReal) (W : Fin 256 → Fin 577 → EReal) (B : Fin 256 → EReal)
    (x0 : Vec Ideal S4x512x640 .bf16) (x1 : Vec Ideal S1x640x256 .bf16) (x2 : Vec Ideal S1x256 .f32)
    (bi : Fin 4) (r : Fin 512) (g : Fin 4) (p : Fin 4096) (o' : Fin 256)
    (h0 : ∀ q : Fin 640, x0 (ix3 bi r q) = if h : q.val < 577 then featK P bi p ⟨q.val, h⟩ else (0 : EReal))
    (h1 : ∀ q : Fin 640, x1 (ix3 (0 : Fin 1) q o') = if h : q.val < 577 then W o' (perm g ⟨q.val, h⟩) else (0 : EReal))
    (h2 : x2 (ix2 (0 : Fin 1) o') = B o') :
    (∑ q : Fin 640, x0 (ix3 bi r q) * x1 (ix3 (0 : Fin 1) q o')) + x2 (ix2 (0 : Fin 1) o') = yK P W B bi g p o' := by
  unfold yK
  refine congrArg₂ (· + ·) ?_ h2
  refine (Finset.sum_congr rfl (fun q _ => congrArg₂ (· * ·) (h0 q) (h1 q))).trans ?_
  refine (sum_pad _ (fun q hq => ?_)).trans (Finset.sum_congr rfl (fun q _ => ?_))
  · rw [dif_neg (by omega), dif_neg (by omega), zero_mul]
  · rw [dif_pos q.isLt, dif_pos q.isLt]

/-- The output block's entry (bi, 0, r, o) after the body at point `t` is `Garr` at (bi, g, pt·512 + r, o). -/
theorem after_apply (c : Dev nD) (t : Fin cfg0.N) (bi : Fin 4) (r : Fin 512) (o : Fin 256) (g : Fin 4) (p : Fin 4096)
    (hg : g.val = win0_3.index t (1 : Fin 4)) (hp : p.val = win0_3.index t (2 : Fin 4) * 512 + r.val) :
    out0_3 (iblk m c 0 t) (iblk m c 1 t) (iblk m c 2 t) (ix4 bi (0 : Fin 1) r o) = Garr m c (ix4 bi g p o) := by
  refine (out0_3_apply (iblk m c 0 t) (iblk m c 1 t) (iblk m c 2 t) bi r o).trans ?_
  show lorentzMasked _ o = lorentzMasked (yK (Pof m c) (Wof m c) (Bof m c) bi g p) o
  exact congrArg (fun y => lorentzMasked y o) (funext fun o' =>
    linear_eq (Pof m c) (Wof m c) (Bof m c) (iblk m c 0 t) (iblk m c 1 t) (iblk m c 2 t) bi r g p o'
      (fun q => (blk0_apply m c t bi r q p hp).trans (pre0Of_apply _ bi p q))
      (fun q => (blk1_apply m c t q o' g hg).trans (wAllOf_apply _ g q o'))
      ((blk2_apply m c t o').trans (biasOf_apply _ o')))

/-- WHAT POINT `t` WRITES BACK is block `t` of `Garr`. -/
theorem flushed_eq (c : Dev nD) (t : Fin cfg0.N) :
    (dats m 0 c).flushed 3 t = ((cfg0.win 3).blk t).view.read (Elt Ideal) (Garr m c) := by
  show (cfg0.win 3).cut (grid0.coords t) ((dats m 0 c).after 3 t) = _
  rw [after0_3]
  funext j
  show out0_3 (iblk m c 0 t) (iblk m c 1 t) (iblk m c 2 t) j = Garr m c (((cfg0.win 3).blk t).view.emb j)
  revert j
  show ∀ j : S4x1x512x256.Idx, out0_3 (iblk m c 0 t) (iblk m c 1 t) (iblk m c 2 t) j = Garr m c (((cfg0.win 3).blk t).view.emb j)
  intro j
  obtain ⟨bi, z, r, o, rfl⟩ : ∃ (bi : Fin 4) (z : Fin 1) (r : Fin 512) (o : Fin 256), j = ix4 bi z r o := ⟨j 0, j 1, j 2, j 3, eq_ix4 j⟩
  obtain rfl : z = 0 := Subsingleton.elim _ _
  obtain ⟨-, -, -, -, -, -, -, -, -, -, h1, h2⟩ := idx_facts t
  have hr := r.isLt
  exact (after_apply m c t bi r o ⟨win0_3.index t (1 : Fin 4), h1⟩ ⟨win0_3.index t (2 : Fin 4) * 512 + r.val, by omega⟩ rfl rfl).trans
    (congrArg (Garr m c) (blk3_emb t bi r o _ _ rfl rfl).symm)

/-- An index of the output array is in point `t`'s block iff each coordinate is in the block's range on its axis. -/
theorem mem_blk3 (t : Fin cfg0.N) (i : S4x4x4096x256.Idx) :
    i ∈ ((cfg0.win 3).blk t).view.set ↔ ∀ a : Fin 4, win0_3.index t a * S4x1x512x256.size a ≤ (i a).val
      ∧ (i a).val < win0_3.index t a * S4x1x512x256.size a + S4x1x512x256.size a := by
  show i ∈ ((View.whole main_v46).slice (win0_3.rect t)).set ↔ _
  rw [View.set_slice_whole, Rect.mem_set_unit]
  exact Iff.rfl

/-- Every index of the output array is written back by some point: row p of rotation g by the point whose position
    block is p / 512 and whose rotation is g. -/
theorem cover (i : S4x4x4096x256.Idx) :
    ∃ t : Fin cfg0.N, (cfg0.win 3).flush t = true ∧ i ∈ ((cfg0.win 3).blk t).view.set := by
  have h0 : (i 0).val < 4 := (i 0).isLt
  have h1 : (i 1).val < 4 := (i 1).isLt
  have h2 : (i 2).val < 4096 := (i 2).isLt
  have h3 : (i 3).val < 256 := (i 3).isLt
  obtain ⟨t, hg, hp⟩ := idx_onto ⟨(i 1).val, h1⟩ ⟨(i 2).val / 512, by omega⟩
  have hg' : win0_3.index t (1 : Fin 4) = (i 1).val := hg
  have hp' : win0_3.index t (2 : Fin 4) = (i 2).val / 512 := hp
  obtain ⟨-, -, -, -, -, -, -, -, e8, e9, -⟩ := idx_facts t
  refine ⟨t, flush0_3 t, ?_⟩
  rw [mem_blk3]
  intro a
  match a with
  | ⟨0, _⟩ => show win0_3.index t (0 : Fin 4) * 4 ≤ (i 0).val ∧ (i 0).val < win0_3.index t (0 : Fin 4) * 4 + 4; omega
  | ⟨1, _⟩ => show win0_3.index t (1 : Fin 4) * 1 ≤ (i 1).val ∧ (i 1).val < win0_3.index t (1 : Fin 4) * 1 + 1; omega
  | ⟨2, _⟩ => show win0_3.index t (2 : Fin 4) * 512 ≤ (i 2).val ∧ (i 2).val < win0_3.index t (2 : Fin 4) * 512 + 512; omega
  | ⟨3, _⟩ => show win0_3.index t (3 : Fin 4) * 256 ≤ (i 3).val ∧ (i 3).val < win0_3.index t (3 : Fin 4) * 256 + 256; omega

/-- THE OUTPUT ARRAY after the launch is `Garr`. -/
theorem final (c : Dev nD) : (dats m 0 c).arrAt 3 cfg0.N = Garr m c :=
  (dats m 0 c).arrAt_eq_of_cover 3 (Garr m c) (fun t _ => flushed_eq m c t) cover

end Cert.KernelIdeal.KerValue.Result

namespace Cert.KernelIdeal.KerValue

open Idealize.ShloMosaic Idealize.ShloMosaic.ValueIdx Idealize.ShloMosaic.TcCoe Idealize.SL.Sem
open Cert.KernelIdeal Cert.KernelIdeal.Gen Cert.KernelIdeal.Hand Cert.Lorentz

variable (m : (ℓ : Loc nD τ sig) → Buf (Elt Ideal) ℓ)

/-- THE RESULT: the returned array, the output array with its 4096 positions re-read as 64 × 64, is the kernel's form of
    the specification at every index. -/
theorem result_eq (c : Dev nD) :
    shapeCast S4x4x64x64x256 ((dats m 0 c).arrAt 3 cfg0.N) shapeCasts_S4x4x4096x256_S4x4x64x64x256
      = fun i => OutK (fun b p j => patches (m ((c : Thread nD τ).loc main_arg0)) (ix3 b p j))
          (fun o f => m ((c : Thread nD τ).loc main_arg1) (ix2 o f)) (fun o => m ((c : Thread nD τ).loc main_arg2) (ix1 o))
          (i 0) (i 1) (i 2) (i 3) (i 4) := by
  rw [Result.final]
  funext i
  obtain ⟨b, g, h, w, o, rfl⟩ : ∃ (b g : Fin 4) (h w : Fin 64) (o : Fin 256), i = ix5 b g h w o :=
    ⟨i 0, i 1, i 2, i 3, i 4, eq_ix5 i⟩
  refine (shapeCast_apply (Result.Garr m c) shapeCasts_S4x4x4096x256_S4x4x64x64x256 (ix5 b g h w o) (ix4 b g (posIdx h w) o) ?_).trans rfl
  rw [Shape.rowMajor_val_four, Shape.rowMajor_val_five]
  show ((b.val * 4 + g.val) * 4096 + (h.val * 64 + w.val)) * 256 + o.val = (((b.val * 4 + g.val) * 64 + h.val) * 64 + w.val) * 256 + o.val
  omega

end Cert.KernelIdeal.KerValue

end
-- ==== Proof.RefStages.lean ====
/-
  The reference's result as named stage functions of its arguments.

  Each definition applies, in program order, the pure function of one host operation of the reference to its
  operands.  patches is the unfolded 3×3 patch array (statements %0 … %22), a function of the input alone;
  rot reads the patches through the rotation table (%23 … %41); timeF and spaceF build the time feature and
  the 576 space features of one rotated patch row (%42 … %55); preOf joins them (%56); lin is the linear layer
  (%57 … %60), lorentzF the recomputed time component (%61 … %68), outOf the final transpose and reshape
  (%69, %70).
-/
import proofs.«153807_j19121194401875_2_alg».proof.ReferenceIdeal
import proofs.«153807_j19121194401875_2_alg».proof.Proof.Gen.ReferenceIdeal
import Idealize.ShloMosaic.PureOps.Ideal

noncomputable section

namespace Cert.ReferenceIdeal.RefValue

open Idealize.ShloMosaic Cert.ReferenceIdeal
open Cert.ReferenceIdeal.Facts₀

/-! ## The patches: %0 … %22 -/

/-- The input re-read at 4×65×64×64 and zero-padded by one on the two image axes (%0, @_pad). -/
def padded (x : FVec Ideal S4x64x64x65 .f32) : FVec Ideal S4x65x66x66 .f32 :=
  pad S4x65x66x66 ![0, 0, 1, 1] ![0, 0, 1, 1] ![0, 0, 0, 0]
    (shapeCast S4x65x64x64 x shapeCasts_S4x64x64x65_S4x65x64x64)
    (sitofp (F := Ideal) .f32 (constantI S_ 32 0#32))
    pads_S4x65x64x64_S4x65x66x66_000_000_110_110 h_S_

/-- One of the nine shifted 64×64 windows of the padded image, with a unit axis for the kernel position
    (%2 … %19). -/
def window (off : Fin 4 → Nat) (h : S4x65x66x66.Slices off S4x65x64x64) (v : FVec Ideal S4x65x66x66 .f32) :
    FVec Ideal S4x65x1x64x64 .f32 :=
  broadcastInDim S4x65x1x64x64 ![0, 1, 3, 4] bcast_S4x65x64x64_S4x65x1x64x64_0_1_3_4
    (extractStridedSlice S4x65x64x64 off v h)

/-- The patch array P[b, p, c·9 + k] (%20 … %22). -/
def patches (x : FVec Ideal S4x64x64x65 .f32) : FVec Ideal S4x4096x585 .f32 :=
  transpose S4x4096x585 [0, 2, 1]
    (shapeCast S4x585x4096
      (concatenate S4x65x9x64x64 2
        [⟨S4x65x1x64x64, window ![0, 0, 0, 0] slices_S4x65x66x66_S4x65x64x64_0_0_0_0 (padded x)⟩,
         ⟨S4x65x1x64x64, window ![0, 0, 0, 1] slices_S4x65x66x66_S4x65x64x64_0_0_0_1 (padded x)⟩,
         ⟨S4x65x1x64x64, window ![0, 0, 0, 2] slices_S4x65x66x66_S4x65x64x64_0_0_0_2 (padded x)⟩,
         ⟨S4x65x1x64x64, window ![0, 0, 1, 0] slices_S4x65x66x66_S4x65x64x64_0_0_1_0 (padded x)⟩,
         ⟨S4x65x1x64x64, window ![0, 0, 1, 1] slices_S4x65x66x66_S4x65x64x64_0_0_1_1 (padded x)⟩,
         ⟨S4x65x1x64x64, window ![0, 0, 1, 2] slices_S4x65x66x66_S4x65x64x64_0_0_1_2 (padded x)⟩,
         ⟨S4x65x1x64x64, window ![0, 0, 2, 0] slices_S4x65x66x66_S4x65x64x64_0_0_2_0 (padded x)⟩,
         ⟨S4x65x1x64x64, window ![0, 0, 2, 1] slices_S4x65x66x66_S4x65x64x64_0_0_2_1 (padded x)⟩,
         ⟨S4x65x1x64x64, window ![0, 0, 2, 2] slices_S4x65x66x66_S4x65x64x64_0_0_2_2 (padded x)⟩]
        concatenates_S4x65x1x64x64_S4x65x1x64x64_S4x65x1x64x64_S4x65x1x64x64_S4x65x1x64x64_S4x65x1x64x64_S4x65x1x64x64_S4x65x1x64x64_S4x65x1x64x64_S4x65x9x64x64_d2)
      shapeCasts_S4x65x9x64x64_S4x585x4096)
    transposes_S4x585x4096_S4x4096x585_0_2_1

/-! ## The rotation table and the rotated patches: %23 … %41 -/

/-- One column of the index table: a literal table, wrapped if a mask bit is set (none is) (%25 … %36). -/
def tableCol (mask : IVec S36 1) (wrap : BitVec 32) (lit : IVec S36 32) : IVec S36x1 32 :=
  broadcastInDim S36x1 ![0] bcast_S36_S36x1_0
    (select mask (addi lit (broadcastInDim S36 ![] bcast_S_S36 (constantI S_ 32 wrap))) lit)

/-- The 36×3 table of start indices (rotation, row, column) of the gather (%37). -/
def idxTable : IVec S36x3 32 :=
  concatenate S36x3 1
    [⟨S36x1, tableCol (constantI S36 1 0#1) 4#32 (constantI S36 32 0#32)⟩,
     ⟨S36x1, tableCol (constantI S36 1 0#1) 3#32 (fun i => lit0 (S36.rowMajor i))⟩,
     ⟨S36x1, tableCol (constantI S36 1 0#1) 3#32 (fun i => lit1 (S36.rowMajor i))⟩]
    concatenates_S36x1_S36x1_S36x1_S36x3_d1

/-- The patches read through the table: entry (b, p, c, n) is P[b, p, c·9 + row n · 3 + column n] (%23, %24, %38). -/
def gathered (P : FVec Ideal S4x4096x585 .f32) : FVec Ideal S4x4096x65x36 .f32 :=
  Host.gather gather_S4x4096x65x4x3x3_S36x3_S4x4096x65x36_012_345_n_n_345_1_4409665111
    (broadcastInDim S4x4096x65x4x3x3 ![0, 1, 2, 3, 4, 5] bcast_S4x4096x65x1x3x3_S4x4096x65x4x3x3_0_1_2_3_4_5
      (shapeCast S4x4096x65x1x3x3 P shapeCasts_S4x4096x585_S4x4096x65x1x3x3))
    idxTable

/-- The rotated patch rows, rotation outermost: entry (g, b, p, c·9 + k) (%39 … %41). -/
def rot (P : FVec Ideal S4x4096x585 .f32) : FVec Ideal S4x4x4096x585 .f32 :=
  shapeCast S4x4x4096x585
    (transpose S4x4x4096x65x9 [3, 0, 1, 2, 4]
      (shapeCast S4x4096x65x4x9 (gathered P) shapeCasts_S4x4096x65x36_S4x4096x65x4x9)
      transposes_S4x4096x65x4x9_S4x4x4096x65x9_3_0_1_2_4)
    shapeCasts_S4x4x4096x65x9_S4x4x4096x585

/-! ## The features: %42 … %56 -/

/-- The nine time entries clamped below by √1 (%42 … %45). -/
def clampedTime (A : FVec Ideal S4x4x4096x585 .f32) : FVec Ideal S4x4x4096x9 .f32 :=
  maximumf (extractStridedSlice S4x4x4096x9 ![0, 0, 0, 0] A slices_S4x4x4096x585_S4x4x4096x9_0_0_0_0)
    (broadcastInDim S4x4x4096x9 ![] bcast_S_S4x4x4096x9
      (Host.sqrt (F := Ideal) (constant (F := Ideal) S_ .f32 0x3F800000#32)))

/-- The time feature √(Σ clamped² − 8) (%46 … %51). -/
def timeF (A : FVec Ideal S4x4x4096x585 .f32) : FVec Ideal S4x4x4096x1 .f32 :=
  Host.sqrt (F := Ideal)
    (subf
      (broadcastInDim S4x4x4096x1 ![0, 1, 2] bcast_S4x4x4096_S4x4x4096x1_0_1_2
        (Host.reduceAdd (F := Ideal) (mulf (clampedTime A) (clampedTime A)) (constant (F := Ideal) S_ .f32 0x00000000#32)
          reducesTo_S4x4x4096x9_S4x4x4096_d3 h_S_))
      (broadcastInDim S4x4x4096x1 ![] bcast_S_S4x4x4096x1 (constant (F := Ideal) S_ .f32 0x41000000#32)))

/-- The 576 space features, kernel position outermost (%52 … %55). -/
def spaceF (A : FVec Ideal S4x4x4096x585 .f32) : FVec Ideal S4x4x4096x576 .f32 :=
  shapeCast S4x4x4096x576
    (transpose S4x4x4096x9x64 [0, 1, 2, 4, 3]
      (shapeCast S4x4x4096x64x9
        (extractStridedSlice S4x4x4096x576 ![0, 0, 0, 9] A slices_S4x4x4096x585_S4x4x4096x576_0_0_0_9)
        shapeCasts_S4x4x4096x576_S4x4x4096x64x9)
      transposes_S4x4x4096x64x9_S4x4x4096x9x64_0_1_2_4_3)
    shapeCasts_S4x4x4096x9x64_S4x4x4096x576

/-- The feature rows of the rotated patches (%56). -/
def featOf (A : FVec Ideal S4x4x4096x585 .f32) : FVec Ideal S4x4x4096x577 .f32 :=
  concatenate S4x4x4096x577 3 [⟨S4x4x4096x1, timeF A⟩, ⟨S4x4x4096x576, spaceF A⟩]
    concatenates_S4x4x4096x1_S4x4x4096x576_S4x4x4096x577_d3

/-- The feature array of the patches: main_v56 from main_v22. -/
def preOf (P : FVec Ideal S4x4096x585 .f32) : FVec Ideal S4x4x4096x577 .f32 := featOf (rot P)

/-! ## The linear layer and the time recompute: %57 … %70 -/

/-- The linear layer (%57 … %60). -/
def lin (pre : FVec Ideal S4x4x4096x577 .f32) (W : FVec Ideal S256x577 .f32) (bias : FVec Ideal S256 .f32) :
    FVec Ideal S4x4x4096x256 .f32 :=
  addf (Host.dotGeneral (F := Ideal) dot_S4x4x4096x577_S256x577_S4x4x4096x256_3_1_012_0_n_n none pre W)
    (broadcastInDim S4x4x4096x256 ![0, 1, 2, 3] bcast_S1x1x1x256_S4x4x4096x256_0_1_2_3
      (broadcastInDim S1x1x1x256 ![3] bcast_S256_S1x1x1x256_3 bias))

/-- Columns 1 … 255 (%61). -/
def tailCols (y : FVec Ideal S4x4x4096x256 .f32) : FVec Ideal S4x4x4096x255 .f32 :=
  extractStridedSlice S4x4x4096x255 ![0, 0, 0, 1] y slices_S4x4x4096x256_S4x4x4096x255_0_0_0_1

/-- Column 0 replaced by √(Σ_{o ≥ 1} y_o² + 1) (%62 … %68). -/
def lorentzF (y : FVec Ideal S4x4x4096x256 .f32) : FVec Ideal S4x4x4096x256 .f32 :=
  concatenate S4x4x4096x256 3
    [⟨S4x4x4096x1,
      Host.sqrt (F := Ideal)
        (addf
          (broadcastInDim S4x4x4096x1 ![0, 1, 2] bcast_S4x4x4096_S4x4x4096x1_0_1_2
            (Host.reduceAdd (F := Ideal) (mulf (tailCols y) (tailCols y)) (constant (F := Ideal) S_ .f32 0x00000000#32)
              reducesTo_S4x4x4096x255_S4x4x4096_d3 h_S_))
          (broadcastInDim S4x4x4096x1 ![] bcast_S_S4x4x4096x1 (constant (F := Ideal) S_ .f32 0x3F800000#32)))⟩,
     ⟨S4x4x4096x255, tailCols y⟩]
    concatenates_S4x4x4096x1_S4x4x4096x255_S4x4x4096x256_d3

/-- The result array from the features: main_v70 from main_v56, the weights and the bias. -/
def outOf (pre : FVec Ideal S4x4x4096x577 .f32) (W : FVec Ideal S256x577 .f32) (bias : FVec Ideal S256 .f32) :
    FVec Ideal S4x4x64x64x256 .f32 :=
  shapeCast S4x4x64x64x256
    (transpose S4x4x4096x256 [1, 0, 2, 3] (lorentzF (lin pre W bias)) transposes_S4x4x4096x256_S4x4x4096x256_1_0_2_3)
    shapeCasts_S4x4x4096x256_S4x4x64x64x256

/-- The reference's result as a function of its three arguments. -/
def result (x : FVec Ideal S4x64x64x65 .f32) (W : FVec Ideal S256x577 .f32) (bias : FVec Ideal S256 .f32) :
    FVec Ideal S4x4x64x64x256 .f32 :=
  outOf (preOf (patches x)) W bias

end Cert.ReferenceIdeal.RefValue

end
-- ==== Proof.RefRun.lean ====
/-
  The reference program's @main read as a straight line of host operations, and its run.

  @main is eighty-seven operations in program order (the padding function's two operations written at the place
  of its call, over the buffers that call names).  A straight line of host operations always terminates, faults
  nowhere, and leaves every buffer at the fold of the operations' results over the contents it started from: the
  buffers no operation writes (the three arguments) are unchanged, and the result buffer holds the operations'
  composed value of the arguments.
-/
import proofs.«153807_j19121194401875_2_alg».proof.Proof.Gen.ReferenceIdeal
import proofs.«153807_j19121194401875_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 87 operations, in program order. -/
abbrev ops : List (HloOp τ sig (Elt F)) :=
  [ nullary main_c (constantI S36 32 0#32),
    nullary main_c_0 (constantI S36 1 0#1),
    nullary main_c_1 (fun i => lit0 (S36.rowMajor i)),
    nullary main_c_2 (constantI S36 1 0#1),
    nullary main_c_3 (fun i => lit1 (S36.rowMajor i)),
    nullary main_c_4 (constantI S36 1 0#1),
    reshape main_arg0 main_v0 rfl shapeCasts_S4x64x64x65_S4x65x64x64,
    nullary main_c_5 (constantI S_ 32 0#32),
    TRef.unary (.of main_c_5 : TRef sig ⟨S_, .i32⟩) main_call0.v0 (sitofp .f32),
    TRef.binary (.of main_v0 : TRef sig ⟨S4x65x64x64, .f32⟩) main_call0.v0 main_call0.v1 (fun x v => pad S4x65x66x66 ![0, 0, 1, 1] ![0, 0, 1, 1] ![0, 0, 0, 0] x v pads_S4x65x64x64_S4x65x66x66_000_000_110_110 h_S_),
    unary main_v1 main_v2 ((extractStridedSlice S4x65x64x64 ![0, 0, 0, 0] · slices_S4x65x66x66_S4x65x64x64_0_0_0_0) : (⟨S4x65x66x66, .f32⟩ : BufTy).Contents (Elt F) → (⟨S4x65x64x64, .f32⟩ : BufTy).Contents (Elt F)),
    unary main_v1 main_v3 ((extractStridedSlice S4x65x64x64 ![0, 0, 0, 1] · slices_S4x65x66x66_S4x65x64x64_0_0_0_1) : (⟨S4x65x66x66, .f32⟩ : BufTy).Contents (Elt F) → (⟨S4x65x64x64, .f32⟩ : BufTy).Contents (Elt F)),
    unary main_v1 main_v4 ((extractStridedSlice S4x65x64x64 ![0, 0, 0, 2] · slices_S4x65x66x66_S4x65x64x64_0_0_0_2) : (⟨S4x65x66x66, .f32⟩ : BufTy).Contents (Elt F) → (⟨S4x65x64x64, .f32⟩ : BufTy).Contents (Elt F)),
    unary main_v1 main_v5 ((extractStridedSlice S4x65x64x64 ![0, 0, 1, 0] · slices_S4x65x66x66_S4x65x64x64_0_0_1_0) : (⟨S4x65x66x66, .f32⟩ : BufTy).Contents (Elt F) → (⟨S4x65x64x64, .f32⟩ : BufTy).Contents (Elt F)),
    unary main_v1 main_v6 ((extractStridedSlice S4x65x64x64 ![0, 0, 1, 1] · slices_S4x65x66x66_S4x65x64x64_0_0_1_1) : (⟨S4x65x66x66, .f32⟩ : BufTy).Contents (Elt F) → (⟨S4x65x64x64, .f32⟩ : BufTy).Contents (Elt F)),
    unary main_v1 main_v7 ((extractStridedSlice S4x65x64x64 ![0, 0, 1, 2] · slices_S4x65x66x66_S4x65x64x64_0_0_1_2) : (⟨S4x65x66x66, .f32⟩ : BufTy).Contents (Elt F) → (⟨S4x65x64x64, .f32⟩ : BufTy).Contents (Elt F)),
    unary main_v1 main_v8 ((extractStridedSlice S4x65x64x64 ![0, 0, 2, 0] · slices_S4x65x66x66_S4x65x64x64_0_0_2_0) : (⟨S4x65x66x66, .f32⟩ : BufTy).Contents (Elt F) → (⟨S4x65x64x64, .f32⟩ : BufTy).Contents (Elt F)),
    unary main_v1 main_v9 ((extractStridedSlice S4x65x64x64 ![0, 0, 2, 1] · slices_S4x65x66x66_S4x65x64x64_0_0_2_1) : (⟨S4x65x66x66, .f32⟩ : BufTy).Contents (Elt F) → (⟨S4x65x64x64, .f32⟩ : BufTy).Contents (Elt F)),
    unary main_v1 main_v10 ((extractStridedSlice S4x65x64x64 ![0, 0, 2, 2] · slices_S4x65x66x66_S4x65x64x64_0_0_2_2) : (⟨S4x65x66x66, .f32⟩ : BufTy).Contents (Elt F) → (⟨S4x65x64x64, .f32⟩ : BufTy).Contents (Elt F)),
    unary main_v2 main_v11 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v3 main_v12 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v4 main_v13 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v5 main_v14 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v6 main_v15 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v7 main_v16 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v8 main_v17 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v9 main_v18 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v10 main_v19 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    nary ![main_v11, main_v12, main_v13, main_v14, main_v15, main_v16, main_v17, main_v18, main_v19] main_v20 (fun u => concatenate S4x65x9x64x64 2 [⟨S4x65x1x64x64, u 0⟩, ⟨S4x65x1x64x64, u 1⟩, ⟨S4x65x1x64x64, u 2⟩, ⟨S4x65x1x64x64, u 3⟩, ⟨S4x65x1x64x64, u 4⟩, ⟨S4x65x1x64x64, u 5⟩, ⟨S4x65x1x64x64, u 6⟩, ⟨S4x65x1x64x64, u 7⟩, ⟨S4x65x1x64x64, u 8⟩] concatenates_S4x65x1x64x64_S4x65x1x64x64_S4x65x1x64x64_S4x65x1x64x64_S4x65x1x64x64_S4x65x1x64x64_S4x65x1x64x64_S4x65x1x64x64_S4x65x1x64x64_S4x65x9x64x64_d2),
    reshape main_v20 main_v21 rfl shapeCasts_S4x65x9x64x64_S4x585x4096,
    unary main_v21 main_v22 ((transpose S4x4096x585 [0, 2, 1] · transposes_S4x585x4096_S4x4096x585_0_2_1) : (⟨S4x585x4096, .f32⟩ : BufTy).Contents (Elt F) → (⟨S4x4096x585, .f32⟩ : BufTy).Contents (Elt F)),
    reshape main_v22 main_v23 rfl shapeCasts_S4x4096x585_S4x4096x65x1x3x3,
    unary main_v23 main_v24 (broadcastInDim S4x4096x65x4x3x3 ![0, 1, 2, 3, 4, 5] bcast_S4x4096x65x1x3x3_S4x4096x65x4x3x3_0_1_2_3_4_5 : (⟨S4x4096x65x1x3x3, .f32⟩ : BufTy).Contents (Elt F) → (⟨S4x4096x65x4x3x3, .f32⟩ : BufTy).Contents (Elt F)),
    nullary main_c_6 (constantI S_ 32 4#32),
    unary main_c_6 main_v25 (broadcastInDim S36 ![] bcast_S_S36 : (⟨S_, .i32⟩ : BufTy).Contents (Elt F) → (⟨S36, .i32⟩ : BufTy).Contents (Elt F)),
    binary main_c main_v25 main_v26 (addi : (⟨S36, .i32⟩ : BufTy).Contents (Elt F) → (⟨S36, .i32⟩ : BufTy).Contents (Elt F) → (⟨S36, .i32⟩ : BufTy).Contents (Elt F)),
    ternary main_c_0 main_v26 main_c main_v27 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    nullary main_c_7 (constantI S_ 32 3#32),
    unary main_c_7 main_v28 (broadcastInDim S36 ![] bcast_S_S36 : (⟨S_, .i32⟩ : BufTy).Contents (Elt F) → (⟨S36, .i32⟩ : BufTy).Contents (Elt F)),
    binary main_c_1 main_v28 main_v29 (addi : (⟨S36, .i32⟩ : BufTy).Contents (Elt F) → (⟨S36, .i32⟩ : BufTy).Contents (Elt F) → (⟨S36, .i32⟩ : BufTy).Contents (Elt F)),
    ternary main_c_2 main_v29 main_c_1 main_v30 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    nullary main_c_8 (constantI S_ 32 3#32),
    unary main_c_8 main_v31 (broadcastInDim S36 ![] bcast_S_S36 : (⟨S_, .i32⟩ : BufTy).Contents (Elt F) → (⟨S36, .i32⟩ : BufTy).Contents (Elt F)),
    binary main_c_3 main_v31 main_v32 (addi : (⟨S36, .i32⟩ : BufTy).Contents (Elt F) → (⟨S36, .i32⟩ : BufTy).Contents (Elt F) → (⟨S36, .i32⟩ : BufTy).Contents (Elt F)),
    ternary main_c_4 main_v32 main_c_3 main_v33 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    unary main_v27 main_v34 (broadcastInDim S36x1 ![0] bcast_S36_S36x1_0 : (⟨S36, .i32⟩ : BufTy).Contents (Elt F) → (⟨S36x1, .i32⟩ : BufTy).Contents (Elt F)),
    unary main_v30 main_v35 (broadcastInDim S36x1 ![0] bcast_S36_S36x1_0 : (⟨S36, .i32⟩ : BufTy).Contents (Elt F) → (⟨S36x1, .i32⟩ : BufTy).Contents (Elt F)),
    unary main_v33 main_v36 (broadcastInDim S36x1 ![0] bcast_S36_S36x1_0 : (⟨S36, .i32⟩ : BufTy).Contents (Elt F) → (⟨S36x1, .i32⟩ : BufTy).Contents (Elt F)),
    nary ![main_v34, main_v35, main_v36] main_v37 (fun u => concatenate S36x3 1 [⟨S36x1, u 0⟩, ⟨S36x1, u 1⟩, ⟨S36x1, u 2⟩] concatenates_S36x1_S36x1_S36x1_S36x3_d1),
    binary main_v24 main_v37 main_v38 ((fun x i => Host.gather gather_S4x4096x65x4x3x3_S36x3_S4x4096x65x36_012_345_n_n_345_1_4409665111 x i) : (⟨S4x4096x65x4x3x3, .f32⟩ : BufTy).Contents (Elt F) → (⟨S36x3, .i32⟩ : BufTy).Contents (Elt F) → (⟨S4x4096x65x36, .f32⟩ : BufTy).Contents (Elt F)),
    reshape main_v38 main_v39 rfl shapeCasts_S4x4096x65x36_S4x4096x65x4x9,
    unary main_v39 main_v40 ((transpose S4x4x4096x65x9 [3, 0, 1, 2, 4] · transposes_S4x4096x65x4x9_S4x4x4096x65x9_3_0_1_2_4) : (⟨S4x4096x65x4x9, .f32⟩ : BufTy).Contents (Elt F) → (⟨S4x4x4096x65x9, .f32⟩ : BufTy).Contents (Elt F)),
    reshape main_v40 main_v41 rfl shapeCasts_S4x4x4096x65x9_S4x4x4096x585,
    nullary main_cst (constant S_ .f32 0x3F800000#32),
    unary main_cst main_v42 (Host.sqrt : (⟨S_, .f32⟩ : BufTy).Contents (Elt F) → (⟨S_, .f32⟩ : BufTy).Contents (Elt F)),
    unary main_v41 main_v43 ((extractStridedSlice S4x4x4096x9 ![0, 0, 0, 0] · slices_S4x4x4096x585_S4x4x4096x9_0_0_0_0) : (⟨S4x4x4096x585, .f32⟩ : BufTy).Contents (Elt F) → (⟨S4x4x4096x9, .f32⟩ : BufTy).Contents (Elt F)),
    unary main_v42 main_v44 (broadcastInDim S4x4x4096x9 ![] bcast_S_S4x4x4096x9 : (⟨S_, .f32⟩ : BufTy).Contents (Elt F) → (⟨S4x4x4096x9, .f32⟩ : BufTy).Contents (Elt F)),
    binary main_v43 main_v44 main_v45 (maximumf : (⟨S4x4x4096x9, .f32⟩ : BufTy).Contents (Elt F) → (⟨S4x4x4096x9, .f32⟩ : BufTy).Contents (Elt F) → (⟨S4x4x4096x9, .f32⟩ : BufTy).Contents (Elt F)),
    binary main_v45 main_v45 main_v46 (mulf : (⟨S4x4x4096x9, .f32⟩ : BufTy).Contents (Elt F) → (⟨S4x4x4096x9, .f32⟩ : BufTy).Contents (Elt F) → (⟨S4x4x4096x9, .f32⟩ : BufTy).Contents (Elt F)),
    nullary main_cst_9 (constant S_ .f32 0x00000000#32),
    binary main_v46 main_cst_9 main_v47 ((fun x v => Host.reduceAdd x v reducesTo_S4x4x4096x9_S4x4x4096_d3 h_S_) : (⟨S4x4x4096x9, .f32⟩ : BufTy).Contents (Elt F) → (⟨S_, .f32⟩ : BufTy).Contents (Elt F) → (⟨S4x4x4096, .f32⟩ : BufTy).Contents (Elt F)),
    unary main_v47 main_v48 (broadcastInDim S4x4x4096x1 ![0, 1, 2] bcast_S4x4x4096_S4x4x4096x1_0_1_2 : (⟨S4x4x4096, .f32⟩ : BufTy).Contents (Elt F) → (⟨S4x4x4096x1, .f32⟩ : BufTy).Contents (Elt F)),
    nullary main_cst_10 (constant S_ .f32 0x41000000#32),
    unary main_cst_10 main_v49 (broadcastInDim S4x4x4096x1 ![] bcast_S_S4x4x4096x1 : (⟨S_, .f32⟩ : BufTy).Contents (Elt F) → (⟨S4x4x4096x1, .f32⟩ : BufTy).Contents (Elt F)),
    binary main_v48 main_v49 main_v50 (subf : (⟨S4x4x4096x1, .f32⟩ : BufTy).Contents (Elt F) → (⟨S4x4x4096x1, .f32⟩ : BufTy).Contents (Elt F) → (⟨S4x4x4096x1, .f32⟩ : BufTy).Contents (Elt F)),
    unary main_v50 main_v51 (Host.sqrt : (⟨S4x4x4096x1, .f32⟩ : BufTy).Contents (Elt F) → (⟨S4x4x4096x1, .f32⟩ : BufTy).Contents (Elt F)),
    unary main_v41 main_v52 ((extractStridedSlice S4x4x4096x576 ![0, 0, 0, 9] · slices_S4x4x4096x585_S4x4x4096x576_0_0_0_9) : (⟨S4x4x4096x585, .f32⟩ : BufTy).Contents (Elt F) → (⟨S4x4x4096x576, .f32⟩ : BufTy).Contents (Elt F)),
    reshape main_v52 main_v53 rfl shapeCasts_S4x4x4096x576_S4x4x4096x64x9,
    unary main_v53 main_v54 ((transpose S4x4x4096x9x64 [0, 1, 2, 4, 3] · transposes_S4x4x4096x64x9_S4x4x4096x9x64_0_1_2_4_3) : (⟨S4x4x4096x64x9, .f32⟩ : BufTy).Contents (Elt F) → (⟨S4x4x4096x9x64, .f32⟩ : BufTy).Contents (Elt F)),
    reshape main_v54 main_v55 rfl shapeCasts_S4x4x4096x9x64_S4x4x4096x576,
    binary main_v51 main_v55 main_v56 ((fun a b => concatenate S4x4x4096x577 3 [⟨S4x4x4096x1, a⟩, ⟨S4x4x4096x576, b⟩] concatenates_S4x4x4096x1_S4x4x4096x576_S4x4x4096x577_d3) : (⟨S4x4x4096x1, .f32⟩ : BufTy).Contents (Elt F) → (⟨S4x4x4096x576, .f32⟩ : BufTy).Contents (Elt F) → (⟨S4x4x4096x577, .f32⟩ : BufTy).Contents (Elt F)),
    binary main_v56 main_arg1 main_v57 ((fun l r => Host.dotGeneral dot_S4x4x4096x577_S256x577_S4x4x4096x256_3_1_012_0_n_n none l r) : (⟨S4x4x4096x577, .f32⟩ : BufTy).Contents (Elt F) → (⟨S256x577, .f32⟩ : BufTy).Contents (Elt F) → (⟨S4x4x4096x256, .f32⟩ : BufTy).Contents (Elt F)),
    unary main_arg2 main_v58 (broadcastInDim S1x1x1x256 ![3] bcast_S256_S1x1x1x256_3 : (⟨S256, .f32⟩ : BufTy).Contents (Elt F) → (⟨S1x1x1x256, .f32⟩ : BufTy).Contents (Elt F)),
    unary main_v58 main_v59 (broadcastInDim S4x4x4096x256 ![0, 1, 2, 3] bcast_S1x1x1x256_S4x4x4096x256_0_1_2_3 : (⟨S1x1x1x256, .f32⟩ : BufTy).Contents (Elt F) → (⟨S4x4x4096x256, .f32⟩ : BufTy).Contents (Elt F)),
    binary main_v57 main_v59 main_v60 (addf : (⟨S4x4x4096x256, .f32⟩ : BufTy).Contents (Elt F) → (⟨S4x4x4096x256, .f32⟩ : BufTy).Contents (Elt F) → (⟨S4x4x4096x256, .f32⟩ : BufTy).Contents (Elt F)),
    unary main_v60 main_v61 ((extractStridedSlice S4x4x4096x255 ![0, 0, 0, 1] · slices_S4x4x4096x256_S4x4x4096x255_0_0_0_1) : (⟨S4x4x4096x256, .f32⟩ : BufTy).Contents (Elt F) → (⟨S4x4x4096x255, .f32⟩ : BufTy).Contents (Elt F)),
    binary main_v61 main_v61 main_v62 (mulf : (⟨S4x4x4096x255, .f32⟩ : BufTy).Contents (Elt F) → (⟨S4x4x4096x255, .f32⟩ : BufTy).Contents (Elt F) → (⟨S4x4x4096x255, .f32⟩ : BufTy).Contents (Elt F)),
    nullary main_cst_11 (constant S_ .f32 0x00000000#32),
    binary main_v62 main_cst_11 main_v63 ((fun x v => Host.reduceAdd x v reducesTo_S4x4x4096x255_S4x4x4096_d3 h_S_) : (⟨S4x4x4096x255, .f32⟩ : BufTy).Contents (Elt F) → (⟨S_, .f32⟩ : BufTy).Contents (Elt F) → (⟨S4x4x4096, .f32⟩ : BufTy).Contents (Elt F)),
    unary main_v63 main_v64 (broadcastInDim S4x4x4096x1 ![0, 1, 2] bcast_S4x4x4096_S4x4x4096x1_0_1_2 : (⟨S4x4x4096, .f32⟩ : BufTy).Contents (Elt F) → (⟨S4x4x4096x1, .f32⟩ : BufTy).Contents (Elt F)),
    nullary main_cst_12 (constant S_ .f32 0x3F800000#32),
    unary main_cst_12 main_v65 (broadcastInDim S4x4x4096x1 ![] bcast_S_S4x4x4096x1 : (⟨S_, .f32⟩ : BufTy).Contents (Elt F) → (⟨S4x4x4096x1, .f32⟩ : BufTy).Contents (Elt F)),
    binary main_v64 main_v65 main_v66 (addf : (⟨S4x4x4096x1, .f32⟩ : BufTy).Contents (Elt F) → (⟨S4x4x4096x1, .f32⟩ : BufTy).Contents (Elt F) → (⟨S4x4x4096x1, .f32⟩ : BufTy).Contents (Elt F)),
    unary main_v66 main_v67 (Host.sqrt : (⟨S4x4x4096x1, .f32⟩ : BufTy).Contents (Elt F) → (⟨S4x4x4096x1, .f32⟩ : BufTy).Contents (Elt F)),
    binary main_v67 main_v61 main_v68 ((fun a b => concatenate S4x4x4096x256 3 [⟨S4x4x4096x1, a⟩, ⟨S4x4x4096x255, b⟩] concatenates_S4x4x4096x1_S4x4x4096x255_S4x4x4096x256_d3) : (⟨S4x4x4096x1, .f32⟩ : BufTy).Contents (Elt F) → (⟨S4x4x4096x255, .f32⟩ : BufTy).Contents (Elt F) → (⟨S4x4x4096x256, .f32⟩ : BufTy).Contents (Elt F)),
    unary main_v68 main_v69 ((transpose S4x4x4096x256 [1, 0, 2, 3] · transposes_S4x4x4096x256_S4x4x4096x256_1_0_2_3) : (⟨S4x4x4096x256, .f32⟩ : BufTy).Contents (Elt F) → (⟨S4x4x4096x256, .f32⟩ : BufTy).Contents (Elt F)),
    reshape main_v69 main_v70 rfl shapeCasts_S4x4x4096x256_S4x4x64x64x256 ]

/-! ## @main is the line -/

/-- The operations of @main's first window (the padding function's two at the place of its call) and of its second. -/
abbrev ops0 : List (HloOp τ sig (Elt F)) :=
  [ nullary main_c (constantI S36 32 0#32),
    nullary main_c_0 (constantI S36 1 0#1),
    nullary main_c_1 (fun i => lit0 (S36.rowMajor i)),
    nullary main_c_2 (constantI S36 1 0#1),
    nullary main_c_3 (fun i => lit1 (S36.rowMajor i)),
    nullary main_c_4 (constantI S36 1 0#1),
    reshape main_arg0 main_v0 rfl shapeCasts_S4x64x64x65_S4x65x64x64,
    nullary main_c_5 (constantI S_ 32 0#32),
    TRef.unary (.of main_c_5 : TRef sig ⟨S_, .i32⟩) main_call0.v0 (sitofp .f32),
    TRef.binary (.of main_v0 : TRef sig ⟨S4x65x64x64, .f32⟩) main_call0.v0 main_call0.v1 (fun x v => pad S4x65x66x66 ![0, 0, 1, 1] ![0, 0, 1, 1] ![0, 0, 0, 0] x v pads_S4x65x64x64_S4x65x66x66_000_000_110_110 h_S_),
    unary main_v1 main_v2 ((extractStridedSlice S4x65x64x64 ![0, 0, 0, 0] · slices_S4x65x66x66_S4x65x64x64_0_0_0_0) : (⟨S4x65x66x66, .f32⟩ : BufTy).Contents (Elt F) → (⟨S4x65x64x64, .f32⟩ : BufTy).Contents (Elt F)),
    unary main_v1 main_v3 ((extractStridedSlice S4x65x64x64 ![0, 0, 0, 1] · slices_S4x65x66x66_S4x65x64x64_0_0_0_1) : (⟨S4x65x66x66, .f32⟩ : BufTy).Contents (Elt F) → (⟨S4x65x64x64, .f32⟩ : BufTy).Contents (Elt F)),
    unary main_v1 main_v4 ((extractStridedSlice S4x65x64x64 ![0, 0, 0, 2] · slices_S4x65x66x66_S4x65x64x64_0_0_0_2) : (⟨S4x65x66x66, .f32⟩ : BufTy).Contents (Elt F) → (⟨S4x65x64x64, .f32⟩ : BufTy).Contents (Elt F)),
    unary main_v1 main_v5 ((extractStridedSlice S4x65x64x64 ![0, 0, 1, 0] · slices_S4x65x66x66_S4x65x64x64_0_0_1_0) : (⟨S4x65x66x66, .f32⟩ : BufTy).Contents (Elt F) → (⟨S4x65x64x64, .f32⟩ : BufTy).Contents (Elt F)),
    unary main_v1 main_v6 ((extractStridedSlice S4x65x64x64 ![0, 0, 1, 1] · slices_S4x65x66x66_S4x65x64x64_0_0_1_1) : (⟨S4x65x66x66, .f32⟩ : BufTy).Contents (Elt F) → (⟨S4x65x64x64, .f32⟩ : BufTy).Contents (Elt F)),
    unary main_v1 main_v7 ((extractStridedSlice S4x65x64x64 ![0, 0, 1, 2] · slices_S4x65x66x66_S4x65x64x64_0_0_1_2) : (⟨S4x65x66x66, .f32⟩ : BufTy).Contents (Elt F) → (⟨S4x65x64x64, .f32⟩ : BufTy).Contents (Elt F)),
    unary main_v1 main_v8 ((extractStridedSlice S4x65x64x64 ![0, 0, 2, 0] · slices_S4x65x66x66_S4x65x64x64_0_0_2_0) : (⟨S4x65x66x66, .f32⟩ : BufTy).Contents (Elt F) → (⟨S4x65x64x64, .f32⟩ : BufTy).Contents (Elt F)),
    unary main_v1 main_v9 ((extractStridedSlice S4x65x64x64 ![0, 0, 2, 1] · slices_S4x65x66x66_S4x65x64x64_0_0_2_1) : (⟨S4x65x66x66, .f32⟩ : BufTy).Contents (Elt F) → (⟨S4x65x64x64, .f32⟩ : BufTy).Contents (Elt F)),
    unary main_v1 main_v10 ((extractStridedSlice S4x65x64x64 ![0, 0, 2, 2] · slices_S4x65x66x66_S4x65x64x64_0_0_2_2) : (⟨S4x65x66x66, .f32⟩ : BufTy).Contents (Elt F) → (⟨S4x65x64x64, .f32⟩ : BufTy).Contents (Elt F)),
    unary main_v2 main_v11 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v3 main_v12 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v4 main_v13 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v5 main_v14 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v6 main_v15 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v7 main_v16 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v8 main_v17 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v9 main_v18 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v10 main_v19 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    nary ![main_v11, main_v12, main_v13, main_v14, main_v15, main_v16, main_v17, main_v18, main_v19] main_v20 (fun u => concatenate S4x65x9x64x64 2 [⟨S4x65x1x64x64, u 0⟩, ⟨S4x65x1x64x64, u 1⟩, ⟨S4x65x1x64x64, u 2⟩, ⟨S4x65x1x64x64, u 3⟩, ⟨S4x65x1x64x64, u 4⟩, ⟨S4x65x1x64x64, u 5⟩, ⟨S4x65x1x64x64, u 6⟩, ⟨S4x65x1x64x64, u 7⟩, ⟨S4x65x1x64x64, u 8⟩] concatenates_S4x65x1x64x64_S4x65x1x64x64_S4x65x1x64x64_S4x65x1x64x64_S4x65x1x64x64_S4x65x1x64x64_S4x65x1x64x64_S4x65x1x64x64_S4x65x1x64x64_S4x65x9x64x64_d2),
    reshape main_v20 main_v21 rfl shapeCasts_S4x65x9x64x64_S4x585x4096,
    unary main_v21 main_v22 ((transpose S4x4096x585 [0, 2, 1] · transposes_S4x585x4096_S4x4096x585_0_2_1) : (⟨S4x585x4096, .f32⟩ : BufTy).Contents (Elt F) → (⟨S4x4096x585, .f32⟩ : BufTy).Contents (Elt F)),
    reshape main_v22 main_v23 rfl shapeCasts_S4x4096x585_S4x4096x65x1x3x3,
    unary main_v23 main_v24 (broadcastInDim S4x4096x65x4x3x3 ![0, 1, 2, 3, 4, 5] bcast_S4x4096x65x1x3x3_S4x4096x65x4x3x3_0_1_2_3_4_5 : (⟨S4x4096x65x1x3x3, .f32⟩ : BufTy).Contents (Elt F) → (⟨S4x4096x65x4x3x3, .f32⟩ : BufTy).Contents (Elt F)),
    nullary main_c_6 (constantI S_ 32 4#32),
    unary main_c_6 main_v25 (broadcastInDim S36 ![] bcast_S_S36 : (⟨S_, .i32⟩ : BufTy).Contents (Elt F) → (⟨S36, .i32⟩ : BufTy).Contents (Elt F)),
    binary main_c main_v25 main_v26 (addi : (⟨S36, .i32⟩ : BufTy).Contents (Elt F) → (⟨S36, .i32⟩ : BufTy).Contents (Elt F) → (⟨S36, .i32⟩ : BufTy).Contents (Elt F)),
    ternary main_c_0 main_v26 main_c main_v27 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    nullary main_c_7 (constantI S_ 32 3#32),
    unary main_c_7 main_v28 (broadcastInDim S36 ![] bcast_S_S36 : (⟨S_, .i32⟩ : BufTy).Contents (Elt F) → (⟨S36, .i32⟩ : BufTy).Contents (Elt F)),
    binary main_c_1 main_v28 main_v29 (addi : (⟨S36, .i32⟩ : BufTy).Contents (Elt F) → (⟨S36, .i32⟩ : BufTy).Contents (Elt F) → (⟨S36, .i32⟩ : BufTy).Contents (Elt F)),
    ternary main_c_2 main_v29 main_c_1 main_v30 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    nullary main_c_8 (constantI S_ 32 3#32),
    unary main_c_8 main_v31 (broadcastInDim S36 ![] bcast_S_S36 : (⟨S_, .i32⟩ : BufTy).Contents (Elt F) → (⟨S36, .i32⟩ : BufTy).Contents (Elt F)),
    binary main_c_3 main_v31 main_v32 (addi : (⟨S36, .i32⟩ : BufTy).Contents (Elt F) → (⟨S36, .i32⟩ : BufTy).Contents (Elt F) → (⟨S36, .i32⟩ : BufTy).Contents (Elt F)),
    ternary main_c_4 main_v32 main_c_3 main_v33 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    unary main_v27 main_v34 (broadcastInDim S36x1 ![0] bcast_S36_S36x1_0 : (⟨S36, .i32⟩ : BufTy).Contents (Elt F) → (⟨S36x1, .i32⟩ : BufTy).Contents (Elt F)),
    unary main_v30 main_v35 (broadcastInDim S36x1 ![0] bcast_S36_S36x1_0 : (⟨S36, .i32⟩ : BufTy).Contents (Elt F) → (⟨S36x1, .i32⟩ : BufTy).Contents (Elt F)),
    unary main_v33 main_v36 (broadcastInDim S36x1 ![0] bcast_S36_S36x1_0 : (⟨S36, .i32⟩ : BufTy).Contents (Elt F) → (⟨S36x1, .i32⟩ : BufTy).Contents (Elt F)),
    nary ![main_v34, main_v35, main_v36] main_v37 (fun u => concatenate S36x3 1 [⟨S36x1, u 0⟩, ⟨S36x1, u 1⟩, ⟨S36x1, u 2⟩] concatenates_S36x1_S36x1_S36x1_S36x3_d1),
    binary main_v24 main_v37 main_v38 ((fun x i => Host.gather gather_S4x4096x65x4x3x3_S36x3_S4x4096x65x36_012_345_n_n_345_1_4409665111 x i) : (⟨S4x4096x65x4x3x3, .f32⟩ : BufTy).Contents (Elt F) → (⟨S36x3, .i32⟩ : BufTy).Contents (Elt F) → (⟨S4x4096x65x36, .f32⟩ : BufTy).Contents (Elt F)),
    reshape main_v38 main_v39 rfl shapeCasts_S4x4096x65x36_S4x4096x65x4x9,
    unary main_v39 main_v40 ((transpose S4x4x4096x65x9 [3, 0, 1, 2, 4] · transposes_S4x4096x65x4x9_S4x4x4096x65x9_3_0_1_2_4) : (⟨S4x4096x65x4x9, .f32⟩ : BufTy).Contents (Elt F) → (⟨S4x4x4096x65x9, .f32⟩ : BufTy).Contents (Elt F)),
    reshape main_v40 main_v41 rfl shapeCasts_S4x4x4096x65x9_S4x4x4096x585,
    nullary main_cst (constant S_ .f32 0x3F800000#32),
    unary main_cst main_v42 (Host.sqrt : (⟨S_, .f32⟩ : BufTy).Contents (Elt F) → (⟨S_, .f32⟩ : BufTy).Contents (Elt F)),
    unary main_v41 main_v43 ((extractStridedSlice S4x4x4096x9 ![0, 0, 0, 0] · slices_S4x4x4096x585_S4x4x4096x9_0_0_0_0) : (⟨S4x4x4096x585, .f32⟩ : BufTy).Contents (Elt F) → (⟨S4x4x4096x9, .f32⟩ : BufTy).Contents (Elt F)),
    unary main_v42 main_v44 (broadcastInDim S4x4x4096x9 ![] bcast_S_S4x4x4096x9 : (⟨S_, .f32⟩ : BufTy).Contents (Elt F) → (⟨S4x4x4096x9, .f32⟩ : BufTy).Contents (Elt F)),
    binary main_v43 main_v44 main_v45 (maximumf : (⟨S4x4x4096x9, .f32⟩ : BufTy).Contents (Elt F) → (⟨S4x4x4096x9, .f32⟩ : BufTy).Contents (Elt F) → (⟨S4x4x4096x9, .f32⟩ : BufTy).Contents (Elt F)),
    binary main_v45 main_v45 main_v46 (mulf : (⟨S4x4x4096x9, .f32⟩ : BufTy).Contents (Elt F) → (⟨S4x4x4096x9, .f32⟩ : BufTy).Contents (Elt F) → (⟨S4x4x4096x9, .f32⟩ : BufTy).Contents (Elt F)),
    nullary main_cst_9 (constant S_ .f32 0x00000000#32),
    binary main_v46 main_cst_9 main_v47 ((fun x v => Host.reduceAdd x v reducesTo_S4x4x4096x9_S4x4x4096_d3 h_S_) : (⟨S4x4x4096x9, .f32⟩ : BufTy).Contents (Elt F) → (⟨S_, .f32⟩ : BufTy).Contents (Elt F) → (⟨S4x4x4096, .f32⟩ : BufTy).Contents (Elt F)) ]
abbrev ops1 : List (HloOp τ sig (Elt F)) :=
  [ unary main_v47 main_v48 (broadcastInDim S4x4x4096x1 ![0, 1, 2] bcast_S4x4x4096_S4x4x4096x1_0_1_2 : (⟨S4x4x4096, .f32⟩ : BufTy).Contents (Elt F) → (⟨S4x4x4096x1, .f32⟩ : BufTy).Contents (Elt F)),
    nullary main_cst_10 (constant S_ .f32 0x41000000#32),
    unary main_cst_10 main_v49 (broadcastInDim S4x4x4096x1 ![] bcast_S_S4x4x4096x1 : (⟨S_, .f32⟩ : BufTy).Contents (Elt F) → (⟨S4x4x4096x1, .f32⟩ : BufTy).Contents (Elt F)),
    binary main_v48 main_v49 main_v50 (subf : (⟨S4x4x4096x1, .f32⟩ : BufTy).Contents (Elt F) → (⟨S4x4x4096x1, .f32⟩ : BufTy).Contents (Elt F) → (⟨S4x4x4096x1, .f32⟩ : BufTy).Contents (Elt F)),
    unary main_v50 main_v51 (Host.sqrt : (⟨S4x4x4096x1, .f32⟩ : BufTy).Contents (Elt F) → (⟨S4x4x4096x1, .f32⟩ : BufTy).Contents (Elt F)),
    unary main_v41 main_v52 ((extractStridedSlice S4x4x4096x576 ![0, 0, 0, 9] · slices_S4x4x4096x585_S4x4x4096x576_0_0_0_9) : (⟨S4x4x4096x585, .f32⟩ : BufTy).Contents (Elt F) → (⟨S4x4x4096x576, .f32⟩ : BufTy).Contents (Elt F)),
    reshape main_v52 main_v53 rfl shapeCasts_S4x4x4096x576_S4x4x4096x64x9,
    unary main_v53 main_v54 ((transpose S4x4x4096x9x64 [0, 1, 2, 4, 3] · transposes_S4x4x4096x64x9_S4x4x4096x9x64_0_1_2_4_3) : (⟨S4x4x4096x64x9, .f32⟩ : BufTy).Contents (Elt F) → (⟨S4x4x4096x9x64, .f32⟩ : BufTy).Contents (Elt F)),
    reshape main_v54 main_v55 rfl shapeCasts_S4x4x4096x9x64_S4x4x4096x576,
    binary main_v51 main_v55 main_v56 ((fun a b => concatenate S4x4x4096x577 3 [⟨S4x4x4096x1, a⟩, ⟨S4x4x4096x576, b⟩] concatenates_S4x4x4096x1_S4x4x4096x576_S4x4x4096x577_d3) : (⟨S4x4x4096x1, .f32⟩ : BufTy).Contents (Elt F) → (⟨S4x4x4096x576, .f32⟩ : BufTy).Contents (Elt F) → (⟨S4x4x4096x577, .f32⟩ : BufTy).Contents (Elt F)),
    binary main_v56 main_arg1 main_v57 ((fun l r => Host.dotGeneral dot_S4x4x4096x577_S256x577_S4x4x4096x256_3_1_012_0_n_n none l r) : (⟨S4x4x4096x577, .f32⟩ : BufTy).Contents (Elt F) → (⟨S256x577, .f32⟩ : BufTy).Contents (Elt F) → (⟨S4x4x4096x256, .f32⟩ : BufTy).Contents (Elt F)),
    unary main_arg2 main_v58 (broadcastInDim S1x1x1x256 ![3] bcast_S256_S1x1x1x256_3 : (⟨S256, .f32⟩ : BufTy).Contents (Elt F) → (⟨S1x1x1x256, .f32⟩ : BufTy).Contents (Elt F)),
    unary main_v58 main_v59 (broadcastInDim S4x4x4096x256 ![0, 1, 2, 3] bcast_S1x1x1x256_S4x4x4096x256_0_1_2_3 : (⟨S1x1x1x256, .f32⟩ : BufTy).Contents (Elt F) → (⟨S4x4x4096x256, .f32⟩ : BufTy).Contents (Elt F)),
    binary main_v57 main_v59 main_v60 (addf : (⟨S4x4x4096x256, .f32⟩ : BufTy).Contents (Elt F) → (⟨S4x4x4096x256, .f32⟩ : BufTy).Contents (Elt F) → (⟨S4x4x4096x256, .f32⟩ : BufTy).Contents (Elt F)),
    unary main_v60 main_v61 ((extractStridedSlice S4x4x4096x255 ![0, 0, 0, 1] · slices_S4x4x4096x256_S4x4x4096x255_0_0_0_1) : (⟨S4x4x4096x256, .f32⟩ : BufTy).Contents (Elt F) → (⟨S4x4x4096x255, .f32⟩ : BufTy).Contents (Elt F)),
    binary main_v61 main_v61 main_v62 (mulf : (⟨S4x4x4096x255, .f32⟩ : BufTy).Contents (Elt F) → (⟨S4x4x4096x255, .f32⟩ : BufTy).Contents (Elt F) → (⟨S4x4x4096x255, .f32⟩ : BufTy).Contents (Elt F)),
    nullary main_cst_11 (constant S_ .f32 0x00000000#32),
    binary main_v62 main_cst_11 main_v63 ((fun x v => Host.reduceAdd x v reducesTo_S4x4x4096x255_S4x4x4096_d3 h_S_) : (⟨S4x4x4096x255, .f32⟩ : BufTy).Contents (Elt F) → (⟨S_, .f32⟩ : BufTy).Contents (Elt F) → (⟨S4x4x4096, .f32⟩ : BufTy).Contents (Elt F)),
    unary main_v63 main_v64 (broadcastInDim S4x4x4096x1 ![0, 1, 2] bcast_S4x4x4096_S4x4x4096x1_0_1_2 : (⟨S4x4x4096, .f32⟩ : BufTy).Contents (Elt F) → (⟨S4x4x4096x1, .f32⟩ : BufTy).Contents (Elt F)),
    nullary main_cst_12 (constant S_ .f32 0x3F800000#32),
    unary main_cst_12 main_v65 (broadcastInDim S4x4x4096x1 ![] bcast_S_S4x4x4096x1 : (⟨S_, .f32⟩ : BufTy).Contents (Elt F) → (⟨S4x4x4096x1, .f32⟩ : BufTy).Contents (Elt F)),
    binary main_v64 main_v65 main_v66 (addf : (⟨S4x4x4096x1, .f32⟩ : BufTy).Contents (Elt F) → (⟨S4x4x4096x1, .f32⟩ : BufTy).Contents (Elt F) → (⟨S4x4x4096x1, .f32⟩ : BufTy).Contents (Elt F)),
    unary main_v66 main_v67 (Host.sqrt : (⟨S4x4x4096x1, .f32⟩ : BufTy).Contents (Elt F) → (⟨S4x4x4096x1, .f32⟩ : BufTy).Contents (Elt F)),
    binary main_v67 main_v61 main_v68 ((fun a b => concatenate S4x4x4096x256 3 [⟨S4x4x4096x1, a⟩, ⟨S4x4x4096x255, b⟩] concatenates_S4x4x4096x1_S4x4x4096x255_S4x4x4096x256_d3) : (⟨S4x4x4096x1, .f32⟩ : BufTy).Contents (Elt F) → (⟨S4x4x4096x255, .f32⟩ : BufTy).Contents (Elt F) → (⟨S4x4x4096x256, .f32⟩ : BufTy).Contents (Elt F)),
    unary main_v68 main_v69 ((transpose S4x4x4096x256 [1, 0, 2, 3] · transposes_S4x4x4096x256_S4x4x4096x256_1_0_2_3) : (⟨S4x4x4096x256, .f32⟩ : BufTy).Contents (Elt F) → (⟨S4x4x4096x256, .f32⟩ : BufTy).Contents (Elt F)),
    reshape main_v69 main_v70 rfl shapeCasts_S4x4x4096x256_S4x4x64x64x256 ]

theorem ops_eq : (ops : List (HloOp τ sig (Elt F))) = ops0 ++ ops1 := rfl

set_option maxHeartbeats 4000000 in
/-- The first window is its operations in order: the padding function unfolded at its call, the sequencing
    reassociated to the right, both by computation. -/
theorem part0_eq (c : Dev nD) : main_part0 (F := F) c = seq ops0 := rfl

theorem part1_eq (c : Dev nD) : main_part1 (F := F) c = seq ops1 := rfl

/-- @main is the straight line of its 87 operations. -/
theorem main_eq (c : Dev nD) : main (F := F) c = seq ops := by
  rw [ops_eq, seq_append, ← part0_eq, ← part1_eq]; rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., reshape_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., reshape_bufs_sub .., unary_bufs_sub .., nullary_bufs_sub .., unary_bufs_sub .., binary_bufs_sub .., ternary_bufs_sub .., nullary_bufs_sub .., unary_bufs_sub .., binary_bufs_sub .., ternary_bufs_sub .., nullary_bufs_sub .., unary_bufs_sub .., binary_bufs_sub .., ternary_bufs_sub .., unary_bufs_sub .., unary_bufs_sub .., unary_bufs_sub .., nary_bufs_sub .., binary_bufs_sub .., reshape_bufs_sub .., unary_bufs_sub .., reshape_bufs_sub .., nullary_bufs_sub .., unary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., reshape_bufs_sub .., unary_bufs_sub .., reshape_bufs_sub .., binary_bufs_sub .., binary_bufs_sub .., unary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., unary_bufs_sub .., reshape_bufs_sub ..⟩

/-- Every weakly fair execution of @main terminates, and every final state has each buffer at the fold of the
    operations' results over the contents at the start. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The line in four stretches

The first stretch ends at the patch array (main_v22), the second at the rotated patch rows (main_v41), the third at
the feature rows (main_v56), the last at the result (main_v70).  Each stretch is read from an arbitrary start, so
that what the earlier stretches left enters only as the contents of a few buffers. -/

abbrev opsP : List (HloOp τ sig (Elt F)) :=
  [ nullary main_c (constantI S36 32 0#32),
    nullary main_c_0 (constantI S36 1 0#1),
    nullary main_c_1 (fun i => lit0 (S36.rowMajor i)),
    nullary main_c_2 (constantI S36 1 0#1),
    nullary main_c_3 (fun i => lit1 (S36.rowMajor i)),
    nullary main_c_4 (constantI S36 1 0#1),
    reshape main_arg0 main_v0 rfl shapeCasts_S4x64x64x65_S4x65x64x64,
    nullary main_c_5 (constantI S_ 32 0#32),
    TRef.unary (.of main_c_5 : TRef sig ⟨S_, .i32⟩) main_call0.v0 (sitofp .f32),
    TRef.binary (.of main_v0 : TRef sig ⟨S4x65x64x64, .f32⟩) main_call0.v0 main_call0.v1 (fun x v => pad S4x65x66x66 ![0, 0, 1, 1] ![0, 0, 1, 1] ![0, 0, 0, 0] x v pads_S4x65x64x64_S4x65x66x66_000_000_110_110 h_S_),
    unary main_v1 main_v2 ((extractStridedSlice S4x65x64x64 ![0, 0, 0, 0] · slices_S4x65x66x66_S4x65x64x64_0_0_0_0) : (⟨S4x65x66x66, .f32⟩ : BufTy).Contents (Elt F) → (⟨S4x65x64x64, .f32⟩ : BufTy).Contents (Elt F)),
    unary main_v1 main_v3 ((extractStridedSlice S4x65x64x64 ![0, 0, 0, 1] · slices_S4x65x66x66_S4x65x64x64_0_0_0_1) : (⟨S4x65x66x66, .f32⟩ : BufTy).Contents (Elt F) → (⟨S4x65x64x64, .f32⟩ : BufTy).Contents (Elt F)),
    unary main_v1 main_v4 ((extractStridedSlice S4x65x64x64 ![0, 0, 0, 2] · slices_S4x65x66x66_S4x65x64x64_0_0_0_2) : (⟨S4x65x66x66, .f32⟩ : BufTy).Contents (Elt F) → (⟨S4x65x64x64, .f32⟩ : BufTy).Contents (Elt F)),
    unary main_v1 main_v5 ((extractStridedSlice S4x65x64x64 ![0, 0, 1, 0] · slices_S4x65x66x66_S4x65x64x64_0_0_1_0) : (⟨S4x65x66x66, .f32⟩ : BufTy).Contents (Elt F) → (⟨S4x65x64x64, .f32⟩ : BufTy).Contents (Elt F)),
    unary main_v1 main_v6 ((extractStridedSlice S4x65x64x64 ![0, 0, 1, 1] · slices_S4x65x66x66_S4x65x64x64_0_0_1_1) : (⟨S4x65x66x66, .f32⟩ : BufTy).Contents (Elt F) → (⟨S4x65x64x64, .f32⟩ : BufTy).Contents (Elt F)),
    unary main_v1 main_v7 ((extractStridedSlice S4x65x64x64 ![0, 0, 1, 2] · slices_S4x65x66x66_S4x65x64x64_0_0_1_2) : (⟨S4x65x66x66, .f32⟩ : BufTy).Contents (Elt F) → (⟨S4x65x64x64, .f32⟩ : BufTy).Contents (Elt F)),
    unary main_v1 main_v8 ((extractStridedSlice S4x65x64x64 ![0, 0, 2, 0] · slices_S4x65x66x66_S4x65x64x64_0_0_2_0) : (⟨S4x65x66x66, .f32⟩ : BufTy).Contents (Elt F) → (⟨S4x65x64x64, .f32⟩ : BufTy).Contents (Elt F)),
    unary main_v1 main_v9 ((extractStridedSlice S4x65x64x64 ![0, 0, 2, 1] · slices_S4x65x66x66_S4x65x64x64_0_0_2_1) : (⟨S4x65x66x66, .f32⟩ : BufTy).Contents (Elt F) → (⟨S4x65x64x64, .f32⟩ : BufTy).Contents (Elt F)),
    unary main_v1 main_v10 ((extractStridedSlice S4x65x64x64 ![0, 0, 2, 2] · slices_S4x65x66x66_S4x65x64x64_0_0_2_2) : (⟨S4x65x66x66, .f32⟩ : BufTy).Contents (Elt F) → (⟨S4x65x64x64, .f32⟩ : BufTy).Contents (Elt F)),
    unary main_v2 main_v11 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v3 main_v12 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v4 main_v13 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v5 main_v14 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v6 main_v15 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v7 main_v16 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v8 main_v17 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v9 main_v18 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    unary main_v10 main_v19 (broadcastInDim S4x65x1x64x64 ![0, 1, 3, 4] bcast_S4x65x64x64_S4x65x1x64x64_0_1_3_4 : (⟨S4x65x64x64, .f32⟩ : BufTy).Contents (Elt F) → (⟨S4x65x1x64x64, .f32⟩ : BufTy).Contents (Elt F)),
    nary ![main_v11, main_v12, main_v13, main_v14, main_v15, main_v16, main_v17, main_v18, main_v19] main_v20 (fun u => concatenate S4x65x9x64x64 2 [⟨S4x65x1x64x64, u 0⟩, ⟨S4x65x1x64x64, u 1⟩, ⟨S4x65x1x64x64, u 2⟩, ⟨S4x65x1x64x64, u 3⟩, ⟨S4x65x1x64x64, u 4⟩, ⟨S4x65x1x64x64, u 5⟩, ⟨S4x65x1x64x64, u 6⟩, ⟨S4x65x1x64x64, u 7⟩, ⟨S4x65x1x64x64, u 8⟩] concatenates_S4x65x1x64x64_S4x65x1x64x64_S4x65x1x64x64_S4x65x1x64x64_S4x65x1x64x64_S4x65x1x64x64_S4x65x1x64x64_S4x65x1x64x64_S4x65x1x64x64_S4x65x9x64x64_d2),
    reshape main_v20 main_v21 rfl shapeCasts_S4x65x9x64x64_S4x585x4096,
    unary main_v21 main_v22 ((transpose S4x4096x585 [0, 2, 1] · transposes_S4x585x4096_S4x4096x585_0_2_1) : (⟨S4x585x4096, .f32⟩ : BufTy).Contents (Elt F) → (⟨S4x4096x585, .f32⟩ : BufTy).Contents (Elt F)) ]

abbrev opsR : List (HloOp τ sig (Elt F)) :=
  [ reshape main_v22 main_v23 rfl shapeCasts_S4x4096x585_S4x4096x65x1x3x3,
    unary main_v23 main_v24 (broadcastInDim S4x4096x65x4x3x3 ![0, 1, 2, 3, 4, 5] bcast_S4x4096x65x1x3x3_S4x4096x65x4x3x3_0_1_2_3_4_5 : (⟨S4x4096x65x1x3x3, .f32⟩ : BufTy).Contents (Elt F) → (⟨S4x4096x65x4x3x3, .f32⟩ : BufTy).Contents (Elt F)),
    nullary main_c_6 (constantI S_ 32 4#32),
    unary main_c_6 main_v25 (broadcastInDim S36 ![] bcast_S_S36 : (⟨S_, .i32⟩ : BufTy).Contents (Elt F) → (⟨S36, .i32⟩ : BufTy).Contents (Elt F)),
    binary main_c main_v25 main_v26 (addi : (⟨S36, .i32⟩ : BufTy).Contents (Elt F) → (⟨S36, .i32⟩ : BufTy).Contents (Elt F) → (⟨S36, .i32⟩ : BufTy).Contents (Elt F)),
    ternary main_c_0 main_v26 main_c main_v27 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    nullary main_c_7 (constantI S_ 32 3#32),
    unary main_c_7 main_v28 (broadcastInDim S36 ![] bcast_S_S36 : (⟨S_, .i32⟩ : BufTy).Contents (Elt F) → (⟨S36, .i32⟩ : BufTy).Contents (Elt F)),
    binary main_c_1 main_v28 main_v29 (addi : (⟨S36, .i32⟩ : BufTy).Contents (Elt F) → (⟨S36, .i32⟩ : BufTy).Contents (Elt F) → (⟨S36, .i32⟩ : BufTy).Contents (Elt F)),
    ternary main_c_2 main_v29 main_c_1 main_v30 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    nullary main_c_8 (constantI S_ 32 3#32),
    unary main_c_8 main_v31 (broadcastInDim S36 ![] bcast_S_S36 : (⟨S_, .i32⟩ : BufTy).Contents (Elt F) → (⟨S36, .i32⟩ : BufTy).Contents (Elt F)),
    binary main_c_3 main_v31 main_v32 (addi : (⟨S36, .i32⟩ : BufTy).Contents (Elt F) → (⟨S36, .i32⟩ : BufTy).Contents (Elt F) → (⟨S36, .i32⟩ : BufTy).Contents (Elt F)),
    ternary main_c_4 main_v32 main_c_3 main_v33 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    unary main_v27 main_v34 (broadcastInDim S36x1 ![0] bcast_S36_S36x1_0 : (⟨S36, .i32⟩ : BufTy).Contents (Elt F) → (⟨S36x1, .i32⟩ : BufTy).Contents (Elt F)),
    unary main_v30 main_v35 (broadcastInDim S36x1 ![0] bcast_S36_S36x1_0 : (⟨S36, .i32⟩ : BufTy).Contents (Elt F) → (⟨S36x1, .i32⟩ : BufTy).Contents (Elt F)),
    unary main_v33 main_v36 (broadcastInDim S36x1 ![0] bcast_S36_S36x1_0 : (⟨S36, .i32⟩ : BufTy).Contents (Elt F) → (⟨S36x1, .i32⟩ : BufTy).Contents (Elt F)),
    nary ![main_v34, main_v35, main_v36] main_v37 (fun u => concatenate S36x3 1 [⟨S36x1, u 0⟩, ⟨S36x1, u 1⟩, ⟨S36x1, u 2⟩] concatenates_S36x1_S36x1_S36x1_S36x3_d1),
    binary main_v24 main_v37 main_v38 ((fun x i => Host.gather gather_S4x4096x65x4x3x3_S36x3_S4x4096x65x36_012_345_n_n_345_1_4409665111 x i) : (⟨S4x4096x65x4x3x3, .f32⟩ : BufTy).Contents (Elt F) → (⟨S36x3, .i32⟩ : BufTy).Contents (Elt F) → (⟨S4x4096x65x36, .f32⟩ : BufTy).Contents (Elt F)),
    reshape main_v38 main_v39 rfl shapeCasts_S4x4096x65x36_S4x4096x65x4x9,
    unary main_v39 main_v40 ((transpose S4x4x4096x65x9 [3, 0, 1, 2, 4] · transposes_S4x4096x65x4x9_S4x4x4096x65x9_3_0_1_2_4) : (⟨S4x4096x65x4x9, .f32⟩ : BufTy).Contents (Elt F) → (⟨S4x4x4096x65x9, .f32⟩ : BufTy).Contents (Elt F)),
    reshape main_v40 main_v41 rfl shapeCasts_S4x4x4096x65x9_S4x4x4096x585 ]

abbrev opsT : List (HloOp τ sig (Elt F)) :=
  [ nullary main_cst (constant S_ .f32 0x3F800000#32),
    unary main_cst main_v42 (Host.sqrt : (⟨S_, .f32⟩ : BufTy).Contents (Elt F) → (⟨S_, .f32⟩ : BufTy).Contents (Elt F)),
    unary main_v41 main_v43 ((extractStridedSlice S4x4x4096x9 ![0, 0, 0, 0] · slices_S4x4x4096x585_S4x4x4096x9_0_0_0_0) : (⟨S4x4x4096x585, .f32⟩ : BufTy).Contents (Elt F) → (⟨S4x4x4096x9, .f32⟩ : BufTy).Contents (Elt F)),
    unary main_v42 main_v44 (broadcastInDim S4x4x4096x9 ![] bcast_S_S4x4x4096x9 : (⟨S_, .f32⟩ : BufTy).Contents (Elt F) → (⟨S4x4x4096x9, .f32⟩ : BufTy).Contents (Elt F)),
    binary main_v43 main_v44 main_v45 (maximumf : (⟨S4x4x4096x9, .f32⟩ : BufTy).Contents (Elt F) → (⟨S4x4x4096x9, .f32⟩ : BufTy).Contents (Elt F) → (⟨S4x4x4096x9, .f32⟩ : BufTy).Contents (Elt F)),
    binary main_v45 main_v45 main_v46 (mulf : (⟨S4x4x4096x9, .f32⟩ : BufTy).Contents (Elt F) → (⟨S4x4x4096x9, .f32⟩ : BufTy).Contents (Elt F) → (⟨S4x4x4096x9, .f32⟩ : BufTy).Contents (Elt F)),
    nullary main_cst_9 (constant S_ .f32 0x00000000#32),
    binary main_v46 main_cst_9 main_v47 ((fun x v => Host.reduceAdd x v reducesTo_S4x4x4096x9_S4x4x4096_d3 h_S_) : (⟨S4x4x4096x9, .f32⟩ : BufTy).Contents (Elt F) → (⟨S_, .f32⟩ : BufTy).Contents (Elt F) → (⟨S4x4x4096, .f32⟩ : BufTy).Contents (Elt F)),
    unary main_v47 main_v48 (broadcastInDim S4x4x4096x1 ![0, 1, 2] bcast_S4x4x4096_S4x4x4096x1_0_1_2 : (⟨S4x4x4096, .f32⟩ : BufTy).Contents (Elt F) → (⟨S4x4x4096x1, .f32⟩ : BufTy).Contents (Elt F)),
    nullary main_cst_10 (constant S_ .f32 0x41000000#32),
    unary main_cst_10 main_v49 (broadcastInDim S4x4x4096x1 ![] bcast_S_S4x4x4096x1 : (⟨S_, .f32⟩ : BufTy).Contents (Elt F) → (⟨S4x4x4096x1, .f32⟩ : BufTy).Contents (Elt F)),
    binary main_v48 main_v49 main_v50 (subf : (⟨S4x4x4096x1, .f32⟩ : BufTy).Contents (Elt F) → (⟨S4x4x4096x1, .f32⟩ : BufTy).Contents (Elt F) → (⟨S4x4x4096x1, .f32⟩ : BufTy).Contents (Elt F)),
    unary main_v50 main_v51 (Host.sqrt : (⟨S4x4x4096x1, .f32⟩ : BufTy).Contents (Elt F) → (⟨S4x4x4096x1, .f32⟩ : BufTy).Contents (Elt F)),
    unary main_v41 main_v52 ((extractStridedSlice S4x4x4096x576 ![0, 0, 0, 9] · slices_S4x4x4096x585_S4x4x4096x576_0_0_0_9) : (⟨S4x4x4096x585, .f32⟩ : BufTy).Contents (Elt F) → (⟨S4x4x4096x576, .f32⟩ : BufTy).Contents (Elt F)),
    reshape main_v52 main_v53 rfl shapeCasts_S4x4x4096x576_S4x4x4096x64x9,
    unary main_v53 main_v54 ((transpose S4x4x4096x9x64 [0, 1, 2, 4, 3] · transposes_S4x4x4096x64x9_S4x4x4096x9x64_0_1_2_4_3) : (⟨S4x4x4096x64x9, .f32⟩ : BufTy).Contents (Elt F) → (⟨S4x4x4096x9x64, .f32⟩ : BufTy).Contents (Elt F)),
    reshape main_v54 main_v55 rfl shapeCasts_S4x4x4096x9x64_S4x4x4096x576,
    binary main_v51 main_v55 main_v56 ((fun a b => concatenate S4x4x4096x577 3 [⟨S4x4x4096x1, a⟩, ⟨S4x4x4096x576, b⟩] concatenates_S4x4x4096x1_S4x4x4096x576_S4x4x4096x577_d3) : (⟨S4x4x4096x1, .f32⟩ : BufTy).Contents (Elt F) → (⟨S4x4x4096x576, .f32⟩ : BufTy).Contents (Elt F) → (⟨S4x4x4096x577, .f32⟩ : BufTy).Contents (Elt F)) ]

abbrev opsO : List (HloOp τ sig (Elt F)) :=
  [ binary main_v56 main_arg1 main_v57 ((fun l r => Host.dotGeneral dot_S4x4x4096x577_S256x577_S4x4x4096x256_3_1_012_0_n_n none l r) : (⟨S4x4x4096x577, .f32⟩ : BufTy).Contents (Elt F) → (⟨S256x577, .f32⟩ : BufTy).Contents (Elt F) → (⟨S4x4x4096x256, .f32⟩ : BufTy).Contents (Elt F)),
    unary main_arg2 main_v58 (broadcastInDim S1x1x1x256 ![3] bcast_S256_S1x1x1x256_3 : (⟨S256, .f32⟩ : BufTy).Contents (Elt F) → (⟨S1x1x1x256, .f32⟩ : BufTy).Contents (Elt F)),
    unary main_v58 main_v59 (broadcastInDim S4x4x4096x256 ![0, 1, 2, 3] bcast_S1x1x1x256_S4x4x4096x256_0_1_2_3 : (⟨S1x1x1x256, .f32⟩ : BufTy).Contents (Elt F) → (⟨S4x4x4096x256, .f32⟩ : BufTy).Contents (Elt F)),
    binary main_v57 main_v59 main_v60 (addf : (⟨S4x4x4096x256, .f32⟩ : BufTy).Contents (Elt F) → (⟨S4x4x4096x256, .f32⟩ : BufTy).Contents (Elt F) → (⟨S4x4x4096x256, .f32⟩ : BufTy).Contents (Elt F)),
    unary main_v60 main_v61 ((extractStridedSlice S4x4x4096x255 ![0, 0, 0, 1] · slices_S4x4x4096x256_S4x4x4096x255_0_0_0_1) : (⟨S4x4x4096x256, .f32⟩ : BufTy).Contents (Elt F) → (⟨S4x4x4096x255, .f32⟩ : BufTy).Contents (Elt F)),
    binary main_v61 main_v61 main_v62 (mulf : (⟨S4x4x4096x255, .f32⟩ : BufTy).Contents (Elt F) → (⟨S4x4x4096x255, .f32⟩ : BufTy).Contents (Elt F) → (⟨S4x4x4096x255, .f32⟩ : BufTy).Contents (Elt F)),
    nullary main_cst_11 (constant S_ .f32 0x00000000#32),
    binary main_v62 main_cst_11 main_v63 ((fun x v => Host.reduceAdd x v reducesTo_S4x4x4096x255_S4x4x4096_d3 h_S_) : (⟨S4x4x4096x255, .f32⟩ : BufTy).Contents (Elt F) → (⟨S_, .f32⟩ : BufTy).Contents (Elt F) → (⟨S4x4x4096, .f32⟩ : BufTy).Contents (Elt F)),
    unary main_v63 main_v64 (broadcastInDim S4x4x4096x1 ![0, 1, 2] bcast_S4x4x4096_S4x4x4096x1_0_1_2 : (⟨S4x4x4096, .f32⟩ : BufTy).Contents (Elt F) → (⟨S4x4x4096x1, .f32⟩ : BufTy).Contents (Elt F)),
    nullary main_cst_12 (constant S_ .f32 0x3F800000#32),
    unary main_cst_12 main_v65 (broadcastInDim S4x4x4096x1 ![] bcast_S_S4x4x4096x1 : (⟨S_, .f32⟩ : BufTy).Contents (Elt F) → (⟨S4x4x4096x1, .f32⟩ : BufTy).Contents (Elt F)),
    binary main_v64 main_v65 main_v66 (addf : (⟨S4x4x4096x1, .f32⟩ : BufTy).Contents (Elt F) → (⟨S4x4x4096x1, .f32⟩ : BufTy).Contents (Elt F) → (⟨S4x4x4096x1, .f32⟩ : BufTy).Contents (Elt F)),
    unary main_v66 main_v67 (Host.sqrt : (⟨S4x4x4096x1, .f32⟩ : BufTy).Contents (Elt F) → (⟨S4x4x4096x1, .f32⟩ : BufTy).Contents (Elt F)),
    binary main_v67 main_v61 main_v68 ((fun a b => concatenate S4x4x4096x256 3 [⟨S4x4x4096x1, a⟩, ⟨S4x4x4096x255, b⟩] concatenates_S4x4x4096x1_S4x4x4096x255_S4x4x4096x256_d3) : (⟨S4x4x4096x1, .f32⟩ : BufTy).Contents (Elt F) → (⟨S4x4x4096x255, .f32⟩ : BufTy).Contents (Elt F) → (⟨S4x4x4096x256, .f32⟩ : BufTy).Contents (Elt F)),
    unary main_v68 main_v69 ((transpose S4x4x4096x256 [1, 0, 2, 3] · transposes_S4x4x4096x256_S4x4x4096x256_1_0_2_3) : (⟨S4x4x4096x256, .f32⟩ : BufTy).Contents (Elt F) → (⟨S4x4x4096x256, .f32⟩ : BufTy).Contents (Elt F)),
    reshape main_v69 main_v70 rfl shapeCasts_S4x4x4096x256_S4x4x64x64x256 ]

theorem ops_split : (ops : List (HloOp τ sig (Elt F))) = opsP ++ (opsR ++ (opsT ++ opsO)) := rfl

/-! ## The four concatenations

A concatenation takes its operands inside a list of shape-and-array pairs.  Each of the program's four
concatenations is named here as a plain function of its operands, and the operation's result stated as that
function of the operands' contents at their own references. -/

/-- The nine windows stacked along the kernel-position axis (main_v20). -/
def cat20 (a0 a1 a2 a3 a4 a5 a6 a7 a8 : (⟨S4x65x1x64x64, .f32⟩ : BufTy).Contents (Elt F)) : (⟨S4x65x9x64x64, .f32⟩ : BufTy).Contents (Elt F) :=
  concatenate S4x65x9x64x64 2 [⟨S4x65x1x64x64, a0⟩, ⟨S4x65x1x64x64, a1⟩, ⟨S4x65x1x64x64, a2⟩, ⟨S4x65x1x64x64, a3⟩, ⟨S4x65x1x64x64, a4⟩, ⟨S4x65x1x64x64, a5⟩, ⟨S4x65x1x64x64, a6⟩, ⟨S4x65x1x64x64, a7⟩, ⟨S4x65x1x64x64, a8⟩]
    concatenates_S4x65x1x64x64_S4x65x1x64x64_S4x65x1x64x64_S4x65x1x64x64_S4x65x1x64x64_S4x65x1x64x64_S4x65x1x64x64_S4x65x1x64x64_S4x65x1x64x64_S4x65x9x64x64_d2

/-- The three columns of the index table side by side (main_v37). -/
def cat37 (a0 a1 a2 : (⟨S36x1, .i32⟩ : BufTy).Contents (Elt F)) : (⟨S36x3, .i32⟩ : BufTy).Contents (Elt F) :=
  concatenate S36x3 1 [⟨S36x1, a0⟩, ⟨S36x1, a1⟩, ⟨S36x1, a2⟩] concatenates_S36x1_S36x1_S36x1_S36x3_d1

/-- The time feature in front of the space features (main_v56). -/
def cat56 (a : (⟨S4x4x4096x1, .f32⟩ : BufTy).Contents (Elt F)) (b : (⟨S4x4x4096x576, .f32⟩ : BufTy).Contents (Elt F)) : (⟨S4x4x4096x577, .f32⟩ : BufTy).Contents (Elt F) :=
  concatenate S4x4x4096x577 3 [⟨S4x4x4096x1, a⟩, ⟨S4x4x4096x576, b⟩] concatenates_S4x4x4096x1_S4x4x4096x576_S4x4x4096x577_d3

/-- The recomputed time component in front of columns 1 … 255 (main_v68). -/
def cat68 (a : (⟨S4x4x4096x1, .f32⟩ : BufTy).Contents (Elt F)) (b : (⟨S4x4x4096x255, .f32⟩ : BufTy).Contents (Elt F)) : (⟨S4x4x4096x256, .f32⟩ : BufTy).Contents (Elt F) :=
  concatenate S4x4x4096x256 3 [⟨S4x4x4096x1, a⟩, ⟨S4x4x4096x255, b⟩] concatenates_S4x4x4096x1_S4x4x4096x255_S4x4x4096x256_d3

theorem v20_result (G : Valuation τ sig (Elt F)) :
    (nary ![main_v11, main_v12, main_v13, main_v14, main_v15, main_v16, main_v17, main_v18, main_v19] main_v20 (fun u => concatenate S4x65x9x64x64 2 [⟨S4x65x1x64x64, u 0⟩, ⟨S4x65x1x64x64, u 1⟩, ⟨S4x65x1x64x64, u 2⟩, ⟨S4x65x1x64x64, u 3⟩, ⟨S4x65x1x64x64, u 4⟩, ⟨S4x65x1x64x64, u 5⟩, ⟨S4x65x1x64x64, u 6⟩, ⟨S4x65x1x64x64, u 7⟩, ⟨S4x65x1x64x64, u 8⟩] concatenates_S4x65x1x64x64_S4x65x1x64x64_S4x65x1x64x64_S4x65x1x64x64_S4x65x1x64x64_S4x65x1x64x64_S4x65x1x64x64_S4x65x1x64x64_S4x65x1x64x64_S4x65x9x64x64_d2) : HloOp τ sig (Elt F)).result G (no_index (Proc.devRef .tc main_v20))
      = cat20 (G (Proc.devRef .tc main_v11)) (G (Proc.devRef .tc main_v12)) (G (Proc.devRef .tc main_v13)) (G (Proc.devRef .tc main_v14)) (G (Proc.devRef .tc main_v15)) (G (Proc.devRef .tc main_v16)) (G (Proc.devRef .tc main_v17)) (G (Proc.devRef .tc main_v18)) (G (Proc.devRef .tc main_v19)) :=
  nary_result _ _ _ _ _ G

theorem v37_result (G : Valuation τ sig (Elt F)) :
    (nary ![main_v34, main_v35, main_v36] main_v37 (fun u => concatenate S36x3 1 [⟨S36x1, u 0⟩, ⟨S36x1, u 1⟩, ⟨S36x1, u 2⟩] concatenates_S36x1_S36x1_S36x1_S36x3_d1) : HloOp τ sig (Elt F)).result G (no_index (Proc.devRef .tc main_v37))
      = cat37 (G (Proc.devRef .tc main_v34)) (G (Proc.devRef .tc main_v35)) (G (Proc.devRef .tc main_v36)) :=
  nary_result _ _ _ _ _ G

theorem v56_result (G : Valuation τ sig (Elt F)) :
    (binary main_v51 main_v55 main_v56 ((fun a b => concatenate S4x4x4096x577 3 [⟨S4x4x4096x1, a⟩, ⟨S4x4x4096x576, b⟩] concatenates_S4x4x4096x1_S4x4x4096x576_S4x4x4096x577_d3) : (⟨S4x4x4096x1, .f32⟩ : BufTy).Contents (Elt F) → (⟨S4x4x4096x576, .f32⟩ : BufTy).Contents (Elt F) → (⟨S4x4x4096x577, .f32⟩ : BufTy).Contents (Elt F)) : HloOp τ sig (Elt F)).result G (no_index (Proc.devRef .tc main_v56))
      = cat56 (G (Proc.devRef .tc main_v51)) (G (Proc.devRef .tc main_v55)) :=
  binary_result _ _ _ _ _ _ _ G

theorem v68_result (G : Valuation τ sig (Elt F)) :
    (binary main_v67 main_v61 main_v68 ((fun a b => concatenate S4x4x4096x256 3 [⟨S4x4x4096x1, a⟩, ⟨S4x4x4096x255, b⟩] concatenates_S4x4x4096x1_S4x4x4096x255_S4x4x4096x256_d3) : (⟨S4x4x4096x1, .f32⟩ : BufTy).Contents (Elt F) → (⟨S4x4x4096x255, .f32⟩ : BufTy).Contents (Elt F) → (⟨S4x4x4096x256, .f32⟩ : BufTy).Contents (Elt F)) : HloOp τ sig (Elt F)).result G (no_index (Proc.devRef .tc main_v68))
      = cat68 (G (Proc.devRef .tc main_v67)) (G (Proc.devRef .tc main_v61)) :=
  binary_result _ _ _ _ _ _ _ G

/-- The fold of a literal line of operations at a buffer: each operation's result at its own buffer is its function
    of the operands' contents, and at any other buffer what was there; the four concatenations by their own
    statements. -/
macro "line_results" : tactic =>
  `(tactic| simp (disch := decide) only [after_cons, after_nil,
      ↓v20_result, ↓v37_result, ↓v56_result, ↓v68_result,
      nullary_result', unary_result', binary_result', ternary_result', reshape_result',
      nullary_result_ne', unary_result_ne', binary_result_ne', ternary_result_ne', reshape_result_ne', nary_result_ne'])

/-! ## What each stretch keeps -/

theorem P_arg0 (V : Valuation τ sig (Elt F)) :
    after opsP V (main_arg0 : DevRef τ sig) = V (main_arg0 : DevRef τ sig) := by
  line_results

theorem P_arg1 (V : Valuation τ sig (Elt F)) :
    after opsP V (main_arg1 : DevRef τ sig) = V (main_arg1 : DevRef τ sig) := by
  line_results

theorem P_arg2 (V : Valuation τ sig (Elt F)) :
    after opsP V (main_arg2 : DevRef τ sig) = V (main_arg2 : DevRef τ sig) := by
  line_results

theorem R_arg0 (V : Valuation τ sig (Elt F)) :
    after opsR V (main_arg0 : DevRef τ sig) = V (main_arg0 : DevRef τ sig) := by
  line_results

theorem R_arg1 (V : Valuation τ sig (Elt F)) :
    after opsR V (main_arg1 : DevRef τ sig) = V (main_arg1 : DevRef τ sig) := by
  line_results

theorem R_arg2 (V : Valuation τ sig (Elt F)) :
    after opsR V (main_arg2 : DevRef τ sig) = V (main_arg2 : DevRef τ sig) := by
  line_results

theorem T_arg0 (V : Valuation τ sig (Elt F)) :
    after opsT V (main_arg0 : DevRef τ sig) = V (main_arg0 : DevRef τ sig) := by
  line_results

theorem T_arg1 (V : Valuation τ sig (Elt F)) :
    after opsT V (main_arg1 : DevRef τ sig) = V (main_arg1 : DevRef τ sig) := by
  line_results

theorem T_arg2 (V : Valuation τ sig (Elt F)) :
    after opsT V (main_arg2 : DevRef τ sig) = V (main_arg2 : DevRef τ sig) := by
  line_results

theorem O_arg0 (V : Valuation τ sig (Elt F)) :
    after opsO V (main_arg0 : DevRef τ sig) = V (main_arg0 : DevRef τ sig) := by
  line_results

theorem O_arg1 (V : Valuation τ sig (Elt F)) :
    after opsO V (main_arg1 : DevRef τ sig) = V (main_arg1 : DevRef τ sig) := by
  line_results

theorem O_arg2 (V : Valuation τ sig (Elt F)) :
    after opsO V (main_arg2 : DevRef τ sig) = V (main_arg2 : DevRef τ sig) := by
  line_results

/-! ## What each stretch computes -/

set_option maxHeartbeats 1000000 in
/-- The first stretch leaves the patch array of the input in main_v22. -/
theorem P_v22 (V : Valuation τ sig (Elt Ideal)) :
    after opsP V (main_v22 : DevRef τ sig) = RefValue.patches (V (main_arg0 : DevRef τ sig)) := by
  line_results
  rfl

/-- The first stretch also leaves the six literal tables. -/
theorem P_c (V : Valuation τ sig (Elt F)) :
    after opsP V (main_c : DevRef τ sig) = constantI S36 32 0#32 := by line_results
theorem P_c_0 (V : Valuation τ sig (Elt F)) :
    after opsP V (main_c_0 : DevRef τ sig) = constantI S36 1 0#1 := by line_results
theorem P_c_1 (V : Valuation τ sig (Elt F)) :
    after opsP V (main_c_1 : DevRef τ sig) = fun i => lit0 (S36.rowMajor i) := by line_results; rfl
theorem P_c_2 (V : Valuation τ sig (Elt F)) :
    after opsP V (main_c_2 : DevRef τ sig) = constantI S36 1 0#1 := by line_results
theorem P_c_3 (V : Valuation τ sig (Elt F)) :
    after opsP V (main_c_3 : DevRef τ sig) = fun i => lit1 (S36.rowMajor i) := by line_results; rfl
theorem P_c_4 (V : Valuation τ sig (Elt F)) :
    after opsP V (main_c_4 : DevRef τ sig) = constantI S36 1 0#1 := by line_results

set_option maxHeartbeats 1000000 in
/-- The second stretch, from the patch array and the six literal tables, leaves the rotated patch rows in main_v41. -/
theorem R_v41 (W : Valuation τ sig (Elt Ideal))
    (hc : W (main_c : DevRef τ sig) = constantI S36 32 0#32)
    (hc0 : W (main_c_0 : DevRef τ sig) = constantI S36 1 0#1)
    (hc1 : W (main_c_1 : DevRef τ sig) = fun i => lit0 (S36.rowMajor i))
    (hc2 : W (main_c_2 : DevRef τ sig) = constantI S36 1 0#1)
    (hc3 : W (main_c_3 : DevRef τ sig) = fun i => lit1 (S36.rowMajor i))
    (hc4 : W (main_c_4 : DevRef τ sig) = constantI S36 1 0#1) :
    after opsR W (main_v41 : DevRef τ sig) = RefValue.rot (W (main_v22 : DevRef τ sig)) := by
  line_results
  rw [hc, hc0, hc1, hc2, hc3, hc4]
  rfl

set_option maxHeartbeats 1000000 in
/-- The third stretch, from the rotated patch rows, leaves the feature rows in main_v56. -/
theorem T_v56 (X : Valuation τ sig (Elt Ideal)) :
    after opsT X (main_v56 : DevRef τ sig) = RefValue.featOf (X (main_v41 : DevRef τ sig)) := by
  line_results
  rfl

set_option maxHeartbeats 1000000 in
/-- The last stretch, from the feature rows, the weights and the bias, leaves the result in main_v70. -/
theorem O_v70 (Y : Valuation τ sig (Elt Ideal)) :
    after opsO Y (main_v70 : DevRef τ sig)
      = RefValue.outOf (Y (main_v56 : DevRef τ sig)) (Y (main_arg1 : DevRef τ sig)) (Y (main_arg2 : DevRef τ sig)) := by
  line_results
  rfl

/-! ## The whole line -/

/-- Two lines one after the other fold as the second over the first's fold. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem arg0_eq (V : Valuation τ sig (Elt F)) :
    after ops V (main_arg0 : DevRef τ sig) = V (main_arg0 : DevRef τ sig) := by
  rw [ops_split, after_app, after_app, after_app, O_arg0, T_arg0, R_arg0, P_arg0]
theorem arg1_eq (V : Valuation τ sig (Elt F)) :
    after ops V (main_arg1 : DevRef τ sig) = V (main_arg1 : DevRef τ sig) := by
  rw [ops_split, after_app, after_app, after_app, O_arg1, T_arg1, R_arg1, P_arg1]
theorem arg2_eq (V : Valuation τ sig (Elt F)) :
    after ops V (main_arg2 : DevRef τ sig) = V (main_arg2 : DevRef τ sig) := by
  rw [ops_split, after_app, after_app, after_app, O_arg2, T_arg2, R_arg2, P_arg2]

/-- The result buffer after the whole line is the reference's result function of the three arguments. -/
theorem out_eq (V : Valuation τ sig (Elt Ideal)) :
    after ops V (main_v70 : DevRef τ sig)
      = RefValue.result (V (main_arg0 : DevRef τ sig)) (V (main_arg1 : DevRef τ sig)) (V (main_arg2 : DevRef τ sig)) := by
  rw [ops_split, after_app, after_app, after_app, O_v70, T_v56, T_arg1, T_arg2, R_arg1, R_arg2, P_arg1, P_arg2,
    R_v41 _ (P_c V) (P_c_0 V) (P_c_1 V) (P_c_2 V) (P_c_3 V) (P_c_4 V), P_v22]
  rfl

/-! ## The run -/

/-- Every weakly fair execution of the reference terminates with the result buffer at the reference's result
    function of the three arguments as they were at the start, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v70) = RefValue.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v70).trans (out_eq _), (h c main_arg0).trans (arg0_eq _),
      (h c main_arg1).trans (arg1_eq _), (h c main_arg2).trans (arg2_eq _)⟩)
    (run_after m ρ)

/-- The reference's frame: every weakly fair execution terminates, faults nowhere, and ends with the three
    arguments unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run m ρ)

end Cert.ReferenceIdeal.RefRun

end
-- ==== Proof.RefValuePre.lean ====
/-
  The reference's feature array read index by index.

  The patches P are carried as an opaque array.  The gather reads, at (b, p, c, n), the broadcast patches at row lit0 n and
  column lit1 n of the 3×3 grid; the rotation axis of its operand was broadcast from a unit axis, so the rotation
  coordinate does not matter and the entry is P[b, p, c·9 + row·3 + column]; for each of the 36 rows n of the table,
  row·3 + column is tau (n / 9) (n % 9).  The reshapes and transposes around it are changes of coordinates at equal row-major position.
  The time feature sums the nine clamped squares of channel 0, the space features re-lay channels 1 … 64 with the
  kernel position outermost.
-/
import proofs.«153807_j19121194401875_2_alg».proof.Proof.RefStages
import proofs.«153807_j19121194401875_2_alg».proof.Proof.Spec
import Idealize.ShloMosaic.Lib.ValueIdx
import Idealize.ShloMosaic.Lib.ValueIdxCoords
import Idealize.ShloMosaic.Lib.ValueLayout
import Idealize.ShloMosaic.Lib.IdealHost
import Idealize.ShloMosaic.PureOps.Ideal.Laws

noncomputable section

namespace Cert.ReferenceIdeal.RefValue

open Idealize.ShloMosaic Idealize.ShloMosaic.ValueIdx Cert.ReferenceIdeal

/-! ## The index table -/

/-- Column 1 of the table is the literal row table (no mask bit is set). -/
theorem table_row : ∀ n : Fin 36, idxTable (ix2 n (⟨1, by omega⟩ : Fin 3)) = lit0 n := by decide
/-- Column 2 of the table is the literal column table. -/
theorem table_col : ∀ n : Fin 36, idxTable (ix2 n (⟨2, by omega⟩ : Fin 3)) = lit1 n := by decide

/-- Row n = g·9 + k of the table names, clamped into 0 … 2 as the gather clamps, the 3×3 position tau g k. -/
theorem table_tau : ∀ (g : Fin 4) (k : Fin 9),
    min (lit0 ⟨g.val * 9 + k.val, by omega⟩).toInt.toNat 2 * 3 + min (lit1 ⟨g.val * 9 + k.val, by omega⟩).toInt.toNat 2
      = (Lorentz.tau g k).val := by decide

/-! ## The gather -/

/-- The gather's dimension numbers. -/
abbrev gd : GatherDims S4x4096x65x4x3x3 S36x3 S4x4096x65x36 :=
  gather_S4x4096x65x4x3x3_S36x3_S4x4096x65x36_012_345_n_n_345_1_4409665111

/-- On the three offset axes the operand index is the result index. -/
theorem opIdx0 (b : Fin 4) (p : Fin 4096) (c : Fin 65) (n : Fin 36) (idx : IVec S36x3 32) :
    (gd.operandIdx (ix4 b p c n) idx ⟨0, by decide⟩).val = b.val := by
  show gd.start (ix4 b p c n) idx ⟨0, by decide⟩ + gd.batchCoord (ix4 b p c n) ⟨0, by decide⟩ + gd.offCoord (ix4 b p c n) ⟨0, by decide⟩ = _
  rw [GatherDims.batchCoord_eq_zero _ _ _ List.not_mem_nil]
  unfold GatherDims.start
  rw [dif_neg (by decide)]
  unfold GatherDims.offCoord
  rw [dif_pos (by decide)]
  simp only [Nat.zero_add]
  rfl

theorem opIdx1 (b : Fin 4) (p : Fin 4096) (c : Fin 65) (n : Fin 36) (idx : IVec S36x3 32) :
    (gd.operandIdx (ix4 b p c n) idx ⟨1, by decide⟩).val = p.val := by
  show gd.start (ix4 b p c n) idx ⟨1, by decide⟩ + gd.batchCoord (ix4 b p c n) ⟨1, by decide⟩ + gd.offCoord (ix4 b p c n) ⟨1, by decide⟩ = _
  rw [GatherDims.batchCoord_eq_zero _ _ _ List.not_mem_nil]
  unfold GatherDims.start
  rw [dif_neg (by decide)]
  unfold GatherDims.offCoord
  rw [dif_pos (by decide)]
  simp only [Nat.zero_add]
  rfl

theorem opIdx2 (b : Fin 4) (p : Fin 4096) (c : Fin 65) (n : Fin 36) (idx : IVec S36x3 32) :
    (gd.operandIdx (ix4 b p c n) idx ⟨2, by decide⟩).val = c.val := by
  show gd.start (ix4 b p c n) idx ⟨2, by decide⟩ + gd.batchCoord (ix4 b p c n) ⟨2, by decide⟩ + gd.offCoord (ix4 b p c n) ⟨2, by decide⟩ = _
  rw [GatherDims.batchCoord_eq_zero _ _ _ List.not_mem_nil]
  unfold GatherDims.start
  rw [dif_neg (by decide)]
  unfold GatherDims.offCoord
  rw [dif_pos (by decide)]
  simp only [Nat.zero_add]
  rfl

/-- On the row axis the operand index is the table's column 1 at row n, read signed and clamped. -/
theorem opIdx4 (b : Fin 4) (p : Fin 4096) (c : Fin 65) (n : Fin 36) (idx : IVec S36x3 32) :
    (gd.operandIdx (ix4 b p c n) idx ⟨4, by decide⟩).val = min (idx (ix2 n (⟨1, by omega⟩ : Fin 3))).toInt.toNat 2 := by
  show gd.start (ix4 b p c n) idx ⟨4, by decide⟩ + gd.batchCoord (ix4 b p c n) ⟨4, by decide⟩ + gd.offCoord (ix4 b p c n) ⟨4, by decide⟩ = _
  rw [GatherDims.batchCoord_eq_zero _ _ _ List.not_mem_nil,
    GatherDims.offCoord_eq_zero _ _ _ (by decide)]
  unfold GatherDims.start
  rw [dif_pos (by decide)]
  have hsi : gd.siIdx (ix4 b p c n) ⟨List.idxOf (⟨4, by decide⟩ : Fin 6) gd.startIndexMap,
      List.idxOf_lt_length_iff.2 (by decide)⟩ = ix2 n (⟨1, by omega⟩ : Fin 3) := by
    funext a; refine Fin.ext ?_
    match a with
    | ⟨0, _⟩ => rfl
    | ⟨1, _⟩ => rfl
  rw [hsi]
  rfl

/-- On the column axis likewise, from the table's column 2. -/
theorem opIdx5 (b : Fin 4) (p : Fin 4096) (c : Fin 65) (n : Fin 36) (idx : IVec S36x3 32) :
    (gd.operandIdx (ix4 b p c n) idx ⟨5, by decide⟩).val = min (idx (ix2 n (⟨2, by omega⟩ : Fin 3))).toInt.toNat 2 := by
  show gd.start (ix4 b p c n) idx ⟨5, by decide⟩ + gd.batchCoord (ix4 b p c n) ⟨5, by decide⟩ + gd.offCoord (ix4 b p c n) ⟨5, by decide⟩ = _
  rw [GatherDims.batchCoord_eq_zero _ _ _ List.not_mem_nil,
    GatherDims.offCoord_eq_zero _ _ _ (by decide)]
  unfold GatherDims.start
  rw [dif_pos (by decide)]
  have hsi : gd.siIdx (ix4 b p c n) ⟨List.idxOf (⟨5, by decide⟩ : Fin 6) gd.startIndexMap,
      List.idxOf_lt_length_iff.2 (by decide)⟩ = ix2 n (⟨2, by omega⟩ : Fin 3) := by
    funext a; refine Fin.ext ?_
    match a with
    | ⟨0, _⟩ => rfl
    | ⟨1, _⟩ => rfl
  rw [hsi]
  rfl

/-- The gathered array at (b, p, c, g·9 + k) is the patch entry of channel c at the rotated position tau g k. -/
theorem gathered_apply (P : FVec Ideal S4x4096x585 .f32) (b : Fin 4) (p : Fin 4096) (c : Fin 65) (g : Fin 4) (k : Fin 9) :
    gathered P (ix4 b p c (⟨g.val * 9 + k.val, by omega⟩ : Fin 36)) = P (ix3 b p (Lorentz.pj c (Lorentz.tau g k))) := by
  have hr : min (lit0 ⟨g.val * 9 + k.val, by omega⟩).toInt.toNat 2 < 3 := by omega
  have hc : min (lit1 ⟨g.val * 9 + k.val, by omega⟩).toInt.toNat 2 < 3 := by omega
  unfold gathered Host.gather
  refine (broadcastInDim_apply _ _ _ _
    (ix6 b p c (⟨0, by omega⟩ : Fin 1) (⟨_, hr⟩ : Fin 3) (⟨_, hc⟩ : Fin 3)) ?_).trans ?_
  · intro a
    match a with
    | ⟨0, _⟩ => exact (opIdx0 b p c _ _).symm
    | ⟨1, _⟩ => exact (opIdx1 b p c _ _).symm
    | ⟨2, _⟩ => exact (opIdx2 b p c _ _).symm
    | ⟨3, _⟩ => rfl
    | ⟨4, _⟩ => exact ((opIdx4 b p c _ _).trans (by rw [table_row])).symm
    | ⟨5, _⟩ => exact ((opIdx5 b p c _ _).trans (by rw [table_col])).symm
  · refine shapeCast_apply _ _ _ _ ?_
    rw [Shape.rowMajor_val_three, Shape.rowMajor_val_six]
    have ht := table_tau g k
    show (b.val * 4096 + p.val) * 585 + (c.val * 9 + (Lorentz.tau g k).val)
      = ((((b.val * 4096 + p.val) * 65 + c.val) * 1 + 0) * 3 + min (lit0 ⟨g.val * 9 + k.val, by omega⟩).toInt.toNat 2) * 3
        + min (lit1 ⟨g.val * 9 + k.val, by omega⟩).toInt.toNat 2
    omega

/-! ## The rotated patches -/

/-- The rotated patches at (g, b, p, c·9 + k) are the patches at (b, p, c·9 + tau g k). -/
theorem rot_apply (P : FVec Ideal S4x4096x585 .f32) (g b : Fin 4) (p : Fin 4096) (c : Fin 65) (k : Fin 9) :
    rot P (ix4 g b p (Lorentz.pj c k)) = P (ix3 b p (Lorentz.pj c (Lorentz.tau g k))) := by
  unfold rot
  refine (shapeCast_apply _ _ _ (ix5 g b p c k) ?_).trans ?_
  · rw [Shape.rowMajor_val_five, Shape.rowMajor_val_four]
    show (((g.val * 4 + b.val) * 4096 + p.val) * 65 + c.val) * 9 + k.val
      = ((g.val * 4 + b.val) * 4096 + p.val) * 585 + (c.val * 9 + k.val)
    omega
  refine (transpose_apply _ _ _ _ (ix5 b p c g k) ?_).trans ?_
  · intro a
    match a with
    | ⟨0, _⟩ => rfl
    | ⟨1, _⟩ => rfl
    | ⟨2, _⟩ => rfl
    | ⟨3, _⟩ => rfl
    | ⟨4, _⟩ => rfl
  refine (shapeCast_apply _ _ _ (ix4 b p c (⟨g.val * 9 + k.val, by omega⟩ : Fin 36)) ?_).trans ?_
  · rw [Shape.rowMajor_val_four, Shape.rowMajor_val_five]
    show ((b.val * 4096 + p.val) * 65 + c.val) * 36 + (g.val * 9 + k.val)
      = (((b.val * 4096 + p.val) * 65 + c.val) * 4 + g.val) * 9 + k.val
    omega
  exact gathered_apply P b p c g k

/-! ## The features -/

/-- The host's square root at an index is the extended reals' square root of the element. -/
theorem hostSqrt_apply {s : Shape} (x : FVec Ideal s .f32) (i : s.Idx) : Host.sqrt (F := Ideal) x i = Ideal.sqrt (x i) := rfl

/-- The clamped time entry k of a rotated patch row: max with √1 = 1. -/
theorem clampedTime_apply (A : FVec Ideal S4x4x4096x585 .f32) (g b : Fin 4) (p : Fin 4096) (k : Fin 9) :
    clampedTime A (ix4 g b p k) = max (A (ix4 g b p (Lorentz.pj 0 k))) Lorentz.one := by
  unfold clampedTime
  rw [maximumf_apply]
  refine congrArg₂ max ?_ ?_
  · refine extractStridedSlice_apply _ _ _ _ _ ?_
    intro a
    match a with
    | ⟨0, _⟩ => exact (Nat.zero_add _).symm
    | ⟨1, _⟩ => exact (Nat.zero_add _).symm
    | ⟨2, _⟩ => exact (Nat.zero_add _).symm
    | ⟨3, _⟩ =>
      show 0 * 9 + k.val = 0 + k.val
      omega
  · rw [broadcastInDim_scalar_apply]
    exact Lorentz.sqrt_one

/-- The time feature of a rotated patch row is timeOf of its nine channel-0 entries. -/
theorem timeF_apply (A : FVec Ideal S4x4x4096x585 .f32) (g b : Fin 4) (p : Fin 4096) (u : Fin 1) :
    timeF A (ix4 g b p u) = Lorentz.timeOf (fun k => A (ix4 g b p (Lorentz.pj 0 k))) := by
  have hred : S4x4x4096x9.Reduces [3] S4x4x4096 := by decide
  unfold timeF Lorentz.timeOf
  rw [hostSqrt_apply, subf_apply]
  refine congrArg Ideal.sqrt (congrArg₂ (· - ·) ?_ ?_)
  · refine (broadcastInDim_apply _ _ _ _ (ix3 g b p) ?_).trans ?_
    · intro a
      match a with
      | ⟨0, _⟩ => rfl
      | ⟨1, _⟩ => rfl
      | ⟨2, _⟩ => rfl
    rw [hostReduceAdd_apply, Ideal.hostReduceAdd_single _ hred]
    show Ideal.ofBits .f32 0x00000000#32
        + ∑ k : Fin 9, mulf (clampedTime A) (clampedTime A) (hred.lift (ix3 g b p) k) = _
    rw [Ideal.ofBits_zero_f32, zero_add]
    refine Finset.sum_congr rfl fun k _ => ?_
    have hl : hred.lift (ix3 g b p) k = ix4 g b p k := by
      funext a
      refine Fin.ext ?_
      match a with
      | ⟨0, _⟩ => rfl
      | ⟨1, _⟩ => rfl
      | ⟨2, _⟩ => rfl
      | ⟨3, _⟩ => rfl
    rw [hl, mulf_apply, clampedTime_apply]
  · rw [broadcastInDim_scalar_apply]
    rfl

/-- The space feature f ≥ 1 of a rotated patch row is its entry of channel chanOf f at position posOf f. -/
theorem spaceF_apply (A : FVec Ideal S4x4x4096x585 .f32) (g b : Fin 4) (p : Fin 4096) (f : Fin 577) (hf : f.val ≠ 0) :
    spaceF A (ix4 g b p (⟨f.val - 1, by omega⟩ : Fin 576))
      = A (ix4 g b p (Lorentz.pj (Lorentz.chanOf f) (Lorentz.posOf f))) := by
  have hq := f.isLt
  unfold spaceF
  refine (shapeCast_apply _ _ _ (ix5 g b p (Lorentz.posOf f) (⟨(f.val - 1) % 64, by omega⟩ : Fin 64)) ?_).trans ?_
  · rw [Shape.rowMajor_val_five, Shape.rowMajor_val_four]
    show (((g.val * 4 + b.val) * 4096 + p.val) * 9 + (f.val - 1) / 64) * 64 + (f.val - 1) % 64
      = ((g.val * 4 + b.val) * 4096 + p.val) * 576 + (f.val - 1)
    omega
  refine (transpose_apply _ _ _ _ (ix5 g b p (⟨(f.val - 1) % 64, by omega⟩ : Fin 64) (Lorentz.posOf f)) ?_).trans ?_
  · intro a
    match a with
    | ⟨0, _⟩ => rfl
    | ⟨1, _⟩ => rfl
    | ⟨2, _⟩ => rfl
    | ⟨3, _⟩ => rfl
    | ⟨4, _⟩ => rfl
  refine (shapeCast_apply _ _ _
    (ix4 g b p (⟨(f.val - 1) % 64 * 9 + (f.val - 1) / 64, by omega⟩ : Fin 576)) ?_).trans ?_
  · rw [Shape.rowMajor_val_four, Shape.rowMajor_val_five]
    show ((g.val * 4 + b.val) * 4096 + p.val) * 576 + ((f.val - 1) % 64 * 9 + (f.val - 1) / 64)
      = (((g.val * 4 + b.val) * 4096 + p.val) * 64 + (f.val - 1) % 64) * 9 + (f.val - 1) / 64
    omega
  refine extractStridedSlice_apply _ _ _ _ _ ?_
  intro a
  match a with
  | ⟨0, _⟩ => exact (Nat.zero_add _).symm
  | ⟨1, _⟩ => exact (Nat.zero_add _).symm
  | ⟨2, _⟩ => exact (Nat.zero_add _).symm
  | ⟨3, _⟩ =>
    show ((f.val - 1) % 64 + 1) * 9 + (f.val - 1) / 64 = 9 + ((f.val - 1) % 64 * 9 + (f.val - 1) / 64)
    omega

/-- The reference's feature array is featR of the patches. -/
theorem preOf_apply (Pv : FVec Ideal S4x4096x585 .f32) (g b : Fin 4) (p : Fin 4096) (f : Fin 577) :
    preOf Pv (ix4 g b p f) = Lorentz.featR (fun b p j => Pv (ix3 b p j)) g b p f := by
  have hq := f.isLt
  unfold preOf featOf Lorentz.featR
  by_cases hf : f.val = 0
  · rw [if_pos hf]
    refine (concatenate_pair_apply_left (t := S4x4x4096x577) (s₁ := S4x4x4096x1) (s₂ := S4x4x4096x576) _ _ _ _ _ rfl
      (ix4 g b p (⟨0, by omega⟩ : Fin 1)) ?_).trans ?_
    · intro a
      match a with
      | ⟨0, _⟩ => rfl
      | ⟨1, _⟩ => rfl
      | ⟨2, _⟩ => rfl
      | ⟨3, _⟩ => exact hf.symm
    rw [timeF_apply]
    refine congrArg Lorentz.timeOf (funext fun k => ?_)
    exact rot_apply Pv g b p 0 k
  · rw [if_neg hf]
    refine (concatenate_pair_apply_right (t := S4x4x4096x577) (s₁ := S4x4x4096x1) (s₂ := S4x4x4096x576) _ _ _ _ _ rfl rfl
      (ix4 g b p (⟨f.val - 1, by omega⟩ : Fin 576)) ?_ ?_).trans ?_
    · intro a ha
      match a with
      | ⟨0, _⟩ => rfl
      | ⟨1, _⟩ => rfl
      | ⟨2, _⟩ => rfl
      | ⟨3, _⟩ => exact absurd rfl ha
    · show (f.val - 1) + 1 = f.val
      omega
    rw [spaceF_apply _ _ _ _ _ hf]
    exact rot_apply Pv g b p _ _

end Cert.ReferenceIdeal.RefValue

end
-- ==== Proof.RefValueOut.lean ====
/-
  The reference's result array read index by index, from its feature array.

  The linear layer is a dot over the one contracted axis plus the bias broadcast along the last axis.  The recomputed
  time component sums the squares of columns 1 … 255; the final transpose and reshape are changes of coordinates.
-/
import proofs.«153807_j19121194401875_2_alg».proof.Proof.RefStages
import proofs.«153807_j19121194401875_2_alg».proof.Proof.Spec
import Idealize.ShloMosaic.Lib.ValueIdx
import Idealize.ShloMosaic.Lib.ValueIdxCoords
import Idealize.ShloMosaic.Lib.ValueLayout
import Idealize.ShloMosaic.Lib.IdealHost
import Idealize.ShloMosaic.PureOps.Ideal.Laws

noncomputable section

namespace Cert.ReferenceIdeal.RefValue

open Idealize.ShloMosaic Idealize.ShloMosaic.ValueIdx Cert.ReferenceIdeal

/-! ## The linear layer -/

/-- The dot's dimension numbers. -/
abbrev dd : DotDims S4x4x4096x577 S256x577 S4x4x4096x256 := dot_S4x4x4096x577_S256x577_S4x4x4096x256_3_1_012_0_n_n

theorem lhs_free0 (i : S4x4x4096x256.Idx) (q : dd.contr.Idx) : (dd.lhsIdx i q 0).val = (i 0).val := by
  unfold DotDims.lhsIdx
  rw [dif_neg (show ¬(0 : Fin S4x4x4096x577.rank) ∈ dd.lhsBatch by decide),
    dif_pos (show (0 : Fin S4x4x4096x577.rank) ∈ dd.lhsNonContracting by decide)]
  rfl

theorem lhs_free1 (i : S4x4x4096x256.Idx) (q : dd.contr.Idx) : (dd.lhsIdx i q 1).val = (i 1).val := by
  unfold DotDims.lhsIdx
  rw [dif_neg (show ¬(1 : Fin S4x4x4096x577.rank) ∈ dd.lhsBatch by decide),
    dif_pos (show (1 : Fin S4x4x4096x577.rank) ∈ dd.lhsNonContracting by decide)]
  rfl

theorem lhs_free2 (i : S4x4x4096x256.Idx) (q : dd.contr.Idx) : (dd.lhsIdx i q 2).val = (i 2).val := by
  unfold DotDims.lhsIdx
  rw [dif_neg (show ¬(2 : Fin S4x4x4096x577.rank) ∈ dd.lhsBatch by decide),
    dif_pos (show (2 : Fin S4x4x4096x577.rank) ∈ dd.lhsNonContracting by decide)]
  rfl

theorem lhs_contr (i : S4x4x4096x256.Idx) (q : dd.contr.Idx) : (dd.lhsIdx i q 3).val = (q ⟨0, by decide⟩).val :=
  dd.lhsIdx_val_of_single rfl i q

theorem rhs_free0 (i : S4x4x4096x256.Idx) (q : dd.contr.Idx) : (dd.rhsIdx i q 0).val = (i 3).val := by
  unfold DotDims.rhsIdx
  rw [dif_neg (show ¬(0 : Fin S256x577.rank) ∈ dd.rhsBatch by decide),
    dif_pos (show (0 : Fin S256x577.rank) ∈ dd.rhsNonContracting by decide)]
  rfl

theorem rhs_contr (i : S4x4x4096x256.Idx) (q : dd.contr.Idx) : (dd.rhsIdx i q 1).val = (q ⟨0, by decide⟩).val :=
  dd.rhsIdx_val_of_single rfl i q

/-- The linear layer at (g, b, p, o): the dot of feature row (g, b, p) with weight row o, plus bias o. -/
theorem lin_apply (pre : FVec Ideal S4x4x4096x577 .f32) (W : FVec Ideal S256x577 .f32) (bias : FVec Ideal S256 .f32)
    (g b : Fin 4) (p : Fin 4096) (o : Fin 256) :
    lin pre W bias (ix4 g b p o) = (∑ f : Fin 577, pre (ix4 g b p f) * W (ix2 o f)) + bias (ix1 o) := by
  unfold lin
  rw [addf_apply]
  refine congrArg₂ (· + ·) ?_ ?_
  · simp only [Host.dotGeneral]
    rw [Ideal.dotGeneral_apply, ← Equiv.sum_comp (contrEquiv1 dd 577 rfl rfl).symm]
    refine Finset.sum_congr rfl fun f _ => ?_
    have hk := contrEquiv1_symm_val dd 577 rfl rfl f
    have el : dd.lhsIdx (ix4 g b p o) ((contrEquiv1 dd 577 rfl rfl).symm f) = ix4 g b p f := funext fun a => Fin.ext (by
      match a with
      | ⟨0, _⟩ => exact lhs_free0 _ _
      | ⟨1, _⟩ => exact lhs_free1 _ _
      | ⟨2, _⟩ => exact lhs_free2 _ _
      | ⟨3, _⟩ => exact (lhs_contr _ _).trans hk)
    have er : dd.rhsIdx (ix4 g b p o) ((contrEquiv1 dd 577 rfl rfl).symm f) = ix2 o f := funext fun a => Fin.ext (by
      match a with
      | ⟨0, _⟩ => exact rhs_free0 _ _
      | ⟨1, _⟩ => exact (rhs_contr _ _).trans hk)
    rw [el, er]
  · refine (broadcastInDim_apply _ _ _ _
      (ix4 (⟨0, by omega⟩ : Fin 1) (⟨0, by omega⟩ : Fin 1) (⟨0, by omega⟩ : Fin 1) o) ?_).trans ?_
    · intro a
      match a with
      | ⟨0, _⟩ => rfl
      | ⟨1, _⟩ => rfl
      | ⟨2, _⟩ => rfl
      | ⟨3, _⟩ => rfl
    refine broadcastInDim_apply _ _ _ _ (ix1 o) ?_
    intro a
    match a with
    | ⟨0, _⟩ => rfl

/-! ## The time recompute -/

/-- The host's square root at an index is the extended reals' square root of the element. -/
theorem hostSqrt_apply' {s : Shape} (x : FVec Ideal s .f32) (i : s.Idx) : Host.sqrt (F := Ideal) x i = Ideal.sqrt (x i) := rfl

/-- Columns 1 … 255 at column j are column j + 1. -/
theorem tailCols_apply (y : FVec Ideal S4x4x4096x256 .f32) (g b : Fin 4) (p : Fin 4096) (j : Fin 255) (o : Fin 256)
    (ho : o.val = 1 + j.val) : tailCols y (ix4 g b p j) = y (ix4 g b p o) := by
  unfold tailCols
  refine extractStridedSlice_apply _ _ _ _ _ ?_
  intro a
  match a with
  | ⟨0, _⟩ => exact (Nat.zero_add _).symm
  | ⟨1, _⟩ => exact (Nat.zero_add _).symm
  | ⟨2, _⟩ => exact (Nat.zero_add _).symm
  | ⟨3, _⟩ => exact ho

/-- The recomputed row: column 0 is √(Σ_{o ≥ 1} y_o² + 1), the others are kept. -/
theorem lorentzF_apply (y : FVec Ideal S4x4x4096x256 .f32) (g b : Fin 4) (p : Fin 4096) (o : Fin 256) :
    lorentzF y (ix4 g b p o) = Lorentz.lorentz (fun o' => y (ix4 g b p o')) o := by
  have hq := o.isLt
  have hred : S4x4x4096x255.Reduces [3] S4x4x4096 := by decide
  unfold lorentzF Lorentz.lorentz
  by_cases ho : o.val = 0
  · rw [if_pos ho]
    refine (concatenate_pair_apply_left (t := S4x4x4096x256) (s₁ := S4x4x4096x1) (s₂ := S4x4x4096x255) _ _ _ _ _ rfl
      (ix4 g b p (⟨0, by omega⟩ : Fin 1)) ?_).trans ?_
    · intro a
      match a with
      | ⟨0, _⟩ => rfl
      | ⟨1, _⟩ => rfl
      | ⟨2, _⟩ => rfl
      | ⟨3, _⟩ => exact ho.symm
    rw [hostSqrt_apply', addf_apply]
    refine congrArg Ideal.sqrt (congrArg₂ (· + ·) ?_ ?_)
    · refine (broadcastInDim_apply _ _ _ _ (ix3 g b p) ?_).trans ?_
      · intro a
        match a with
        | ⟨0, _⟩ => rfl
        | ⟨1, _⟩ => rfl
        | ⟨2, _⟩ => rfl
      rw [hostReduceAdd_apply, Ideal.hostReduceAdd_single _ hred]
      show Ideal.ofBits .f32 0x00000000#32
          + ∑ j : Fin 255, mulf (tailCols y) (tailCols y) (hred.lift (ix3 g b p) j) = _
      rw [Ideal.ofBits_zero_f32, zero_add]
      refine Finset.sum_congr rfl fun j _ => ?_
      have hl : hred.lift (ix3 g b p) j = ix4 g b p j := by
        funext a
        refine Fin.ext ?_
        match a with
        | ⟨0, _⟩ => rfl
        | ⟨1, _⟩ => rfl
        | ⟨2, _⟩ => rfl
        | ⟨3, _⟩ => rfl
      rw [hl, mulf_apply, tailCols_apply y g b p j j.succ (by rw [Fin.val_succ]; omega)]
    · rw [broadcastInDim_scalar_apply]
      rfl
  · rw [if_neg ho]
    refine (concatenate_pair_apply_right (t := S4x4x4096x256) (s₁ := S4x4x4096x1) (s₂ := S4x4x4096x255) _ _ _ _ _ rfl rfl
      (ix4 g b p (⟨o.val - 1, by omega⟩ : Fin 255)) ?_ ?_).trans ?_
    · intro a ha
      match a with
      | ⟨0, _⟩ => rfl
      | ⟨1, _⟩ => rfl
      | ⟨2, _⟩ => rfl
      | ⟨3, _⟩ => exact absurd rfl ha
    · show (o.val - 1) + 1 = o.val
      omega
    exact tailCols_apply y g b p _ o (by show o.val = 1 + (o.val - 1); omega)

/-! ## The result array -/

/-- The result at (b, g, h, w, o): the recomputed row of the linear layer at rotation g, batch b, position h·64 + w. -/
theorem outOf_apply (pre : FVec Ideal S4x4x4096x577 .f32) (W : FVec Ideal S256x577 .f32) (bias : FVec Ideal S256 .f32)
    (b g : Fin 4) (h w : Fin 64) (o : Fin 256) :
    outOf pre W bias (ix5 b g h w o)
      = Lorentz.lorentz (fun o' => (∑ f : Fin 577, pre (ix4 g b (Lorentz.posIdx h w) f) * W (ix2 o' f)) + bias (ix1 o')) o := by
  unfold outOf
  refine (shapeCast_apply _ _ _ (ix4 b g (Lorentz.posIdx h w) o) ?_).trans ?_
  · rw [Shape.rowMajor_val_four, Shape.rowMajor_val_five]
    show ((b.val * 4 + g.val) * 4096 + (h.val * 64 + w.val)) * 256 + o.val
      = (((b.val * 4 + g.val) * 64 + h.val) * 64 + w.val) * 256 + o.val
    omega
  refine (transpose_apply _ _ _ _ (ix4 g b (Lorentz.posIdx h w) o) ?_).trans ?_
  · intro a
    match a with
    | ⟨0, _⟩ => rfl
    | ⟨1, _⟩ => rfl
    | ⟨2, _⟩ => rfl
    | ⟨3, _⟩ => rfl
  rw [lorentzF_apply]
  refine congrArg (fun y => Lorentz.lorentz y o) (funext fun o' => ?_)
  exact lin_apply pre W bias g b (Lorentz.posIdx h w) o'

end Cert.ReferenceIdeal.RefValue

end
-- ==== Proof.RefValue.lean ====
/-
  The reference's result is the specification's Out of the patches, the weights and the bias.
-/
import proofs.«153807_j19121194401875_2_alg».proof.Proof.RefValuePre
import proofs.«153807_j19121194401875_2_alg».proof.Proof.RefValueOut

noncomputable section

namespace Cert.ReferenceIdeal.RefValue

open Idealize.ShloMosaic Idealize.ShloMosaic.ValueIdx Cert.ReferenceIdeal

/-- The result array from any patch array, index by index. -/
theorem outOf_preOf_apply (Pv : FVec Ideal S4x4096x585 .f32) (W : FVec Ideal S256x577 .f32) (bias : FVec Ideal S256 .f32)
    (b g : Fin 4) (h w : Fin 64) (o : Fin 256) :
    outOf (preOf Pv) W bias (ix5 b g h w o)
      = Lorentz.Out (fun b p j => Pv (ix3 b p j)) (fun o f => W (ix2 o f)) (fun o => bias (ix1 o)) b g h w o := by
  rw [outOf_apply]
  unfold Lorentz.Out Lorentz.yR
  refine congrArg (fun y => Lorentz.lorentz y o) (funext fun o' => ?_)
  refine congrArg (· + bias (ix1 o')) (Finset.sum_congr rfl fun f _ => ?_)
  rw [preOf_apply]

/-- The reference's result as a function of its arguments is Out of the patches of the input. -/
theorem result_eq (x : FVec Ideal S4x64x64x65 .f32) (W : FVec Ideal S256x577 .f32) (bias : FVec Ideal S256 .f32) :
    result x W bias = fun i => Lorentz.Out (fun b p j => patches x (ix3 b p j)) (fun o f => W (ix2 o f))
      (fun o => bias (ix1 o)) (i 0) (i 1) (i 2) (i 3) (i 4) := by
  funext i
  obtain ⟨b, g, h, w, o, rfl⟩ : ∃ (b g : Fin 4) (h w : Fin 64) (o : Fin 256), i = ix5 b g h w o :=
    ⟨i 0, i 1, i 2, i 3, i 4, eq_ix5 i⟩
  exact outOf_preOf_apply (patches x) W bias b g h w o

end Cert.ReferenceIdeal.RefValue

end
-- ==== Proof.lean ====
/-
  The certificate's claims, assembled.

  The kernel computes a group-equivariant Lorentz linear layer: unfolded 3×3 patches, one rescaled time feature and
  576 space features per patch row, a linear layer against the weight matrix with its columns permuted by the C4
  rotation, and the time component of the output recomputed from the space components.  The reference rotates the
  patch entries instead of the weight columns.  On the extended reals the two are the same function of the three
  arguments: the rotation is a bijection of the nine kernel positions, so the rotated feature vector is the unrotated
  one read through the column permutation, and a finite sum is unchanged by a bijective change of its index
  (Proof/Spec.lean).  Nothing in the argument needs the inputs to be finite.

  Each program's frame (it runs to the end without a fault and leaves its arguments unchanged) and each program's
  result array as a function of the arguments are proved in the modules imported below; here the two result
  functions are joined.  The idealization rewrote nothing, so preserves is trivial.
-/
import proofs.«153807_j19121194401875_2_alg».proof.Defs
import proofs.«153807_j19121194401875_2_alg».proof.Proof.Gen.Kernel
import proofs.«153807_j19121194401875_2_alg».proof.Proof.Gen.KernelIdeal
import proofs.«153807_j19121194401875_2_alg».proof.Proof.Gen.ReferenceIdeal
import proofs.«153807_j19121194401875_2_alg».proof.Proof.Gen.Pre_finite_inputs
import proofs.«153807_j19121194401875_2_alg».proof.Proof.Spec
import proofs.«153807_j19121194401875_2_alg».proof.Proof.KerFrame
import proofs.«153807_j19121194401875_2_alg».proof.Proof.KerFrameBits
import proofs.«153807_j19121194401875_2_alg».proof.Proof.KerResult
import proofs.«153807_j19121194401875_2_alg».proof.Proof.RefRun
import proofs.«153807_j19121194401875_2_alg».proof.Proof.RefValue

noncomputable section

namespace Cert.Proof

open Idealize.ShloMosaic Idealize.SL.Sem

/-- The word-level kernel runs to the end, faults nowhere and leaves its arguments unchanged. -/
theorem frame_kernel : Cert.frame_Kernel := fun m ρ _ => Cert.Kernel.Hand.frame m ρ

/-- The same of the idealized kernel. -/
theorem frame_kernelIdeal : Cert.frame_KernelIdeal := fun m ρ _ => Cert.KernelIdeal.Hand.frame m ρ

/-- The same of the idealized reference: its run with the result dropped. -/
theorem frame_referenceIdeal : Cert.frame_ReferenceIdeal := fun m ρ _ => Cert.ReferenceIdeal.RefRun.frame m ρ

/-- The idealization rewrote no operation. -/
theorem preserves : Cert.preserves_Kernel_KernelIdeal := trivial

/-- From memories agreeing on the arguments both idealized programs end with the same result array: the kernel's is
    the output array its grid points wrote, reshaped, which is the masked-sum form of the Lorentz layer over the
    permuted weight columns; the reference's is the plain form over rotated features; the two forms are one
    function. -/
theorem algebraic : Cert.algebraic_KernelIdeal_ReferenceIdeal := by
  intro m ρ m' ρ' _ hagree
  refine ⟨_, Cert.KernelIdeal.Hand.run_out (F := Ideal) m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2, Cert.ReferenceIdeal.RefValue.result_eq,
    Cert.KernelIdeal.KerValue.result_eq m c]
  funext i
  exact (Cert.Lorentz.OutK_eq_Out _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
